-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1250000 : Shape := ⟨2, ![2, 1250000]⟩
abbrev S2x200000 : Shape := ⟨2, ![2, 200000]⟩
abbrev S128x64 : Shape := ⟨2, ![128, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_v168 : IVec S_ 1) (main_v169 : FVec F S1 .f32) (main_v170 : FVec F S1 .f32) : IVec S_ 1 :=
  let main_v171 : IVec S1 1 := cmpf .olt main_v169 main_v170
  let main_c_67 : IVec S_ 1 := constantI S_ 1 1#1
  let main_v172 : IVec S_ 1 := (fun x v => Host.reduce IntOp.andi x v reducesTo_S1_S_d0 h_S_) main_v171 main_c_67
  let main_v173 : IVec S_ 1 := andi main_v168 main_v172
  main_v173

def fn_part9 {F : FTy → Type} [FloatOps F] (main_arg33 : FVec F S64x32 .f32) (main_arg34 : FVec F S32 .f32) (main_arg35 : FVec F S32x1 .f32) (main_arg36 : FVec F S1 .f32) (main_v153 : IVec S_ 1) : IVec S_ 1 :=
  let main_v154 : FVec F S64x32 .f32 := Host.absf main_arg33
  let main_cst_60 : FVec F S_ .f32 := constant S_ .f32 0x7F800000#32
  let main_v155 : FVec F S64x32 .f32 := broadcastInDim S64x32 ![] bcast_S_S64x32 main_cst_60
  let main_v156 : IVec S64x32 1 := cmpf .olt main_v154 main_v155
  let main_c_61 : IVec S_ 1 := constantI S_ 1 1#1
  let main_v157 : IVec S_ 1 := (fun x v => Host.reduce IntOp.andi x v reducesTo_S64x32_S_d0_1 h_S_) main_v156 main_c_61
  let main_v158 : IVec S_ 1 := andi main_v153 main_v157
  let main_v159 : FVec F S32 .f32 := Host.absf main_arg34
  let main_cst_62 : FVec F S_ .f32 := constant S_ .f32 0x7F800000#32
  let main_v160 : FVec F S32 .f32 := broadcastInDim S32 ![] bcast_S_S32 main_cst_62
  let main_v161 : IVec S32 1 := cmpf .olt main_v159 main_v160
  let main_c_63 : IVec S_ 1 := constantI S_ 1 1#1
  let main_v162 : IVec S_ 1 := (fun x v => Host.reduce IntOp.andi x v reducesTo_S32_S_d0 h_S_) main_v161 main_c_63
  let main_v163 : IVec S_ 1 := andi main_v158 main_v162
  let main_v164 : FVec F S32x1 .f32 := Host.absf main_arg35
  let main_cst_64 : FVec F S_ .f32 := constant S_ .f32 0x7F800000#32
  let main_v165 : FVec F S32x1 .f32 := broadcastInDim S32x1 ![] bcast_S_S32x1 main_cst_64
  let main_v166 : IVec S32x1 1 := cmpf .olt main_v164 main_v165
  let main_c_65 : IVec S_ 1 := constantI S_ 1 1#1
  let main_v167 : IVec S_ 1 := (fun x v => Host.reduce IntOp.andi x v reducesTo_S32x1_S_d0_1 h_S_) main_v166 main_c_65
  let main_v168 : IVec S_ 1 := andi main_v163 main_v167
  let main_v169 : FVec F S1 .f32 := Host.absf main_arg36
  let main_cst_66 : FVec F S_ .f32 := constant S_ .f32 0x7F800000#32
  let main_v170 : FVec F S1 .f32 := broadcastInDim S1 ![] bcast_S_S1 main_cst_66
  fn_part10 (F := F) main_v168 main_v169 main_v170

def fn_part8 {F : FTy → Type} [FloatOps F] (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg30
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg31
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64 .f32 := Host.absf main_arg32
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  fn_part9 (F := F) main_arg33 main_arg34 main_arg35 main_arg36 main_v153

def fn_part7 {F : FTy → Type} [FloatOps F] (main_arg27 : FVec F S128x64 .f32) (main_arg28 : FVec F S64 .f32) (main_arg29 : FVec F S64 .f32) (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x64 .f32 := Host.absf main_arg27
  let main_cst_48 : FVec F S_ .f32 := constant S_ .f32 0x7F800000#32
  let main_v125 : FVec F S128x64 .f32 := broadcastInDim S128x64 ![] bcast_S_S128x64 main_cst_48
  let main_v126 : IVec S128x64 1 := cmpf .olt main_v124 main_v125
  let main_c_49 : IVec S_ 1 := constantI S_ 1 1#1
  let main_v127 : IVec S_ 1 := (fun x v => Host.reduce IntOp.andi x v reducesTo_S128x64_S_d0_1 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg29
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg30 main_arg31 main_arg32 main_arg33 main_arg34 main_arg35 main_arg36 main_v133 main_v136

def fn_part6 {F : FTy → Type} [FloatOps F] (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_arg27 main_arg28 main_arg29 main_arg30 main_arg31 main_arg32 main_arg33 main_arg34 main_arg35 main_arg36 main_v118 main_v119

def fn_part5 {F : FTy → Type} [FloatOps F] (main_arg20 : FVec F S64 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg16 : FVec F S64 .f32) (main_arg17 : FVec F S64 .f32) (main_arg18 : FVec F S64 .f32) (main_arg19 : FVec F S64 .f32) (main_arg20 : FVec F S64 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S100000x128 .f32) (main_arg1 : IVec S2x1250000 32) (main_arg2 : IVec S2x200000 32) (main_arg3 : FVec F S128x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64 .f32) (main_arg32 : FVec F S64 .f32) (main_arg33 : FVec F S64x32 .f32) (main_arg34 : FVec F S32 .f32) (main_arg35 : FVec F S32x1 .f32) (main_arg36 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S100000x128 : Shape := ⟨2, ![100000, 128]⟩
abbrev S2x1250000 : Shape := ⟨2, ![2, 1250000]⟩
abbrev S2x200000 : Shape := ⟨2, ![2, 200000]⟩
abbrev S128x64 : Shape := ⟨2, ![128, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S5000x128 : Shape := ⟨2, ![5000, 128]⟩
abbrev S5000x64 : Shape := ⟨2, ![5000, 64]⟩
abbrev S1350000x64 : Shape := ⟨2, ![1350000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S64x128 : Shape := ⟨2, ![64, 128]⟩
abbrev S1x128 : Shape := ⟨2, ![1, 128]⟩
abbrev S1x32 : Shape := ⟨2, ![1, 32]⟩
abbrev S1x1 : Shape := ⟨2, ![1, 1]⟩
abbrev S2000x64 : Shape := ⟨2, ![2000, 64]⟩
abbrev S2000x1 : Shape := ⟨2, ![2000, 1]⟩
abbrev S2000x128 : Shape := ⟨2, ![2000, 128]⟩
abbrev S2000x32 : Shape := ⟨2, ![2000, 32]⟩

abbrev nBuf : Space → Nat
  | .hbm => 173
  | .vmem => 57
  | .smem => 0
  | _ => 0

abbrev hbmTy0_0 (i : Nat) : BufTy := match i % 128 with
  | 0 => ⟨S100000x128, .f32⟩
  | 1 => ⟨S2x1250000, .i32⟩
  | 2 => ⟨S2x200000, .i32⟩
  | 3 => ⟨S128x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S128x128, .f32⟩
  | 22 => ⟨S128, .f32⟩
  | 23 => ⟨S128, .f32⟩
  | 24 => ⟨S128, .f32⟩
  | 25 => ⟨S128, .f32⟩
  | 26 => ⟨S128, .f32⟩
  | 27 => ⟨S128x64, .f32⟩
  | 28 => ⟨S64, .f32⟩
  | 29 => ⟨S64, .f32⟩
  | 30 => ⟨S64, .f32⟩
  | 31 => ⟨S64, .f32⟩
  | 32 => ⟨S64, .f32⟩
  | 33 => ⟨S64x32, .f32⟩
  | 34 => ⟨S32, .f32⟩
  | 35 => ⟨S32x1, .f32⟩
  | 36 => ⟨S1, .f32⟩
  | 37 => ⟨S100000, .i32⟩
  | 38 => ⟨S1x1250000, .i32⟩
  | 39 => ⟨S1250000, .i32⟩
  | 40 => ⟨S1350000, .i32⟩
  | 41 => ⟨S1x1250000, .i32⟩
  | 42 => ⟨S1250000, .i32⟩
  | 43 => ⟨S1350000, .i32⟩
  | 44 => ⟨S_, .f32⟩
  | 45 => ⟨S1350000, .f32⟩
  | 46 => ⟨S_, .f32⟩
  | 47 => ⟨S100000, .f32⟩
  | 48 => ⟨S1350000x1, .i32⟩
  | 49 => ⟨S100000, .f32⟩
  | 50 => ⟨S100000, .f32⟩
  | 51 => ⟨S_, .i32⟩
  | 52 => ⟨S1350000, .i32⟩
  | 53 => ⟨S1350000, .i1⟩
  | 54 => ⟨S_, .i32⟩
  | 55 => ⟨S1350000, .i32⟩
  | 56 => ⟨S1350000, .i32⟩
  | 57 => ⟨S1350000, .i32⟩
  | 58 => ⟨S1350000x1, .i32⟩
  | 59 => ⟨S1350000, .f32⟩
  | 60 => ⟨S_, .i32⟩
  | 61 => ⟨S1350000, .i32⟩
  | 62 => ⟨S1350000, .i1⟩
  | 63 => ⟨S_, .i32⟩
  | 64 => ⟨S1350000, .i32⟩
  | 65 => ⟨S1350000, .i32⟩
  | 66 => ⟨S1350000, .i32⟩
  | 67 => ⟨S1350000x1, .i32⟩
  | 68 => ⟨S1350000, .f32⟩
  | 69 => ⟨S1350000, .f32⟩
  | 70 => ⟨S1350000x1, .f32⟩
  | 71 => ⟨S100000x64, .f32⟩
  | 72 => ⟨S_, .i32⟩
  | 73 => ⟨S1350000, .i32⟩
  | 74 => ⟨S1350000, .i1⟩
  | 75 => ⟨S_, .i32⟩
  | 76 => ⟨S1350000, .i32⟩
  | 77 => ⟨S1350000, .i32⟩
  | 78 => ⟨S1350000, .i32⟩
  | 79 => ⟨S1350000x1, .i32⟩
  | 80 => ⟨S1350000x64, .f32⟩
  | 81 => ⟨S1350000x64, .f32⟩
  | 82 => ⟨S1350000x64, .f32⟩
  | 83 => ⟨S_, .f32⟩
  | 84 => ⟨S100000x64, .f32⟩
  | 85 => ⟨S1350000x1, .i32⟩
  | 86 => ⟨S100000x64, .f32⟩
  | 87 => ⟨S1x64, .f32⟩
  | 88 => ⟨S1x64, .f32⟩
  | 89 => ⟨S1x64, .f32⟩
  | 90 => ⟨S1x64, .f32⟩
  | 91 => ⟨S1x64, .f32⟩
  | 92 => ⟨S100000x64, .f32⟩
  | 93 => ⟨S_, .i32⟩
  | 94 => ⟨S1350000, .i32⟩
  | 95 => ⟨S1350000, .i1⟩
  | 96 => ⟨S_, .i32⟩
  | 97 => ⟨S1350000, .i32⟩
  | 98 => ⟨S1350000, .i32⟩
  | 99 => ⟨S1350000, .i32⟩
  | 100 => ⟨S1350000x1, .i32⟩
  | 101 => ⟨S1350000x64, .f32⟩
  | 102 => ⟨S1350000x64, .f32⟩
  | 103 => ⟨S1350000x64, .f32⟩
  | 104 => ⟨S_, .f32⟩
  | 105 => ⟨S100000x64, .f32⟩
  | 106 => ⟨S1350000x1, .i32⟩
  | 107 => ⟨S100000x64, .f32⟩
  | 108 => ⟨S1x64, .f32⟩
  | 109 => ⟨S1x64, .f32⟩
  | 110 => ⟨S1x64, .f32⟩
  | 111 => ⟨S1x64, .f32⟩
  | 112 => ⟨S1x64, .f32⟩
  | 113 => ⟨S100000x64, .f32⟩
  | 114 => ⟨S_, .i32⟩
  | 115 => ⟨S1350000, .i32⟩
  | 116 => ⟨S1350000, .i1⟩
  | 117 => ⟨S_, .i32⟩
  | 118 => ⟨S1350000, .i32⟩
  | 119 => ⟨S1350000, .i32⟩
  | 120 => ⟨S1350000, .i32⟩
  | 121 => ⟨S1350000x1, .i32⟩
  | 122 => ⟨S1350000x64, .f32⟩
  | 123 => ⟨S1350000x64, .f32⟩
  | 124 => ⟨S1350000x64, .f32⟩
  | 125 => ⟨S_, .f32⟩
  | 126 => ⟨S100000x64, .f32⟩
  | 127 => ⟨S1350000x1, .i32⟩
  | _ => ⟨S100000x128, .f32⟩

abbrev hbmTy0_1 (i : Nat) : BufTy := match i % 128 with
  | 0 => ⟨S100000x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S100000x64, .f32⟩
  | 7 => ⟨S1x200000, .i32⟩
  | 8 => ⟨S200000, .i32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000x64, .f32⟩
  | 18 => ⟨S1x200000, .i32⟩
  | 19 => ⟨S200000, .i32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x64, .f32⟩
  | 29 => ⟨S64x128, .f32⟩
  | 30 => ⟨S64x128, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x64, .f32⟩
  | 37 => ⟨S1x64, .f32⟩
  | 38 => ⟨S1x64, .f32⟩
  | 39 => ⟨S1x64, .f32⟩
  | 40 => ⟨S1x64, .f32⟩
  | 41 => ⟨S1x32, .f32⟩
  | 42 => ⟨S1x1, .f32⟩
  | 43 => ⟨S200000x1, .f32⟩
  | 44 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S64x128, .f32⟩
  | .local _ .vmem, ⟨39, _⟩ => ⟨S64x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S128x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S64x32, .f32⟩
  | .local _ .vmem, ⟨52, _⟩ => ⟨S1x32, .f32⟩
  | .local _ .vmem, ⟨53, _⟩ => ⟨S32x1, .f32⟩
  | .local _ .vmem, ⟨54, _⟩ => ⟨S1x1, .f32⟩
  | .local _ .vmem, ⟨55, _⟩ => ⟨S2000x1, .f32⟩
  | .local _ .vmem, ⟨56, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst : Ref sig .tc := ⟨.hbm, 44, rfl⟩
abbrev main_v7 : Ref sig .tc := ⟨.hbm, 45, rfl⟩
abbrev main_cst_0 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c : Ref sig .tc := ⟨.hbm, 51, rfl⟩
abbrev main_v12 : Ref sig .tc := ⟨.hbm, 52, rfl⟩
abbrev main_v13 : Ref sig .tc := ⟨.hbm, 53, rfl⟩
abbrev main_c_1 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_c_2 : Ref sig .tc := ⟨.hbm, 60, rfl⟩
abbrev main_v19 : Ref sig .tc := ⟨.hbm, 61, rfl⟩
abbrev main_v20 : Ref sig .tc := ⟨.hbm, 62, rfl⟩
abbrev main_c_3 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_c_4 : Ref sig .tc := ⟨.hbm, 72, rfl⟩
abbrev main_v29 : Ref sig .tc := ⟨.hbm, 73, rfl⟩
abbrev main_v30 : Ref sig .tc := ⟨.hbm, 74, rfl⟩
abbrev main_c_5 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_6 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_c_7 : Ref sig .tc := ⟨.hbm, 93, rfl⟩
abbrev main_v47 : Ref sig .tc := ⟨.hbm, 94, rfl⟩
abbrev main_v48 : Ref sig .tc := ⟨.hbm, 95, rfl⟩
abbrev main_c_8 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_9 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_10 : Ref sig .tc := ⟨.hbm, 114, rfl⟩
abbrev main_v65 : Ref sig .tc := ⟨.hbm, 115, rfl⟩
abbrev main_v66 : Ref sig .tc := ⟨.hbm, 116, rfl⟩
abbrev main_c_11 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_12 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_c_13 : Ref sig .tc := ⟨.hbm, 137, rfl⟩
abbrev main_v85 : Ref sig .tc := ⟨.hbm, 138, rfl⟩
abbrev main_v86 : Ref sig .tc := ⟨.hbm, 139, rfl⟩
abbrev main_c_14 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_15 : Ref sig .tc := ⟨.hbm, 148, rfl⟩
abbrev main_v94 : Ref sig .tc := ⟨.hbm, 149, rfl⟩
abbrev main_v95 : Ref sig .tc := ⟨.hbm, 150, rfl⟩
abbrev main_c_16 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg10_0 : Ref sig .tc := ⟨.vmem, 46, rfl⟩
abbrev cc4_stg11_0 : Ref sig .tc := ⟨.vmem, 47, rfl⟩
abbrev cc4_stg12_0 : Ref sig .tc := ⟨.vmem, 48, rfl⟩
abbrev cc4_stg13_0 : Ref sig .tc := ⟨.vmem, 49, rfl⟩
abbrev cc4_stg14_0 : Ref sig .tc := ⟨.vmem, 50, rfl⟩
abbrev cc4_stg15_0 : Ref sig .tc := ⟨.vmem, 51, rfl⟩
abbrev cc4_stg16_0 : Ref sig .tc := ⟨.vmem, 52, rfl⟩
abbrev cc4_stg17_0 : Ref sig .tc := ⟨.vmem, 53, rfl⟩
abbrev cc4_stg18_0 : Ref sig .tc := ⟨.vmem, 54, rfl⟩
abbrev cc4_stg19_0 : Ref sig .tc := ⟨.vmem, 55, rfl⟩
abbrev cc4_stg19_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem8_0 : DmaSem sig := 44
abbrev cc4_sem9_0 : DmaSem sig := 45
abbrev cc4_sem10_0 : DmaSem sig := 46
abbrev cc4_sem11_0 : DmaSem sig := 47
abbrev cc4_sem12_0 : DmaSem sig := 48
abbrev cc4_sem13_0 : DmaSem sig := 49
abbrev cc4_sem14_0 : DmaSem sig := 50
abbrev cc4_sem15_0 : DmaSem sig := 51
abbrev cc4_sem16_0 : DmaSem sig := 52
abbrev cc4_sem17_0 : DmaSem sig := 53
abbrev cc4_sem18_0 : DmaSem sig := 54
abbrev cc4_sem19_0 : DmaSem sig := 55
abbrev cc4_sem19_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_19 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x64 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S64x32 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S1x32 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S32x1 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S1x1 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

abbrev stage4_19 : Fin 2 → Memref sig .tc .vmem S2000x1 .f32 := fun | 0 => Memref.whole cc4_stg19_0 | 1 => Memref.whole cc4_stg19_1 | ⟨_ + 2, h⟩ => absurd h (Nat.not_lt.2 (Nat.le_add_left _ _))
abbrev sem4_19 : Fin 2 → DmaSem sig := fun | 0 => cc4_sem19_0 | 1 => cc4_sem19_1 | ⟨_ + 2, h⟩ => absurd h (Nat.not_lt.2 (Nat.le_add_left _ _))
abbrev reads4_19 : Fin grid4.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  slices_S128x128_S64x128_0_0 : S128x128.Slices ![0, 0] S64x128
  slices_S128x128_S64x128_64_0 : S128x128.Slices ![64, 0] S64x128
  shapeCasts_S128_S1x128 : S128.ShapeCasts S1x128
  shapeCasts_S32_S1x32 : S32.ShapeCasts S1x32
  shapeCasts_S1_S1x1 : S1.ShapeCasts S1x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S5000x128_S128x64_S5000x64_1_0_0_1_n_n_wf : DotDims.WF S5000x128 S128x64 S5000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S5000x64_S64x64_S5000x64_1_0_0_1_n_n_wf : DotDims.WF S5000x64 S64x64 S5000x64 [1] [0] [0] [1] [] []
  gather_S100000x64_S200000x1_S200000x64_1_0_n_n_0_1_164_wf : GatherDims.WF S100000x64 S200000x1 S200000x64 [1] [0] [] [0] [] 1 ![1, 64]
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  dot_S2000x64_S64x32_S2000x32_1_0_0_1_n_n_wf : DotDims.WF S2000x64 S64x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S200000x64.size a
  hwx4_0 : ∀ i : grid4.Coords, EltTy.bits .f32 = 32 ∨ (Rect.block (s := S200000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S200000x64.size a
  hwx4_1 : ∀ i : grid4.Coords, EltTy.bits .f32 = 32 ∨ (Rect.block (s := S200000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x64.size a ≤ S128x64.size a
  hwx4_9 : ∀ i : grid4.Coords, EltTy.bits .f32 = 32 ∨ (Rect.block (s := S128x64) S128x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x64.size a ≤ S1x64.size a
  hwx4_11 : ∀ i : grid4.Coords, EltTy.bits .f32 = 32 ∨ (Rect.block (s := S1x64) S1x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x64.size a ≤ S1x64.size a
  hwx4_13 : ∀ i : grid4.Coords, EltTy.bits .f32 = 32 ∨ (Rect.block (s := S1x64) S1x64.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x64.size a ≤ S1x64.size a
  hwx4_14 : ∀ i : grid4.Coords, EltTy.bits .f32 = 32 ∨ (Rect.block (s := S1x64) S1x64.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S64x32.size a ≤ S64x32.size a
  hwx4_15 : ∀ i : grid4.Coords, EltTy.bits .f32 = 32 ∨ (Rect.block (s := S64x32) S64x32.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S1x32.size a ≤ S1x32.size a
  hwx4_16 : ∀ i : grid4.Coords, EltTy.bits .f32 = 32 ∨ (Rect.block (s := S1x32) S1x32.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S32x1.size a ≤ S32x1.size a
  hwx4_17 : ∀ i : grid4.Coords, EltTy.bits .f32 = 32 ∨ (Rect.block (s := S32x1) S32x1.size (cc4_transform_17 i) (hinb4_17 i)).WholeWords (EltTy.packing .f32)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S1x1.size a ≤ S1x1.size a
  hwx4_18 : ∀ i : grid4.Coords, EltTy.bits .f32 = 32 ∨ (Rect.block (s := S1x1) S1x1.size (cc4_transform_18 i) (hinb4_18 i)).WholeWords (EltTy.packing .f32)
  hstage4_19 : ∀ j, (stage4_19 j).IsWhole
  nbuf4_19 : grid4.bufCount reads4_19 false = 2
  hreads4_19 : ∀ i i' : grid4.Coords, (∀ a, reads4_19 a = true → i a = i' a) → cc4_transform_19 i = cc4_transform_19 i'
  hinb4_19 : ∀ (i : grid4.Coords) a, (cc4_transform_19 i a + 1) * S2000x1.size a ≤ S200000x1.size a
  hwx4_19 : ∀ i : grid4.Coords, EltTy.bits .f32 = 32 ∨ (Rect.block (s := S200000x1) S2000x1.size (cc4_transform_19 i) (hinb4_19 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v91) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v101) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v104) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v105) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v106) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v107) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg27) S128x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v108) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v109) S1x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v110) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v111) S1x64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v112) S1x64.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_arg33) S64x32.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v113) S1x32.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_arg35) S32x1.size cc4_transform_17 reads4_17 false true 1 stage4_17 sem4_17
    hrank4 hreads4_17 hinb4_17 nbuf4_17 (Memref.isWhole_whole _) hwx4_17 hstage4_17

abbrev win4_18 : Pipeline.Window sig grid4 :=
  Pipeline.Window.ofSpec (Memref.whole main_v114) S1x1.size cc4_transform_18 reads4_18 false true 1 stage4_18 sem4_18
    hrank4 hreads4_18 hinb4_18 nbuf4_18 (Memref.isWhole_whole _) hwx4_18 hstage4_18

abbrev win4_19 : Pipeline.Window sig grid4 :=
  Pipeline.Window.ofSpec (Memref.whole main_v115) S2000x1.size cc4_transform_19 reads4_19 true false 2 stage4_19 sem4_19
    hrank4 hreads4_19 hinb4_19 nbuf4_19 (Memref.isWhole_whole _) hwx4_19 hstage4_19

abbrev win4 : Fin 20 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | 19 => win4_19 | ⟨_ + 20, h⟩ => absurd h (Nat.not_lt.2 (Nat.le_add_left _ _))
abbrev spec4 : Fin 20 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1250000 : Shape := ⟨2, ![2, 1250000]⟩
abbrev S2x200000 : Shape := ⟨2, ![2, 200000]⟩
abbrev S128x64 : Shape := ⟨2, ![128, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S1350000x64 : Shape := ⟨2, ![1350000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S1x128 : Shape := ⟨2, ![1, 128]⟩
abbrev S200000x32 : Shape := ⟨2, ![200000, 32]⟩
abbrev S1x32 : Shape := ⟨2, ![1, 32]⟩
abbrev S1x1 : Shape := ⟨2, ![1, 1]⟩

abbrev nBuf : Space → Nat
  | .hbm => 263
  | .vmem => 0
  | .smem => 0
  | _ => 0

abbrev hbmTy0_0 (i : Nat) : BufTy := match i % 128 with
  | 0 => ⟨S100000x128, .f32⟩
  | 1 => ⟨S2x1250000, .i32⟩
  | 2 => ⟨S2x200000, .i32⟩
  | 3 => ⟨S128x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S128x128, .f32⟩
  | 22 => ⟨S128, .f32⟩
  | 23 => ⟨S128, .f32⟩
  | 24 => ⟨S128, .f32⟩
  | 25 => ⟨S128, .f32⟩
  | 26 => ⟨S128, .f32⟩
  | 27 => ⟨S128x64, .f32⟩
  | 28 => ⟨S64, .f32⟩
  | 29 => ⟨S64, .f32⟩
  | 30 => ⟨S64, .f32⟩
  | 31 => ⟨S64, .f32⟩
  | 32 => ⟨S64, .f32⟩
  | 33 => ⟨S64x32, .f32⟩
  | 34 => ⟨S32, .f32⟩
  | 35 => ⟨S32x1, .f32⟩
  | 36 => ⟨S1, .f32⟩
  | 37 => ⟨S100000, .i32⟩
  | 38 => ⟨S1x1250000, .i32⟩
  | 39 => ⟨S1250000, .i32⟩
  | 40 => ⟨S1350000, .i32⟩
  | 41 => ⟨S1x1250000, .i32⟩
  | 42 => ⟨S1250000, .i32⟩
  | 43 => ⟨S1350000, .i32⟩
  | 44 => ⟨S_, .f32⟩
  | 45 => ⟨S1350000, .f32⟩
  | 46 => ⟨S_, .f32⟩
  | 47 => ⟨S100000, .f32⟩
  | 48 => ⟨S1350000x1, .i32⟩
  | 49 => ⟨S100000, .f32⟩
  | 50 => ⟨S100000, .f32⟩
  | 51 => ⟨S_, .i32⟩
  | 52 => ⟨S1350000, .i32⟩
  | 53 => ⟨S1350000, .i1⟩
  | 54 => ⟨S_, .i32⟩
  | 55 => ⟨S1350000, .i32⟩
  | 56 => ⟨S1350000, .i32⟩
  | 57 => ⟨S1350000, .i32⟩
  | 58 => ⟨S1350000x1, .i32⟩
  | 59 => ⟨S1350000, .f32⟩
  | 60 => ⟨S_, .i32⟩
  | 61 => ⟨S1350000, .i32⟩
  | 62 => ⟨S1350000, .i1⟩
  | 63 => ⟨S_, .i32⟩
  | 64 => ⟨S1350000, .i32⟩
  | 65 => ⟨S1350000, .i32⟩
  | 66 => ⟨S1350000, .i32⟩
  | 67 => ⟨S1350000x1, .i32⟩
  | 68 => ⟨S1350000, .f32⟩
  | 69 => ⟨S1350000, .f32⟩
  | 70 => ⟨S1350000x1, .f32⟩
  | 71 => ⟨S100000x64, .f32⟩
  | 72 => ⟨S_, .i32⟩
  | 73 => ⟨S1350000, .i32⟩
  | 74 => ⟨S1350000, .i1⟩
  | 75 => ⟨S_, .i32⟩
  | 76 => ⟨S1350000, .i32⟩
  | 77 => ⟨S1350000, .i32⟩
  | 78 => ⟨S1350000, .i32⟩
  | 79 => ⟨S1350000x1, .i32⟩
  | 80 => ⟨S1350000x64, .f32⟩
  | 81 => ⟨S1350000x64, .f32⟩
  | 82 => ⟨S1350000x64, .f32⟩
  | 83 => ⟨S_, .f32⟩
  | 84 => ⟨S100000x64, .f32⟩
  | 85 => ⟨S1350000x1, .i32⟩
  | 86 => ⟨S100000x64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S64, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S_, .i32⟩
  | 111 => ⟨S1350000, .i32⟩
  | 112 => ⟨S1350000, .i1⟩
  | 113 => ⟨S_, .i32⟩
  | 114 => ⟨S1350000, .i32⟩
  | 115 => ⟨S1350000, .i32⟩
  | 116 => ⟨S1350000, .i32⟩
  | 117 => ⟨S1350000x1, .i32⟩
  | 118 => ⟨S1350000x64, .f32⟩
  | 119 => ⟨S1350000x64, .f32⟩
  | 120 => ⟨S1350000x64, .f32⟩
  | 121 => ⟨S_, .f32⟩
  | 122 => ⟨S100000x64, .f32⟩
  | 123 => ⟨S1350000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S64, .f32⟩
  | 5 => ⟨S64, .f32⟩
  | 6 => ⟨S64, .f32⟩
  | 7 => ⟨S1x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000x64, .f32⟩
  | 20 => ⟨S_, .i32⟩
  | 21 => ⟨S1350000, .i32⟩
  | 22 => ⟨S1350000, .i1⟩
  | 23 => ⟨S_, .i32⟩
  | 24 => ⟨S1350000, .i32⟩
  | 25 => ⟨S1350000, .i32⟩
  | 26 => ⟨S1350000, .i32⟩
  | 27 => ⟨S1350000x1, .i32⟩
  | 28 => ⟨S1350000x64, .f32⟩
  | 29 => ⟨S1350000x64, .f32⟩
  | 30 => ⟨S1350000x64, .f32⟩
  | 31 => ⟨S_, .f32⟩
  | 32 => ⟨S100000x64, .f32⟩
  | 33 => ⟨S1350000x1, .i32⟩
  | 34 => ⟨S100000x64, .f32⟩
  | 35 => ⟨S1x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S64, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S1x200000, .i32⟩
  | 55 => ⟨S200000, .i32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x64, .f32⟩
  | 65 => ⟨S1x200000, .i32⟩
  | 66 => ⟨S200000, .i32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x64, .f32⟩
  | 76 => ⟨S200000x128, .f32⟩
  | 77 => ⟨S200000x128, .f32⟩
  | 78 => ⟨S1x128, .f32⟩
  | 79 => ⟨S200000x128, .f32⟩
  | 80 => ⟨S200000x128, .f32⟩
  | 81 => ⟨S1x128, .f32⟩
  | 82 => ⟨S200000x128, .f32⟩
  | 83 => ⟨S200000x128, .f32⟩
  | 84 => ⟨S_, .f32⟩
  | 85 => ⟨S128, .f32⟩
  | 86 => ⟨S128, .f32⟩
  | 87 => ⟨S128, .f32⟩
  | 88 => ⟨S1x128, .f32⟩
  | 89 => ⟨S200000x128, .f32⟩
  | 90 => ⟨S200000x128, .f32⟩
  | 91 => ⟨S1x128, .f32⟩
  | 92 => ⟨S200000x128, .f32⟩
  | 93 => ⟨S200000x128, .f32⟩
  | 94 => ⟨S1x128, .f32⟩
  | 95 => ⟨S200000x128, .f32⟩
  | 96 => ⟨S200000x128, .f32⟩
  | 97 => ⟨S_, .f32⟩
  | 98 => ⟨S200000x128, .f32⟩
  | 99 => ⟨S200000x128, .f32⟩
  | 100 => ⟨S200000x64, .f32⟩
  | 101 => ⟨S1x64, .f32⟩
  | 102 => ⟨S200000x64, .f32⟩
  | 103 => ⟨S200000x64, .f32⟩
  | 104 => ⟨S1x64, .f32⟩
  | 105 => ⟨S200000x64, .f32⟩
  | 106 => ⟨S200000x64, .f32⟩
  | 107 => ⟨S_, .f32⟩
  | 108 => ⟨S64, .f32⟩
  | 109 => ⟨S64, .f32⟩
  | 110 => ⟨S64, .f32⟩
  | 111 => ⟨S1x64, .f32⟩
  | 112 => ⟨S200000x64, .f32⟩
  | 113 => ⟨S200000x64, .f32⟩
  | 114 => ⟨S1x64, .f32⟩
  | 115 => ⟨S200000x64, .f32⟩
  | 116 => ⟨S200000x64, .f32⟩
  | 117 => ⟨S1x64, .f32⟩
  | 118 => ⟨S200000x64, .f32⟩
  | 119 => ⟨S200000x64, .f32⟩
  | 120 => ⟨S_, .f32⟩
  | 121 => ⟨S200000x64, .f32⟩
  | 122 => ⟨S200000x64, .f32⟩
  | 123 => ⟨S200000x32, .f32⟩
  | 124 => ⟨S1x32, .f32⟩
  | 125 => ⟨S200000x32, .f32⟩
  | 126 => ⟨S200000x32, .f32⟩
  | 127 => ⟨S_, .f32⟩
  | _ => ⟨S100000x128, .f32⟩

abbrev hbmTy0_2 (i : Nat) : BufTy := match i % 128 with
  | 0 => ⟨S200000x32, .f32⟩
  | 1 => ⟨S200000x32, .f32⟩
  | 2 => ⟨S200000x1, .f32⟩
  | 3 => ⟨S1x1, .f32⟩
  | 4 => ⟨S200000x1, .f32⟩
  | 5 => ⟨S200000x1, .f32⟩
  | 6 => ⟨S200000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst : Ref sig .tc := ⟨.hbm, 44, rfl⟩
abbrev main_v7 : Ref sig .tc := ⟨.hbm, 45, rfl⟩
abbrev main_cst_0 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c : Ref sig .tc := ⟨.hbm, 51, rfl⟩
abbrev main_v12 : Ref sig .tc := ⟨.hbm, 52, rfl⟩
abbrev main_v13 : Ref sig .tc := ⟨.hbm, 53, rfl⟩
abbrev main_c_1 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_c_2 : Ref sig .tc := ⟨.hbm, 60, rfl⟩
abbrev main_v19 : Ref sig .tc := ⟨.hbm, 61, rfl⟩
abbrev main_v20 : Ref sig .tc := ⟨.hbm, 62, rfl⟩
abbrev main_c_3 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_c_4 : Ref sig .tc := ⟨.hbm, 72, rfl⟩
abbrev main_v29 : Ref sig .tc := ⟨.hbm, 73, rfl⟩
abbrev main_v30 : Ref sig .tc := ⟨.hbm, 74, rfl⟩
abbrev main_c_5 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_6 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_7 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_call0_cst : Ref sig .tc := ⟨.hbm, 106, rfl⟩
abbrev main_call0_v0 : Ref sig .tc := ⟨.hbm, 107, rfl⟩
abbrev main_v59 : Ref sig .tc := ⟨.hbm, 108, rfl⟩
abbrev main_v60 : Ref sig .tc := ⟨.hbm, 109, rfl⟩
abbrev main_c_8 : Ref sig .tc := ⟨.hbm, 110, rfl⟩
abbrev main_v61 : Ref sig .tc := ⟨.hbm, 111, rfl⟩
abbrev main_v62 : Ref sig .tc := ⟨.hbm, 112, rfl⟩
abbrev main_c_9 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_10 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_11 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_call1_cst : Ref sig .tc := ⟨.hbm, 144, rfl⟩
abbrev main_call1_v0 : Ref sig .tc := ⟨.hbm, 145, rfl⟩
abbrev main_v91 : Ref sig .tc := ⟨.hbm, 146, rfl⟩
abbrev main_v92 : Ref sig .tc := ⟨.hbm, 147, rfl⟩
abbrev main_c_12 : Ref sig .tc := ⟨.hbm, 148, rfl⟩
abbrev main_v93 : Ref sig .tc := ⟨.hbm, 149, rfl⟩
abbrev main_v94 : Ref sig .tc := ⟨.hbm, 150, rfl⟩
abbrev main_c_13 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_14 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_15 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_c_16 : Ref sig .tc := ⟨.hbm, 184, rfl⟩
abbrev main_v125 : Ref sig .tc := ⟨.hbm, 185, rfl⟩
abbrev main_v126 : Ref sig .tc := ⟨.hbm, 186, rfl⟩
abbrev main_c_17 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_c_18 : Ref sig .tc := ⟨.hbm, 195, rfl⟩
abbrev main_v134 : Ref sig .tc := ⟨.hbm, 196, rfl⟩
abbrev main_v135 : Ref sig .tc := ⟨.hbm, 197, rfl⟩
abbrev main_c_19 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_20 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_call2_cst : Ref sig .tc := ⟨.hbm, 225, rfl⟩
abbrev main_call2_v0 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_21 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_call3_cst : Ref sig .tc := ⟨.hbm, 248, rfl⟩
abbrev main_call3_v0 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_call4_cst : Ref sig .tc := ⟨.hbm, 255, rfl⟩
abbrev main_call4_v0 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x128_d1 : Shape.Concatenates [S200000x64, S200000x64] S200000x128 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S128 : S_.BroadcastsInDim S128 (![] : Fin 0 → Fin S128.rank)
  bcast_S_S200000x128 : S_.BroadcastsInDim S200000x128 (![] : Fin 0 → Fin S200000x128.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x128_S128x64_S100000x64_1_0_0_1_n_n_wf : DotDims.WF S100000x128 S128x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x128_S128x128_S200000x128_1_0_0_1_n_n_wf : DotDims.WF S200000x128 S128x128 S200000x128 [1] [0] [0] [1] [] []
  dot_S200000x128_S128x64_S200000x64_1_0_0_1_n_n_wf : DotDims.WF S200000x128 S128x64 S200000x64 [1] [0] [0] [1] [] []
  dot_S200000x64_S64x32_S200000x32_1_0_0_1_n_n_wf : DotDims.WF S200000x64 S64x32 S200000x32 [1] [0] [0] [1] [] []
  dot_S200000x32_S32x1_S200000x1_1_0_0_1_n_n_wf : DotDims.WF S200000x32 S32x1 S200000x1 [1] [0] [0] [1] [] []

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.KRun.lean ====
/-
  The kernel's run with every buffer named.  @main is eleven segments — six stretches of host operations
  and five grid regions between them — and the run over the segments ends with every unscoped buffer of
  a core at the contents the fold through the segments leaves (`Gen.W11`): the launch contents pushed
  through each stretch's operations, and through each region by replacing its arrays with what its
  write-backs leave.  The frame keeps only the argument arrays out of that last state; here all of it is
  kept, so that the result buffer can be read off the same run.
-/
import proofs.«104744_j77352361001295_2_alg».proof.Proof.Gen.KernelIdeal.Frame

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in every final state each unscoped
    buffer of each core holds what the fold through the eleven segments leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Whole

end
-- ==== Proof.KeepTac.lean ====
/-
  A buffer that no operation of a stretch of host operations writes holds, after the stretch, what it held before
  it: the contents after a stretch are the fold of its operations over the contents before, and an operation
  changes only the buffer it writes.  The tactic below discharges the side condition "no operation of the stretch
  writes this buffer" by going through the stretch's operations one by one.
-/
import proofs.«104744_j77352361001295_2_alg».proof.Proof.Gen.KernelIdeal.Frame

namespace Cert.KernelIdeal.Whole

open Cert.KernelIdeal Cert.KernelIdeal.Gen
open Idealize.ShloMosaic Idealize.ShloMosaic.TcCoe

/-- A buffer that no operation of a stretch writes holds after the stretch what it held before: the fold of the
    stretch's operations over a valuation changes only the buffers the operations write. -/
macro "stretch_keeps" : tactic => `(tactic| (
  refine StableHlo.after_of_forall_not_mem _ _ (List.forall_iff_forall_mem.mp ?_)
  simp only [hostOps0, hostOps1, hostOps2, hostOps3, hostOps4, hostOps5, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

end Cert.KernelIdeal.Whole
-- ==== Proof.KeepA.lean ====
/-
  Buffers that persist.  Between the places where a buffer is written and where it is read lie stretches of host
  operations that do not write it and grid regions whose windows are other arrays; through each such segment
  the buffer keeps its contents.  One equation per buffer and segment (segments 1, 2 of the eleven), for
  exactly the buffers a later segment reads: the two index lists and the edge weights computed before the
  first region, and the argument arrays.
-/
import proofs.«104744_j77352361001295_2_alg».proof.Proof.KeepTac

set_option maxRecDepth 16384

noncomputable section

namespace Cert.KernelIdeal.Whole

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

/-! ### segment 1: a stretch of host operations -/

theorem s1_arg0 : W1 m ρ c (Proc.devRef .tc main_arg0) = W0 m ρ c (Proc.devRef .tc main_arg0) := by stretch_keeps
theorem s1_arg2 : W1 m ρ c (Proc.devRef .tc main_arg2) = W0 m ρ c (Proc.devRef .tc main_arg2) := by stretch_keeps
theorem s1_arg3 : W1 m ρ c (Proc.devRef .tc main_arg3) = W0 m ρ c (Proc.devRef .tc main_arg3) := by stretch_keeps
theorem s1_arg4 : W1 m ρ c (Proc.devRef .tc main_arg4) = W0 m ρ c (Proc.devRef .tc main_arg4) := by stretch_keeps
theorem s1_arg5 : W1 m ρ c (Proc.devRef .tc main_arg5) = W0 m ρ c (Proc.devRef .tc main_arg5) := by stretch_keeps
theorem s1_arg6 : W1 m ρ c (Proc.devRef .tc main_arg6) = W0 m ρ c (Proc.devRef .tc main_arg6) := by stretch_keeps
theorem s1_arg7 : W1 m ρ c (Proc.devRef .tc main_arg7) = W0 m ρ c (Proc.devRef .tc main_arg7) := by stretch_keeps
theorem s1_arg8 : W1 m ρ c (Proc.devRef .tc main_arg8) = W0 m ρ c (Proc.devRef .tc main_arg8) := by stretch_keeps
theorem s1_arg9 : W1 m ρ c (Proc.devRef .tc main_arg9) = W0 m ρ c (Proc.devRef .tc main_arg9) := by stretch_keeps
theorem s1_arg10 : W1 m ρ c (Proc.devRef .tc main_arg10) = W0 m ρ c (Proc.devRef .tc main_arg10) := by stretch_keeps
theorem s1_arg11 : W1 m ρ c (Proc.devRef .tc main_arg11) = W0 m ρ c (Proc.devRef .tc main_arg11) := by stretch_keeps
theorem s1_arg12 : W1 m ρ c (Proc.devRef .tc main_arg12) = W0 m ρ c (Proc.devRef .tc main_arg12) := by stretch_keeps
theorem s1_arg13 : W1 m ρ c (Proc.devRef .tc main_arg13) = W0 m ρ c (Proc.devRef .tc main_arg13) := by stretch_keeps
theorem s1_arg14 : W1 m ρ c (Proc.devRef .tc main_arg14) = W0 m ρ c (Proc.devRef .tc main_arg14) := by stretch_keeps
theorem s1_arg15 : W1 m ρ c (Proc.devRef .tc main_arg15) = W0 m ρ c (Proc.devRef .tc main_arg15) := by stretch_keeps
theorem s1_arg16 : W1 m ρ c (Proc.devRef .tc main_arg16) = W0 m ρ c (Proc.devRef .tc main_arg16) := by stretch_keeps
theorem s1_arg17 : W1 m ρ c (Proc.devRef .tc main_arg17) = W0 m ρ c (Proc.devRef .tc main_arg17) := by stretch_keeps
theorem s1_arg18 : W1 m ρ c (Proc.devRef .tc main_arg18) = W0 m ρ c (Proc.devRef .tc main_arg18) := by stretch_keeps
theorem s1_arg19 : W1 m ρ c (Proc.devRef .tc main_arg19) = W0 m ρ c (Proc.devRef .tc main_arg19) := by stretch_keeps
theorem s1_arg20 : W1 m ρ c (Proc.devRef .tc main_arg20) = W0 m ρ c (Proc.devRef .tc main_arg20) := by stretch_keeps
theorem s1_arg21 : W1 m ρ c (Proc.devRef .tc main_arg21) = W0 m ρ c (Proc.devRef .tc main_arg21) := by stretch_keeps
theorem s1_arg22 : W1 m ρ c (Proc.devRef .tc main_arg22) = W0 m ρ c (Proc.devRef .tc main_arg22) := by stretch_keeps
theorem s1_arg23 : W1 m ρ c (Proc.devRef .tc main_arg23) = W0 m ρ c (Proc.devRef .tc main_arg23) := by stretch_keeps
theorem s1_arg24 : W1 m ρ c (Proc.devRef .tc main_arg24) = W0 m ρ c (Proc.devRef .tc main_arg24) := by stretch_keeps
theorem s1_arg25 : W1 m ρ c (Proc.devRef .tc main_arg25) = W0 m ρ c (Proc.devRef .tc main_arg25) := by stretch_keeps
theorem s1_arg26 : W1 m ρ c (Proc.devRef .tc main_arg26) = W0 m ρ c (Proc.devRef .tc main_arg26) := by stretch_keeps
theorem s1_arg27 : W1 m ρ c (Proc.devRef .tc main_arg27) = W0 m ρ c (Proc.devRef .tc main_arg27) := by stretch_keeps
theorem s1_arg28 : W1 m ρ c (Proc.devRef .tc main_arg28) = W0 m ρ c (Proc.devRef .tc main_arg28) := by stretch_keeps
theorem s1_arg29 : W1 m ρ c (Proc.devRef .tc main_arg29) = W0 m ρ c (Proc.devRef .tc main_arg29) := by stretch_keeps
theorem s1_arg30 : W1 m ρ c (Proc.devRef .tc main_arg30) = W0 m ρ c (Proc.devRef .tc main_arg30) := by stretch_keeps
theorem s1_arg31 : W1 m ρ c (Proc.devRef .tc main_arg31) = W0 m ρ c (Proc.devRef .tc main_arg31) := by stretch_keeps
theorem s1_arg32 : W1 m ρ c (Proc.devRef .tc main_arg32) = W0 m ρ c (Proc.devRef .tc main_arg32) := by stretch_keeps
theorem s1_arg33 : W1 m ρ c (Proc.devRef .tc main_arg33) = W0 m ρ c (Proc.devRef .tc main_arg33) := by stretch_keeps
theorem s1_arg34 : W1 m ρ c (Proc.devRef .tc main_arg34) = W0 m ρ c (Proc.devRef .tc main_arg34) := by stretch_keeps
theorem s1_arg35 : W1 m ρ c (Proc.devRef .tc main_arg35) = W0 m ρ c (Proc.devRef .tc main_arg35) := by stretch_keeps
theorem s1_arg36 : W1 m ρ c (Proc.devRef .tc main_arg36) = W0 m ρ c (Proc.devRef .tc main_arg36) := by stretch_keeps

/-! ### segment 2: a grid region (none of these buffers is one of its arrays) -/

theorem s2_v3 : W2 m ρ c (Proc.devRef .tc main_v3) = W1 m ρ c (Proc.devRef .tc main_v3) := W2_of_ne m ρ c main_v3 (by decide)
theorem s2_v6 : W2 m ρ c (Proc.devRef .tc main_v6) = W1 m ρ c (Proc.devRef .tc main_v6) := W2_of_ne m ρ c main_v6 (by decide)
theorem s2_v27 : W2 m ρ c (Proc.devRef .tc main_v27) = W1 m ρ c (Proc.devRef .tc main_v27) := W2_of_ne m ρ c main_v27 (by decide)
theorem s2_arg2 : W2 m ρ c (Proc.devRef .tc main_arg2) = W1 m ρ c (Proc.devRef .tc main_arg2) := W2_of_ne m ρ c main_arg2 (by decide)
theorem s2_arg4 : W2 m ρ c (Proc.devRef .tc main_arg4) = W1 m ρ c (Proc.devRef .tc main_arg4) := W2_of_ne m ρ c main_arg4 (by decide)
theorem s2_arg5 : W2 m ρ c (Proc.devRef .tc main_arg5) = W1 m ρ c (Proc.devRef .tc main_arg5) := W2_of_ne m ρ c main_arg5 (by decide)
theorem s2_arg6 : W2 m ρ c (Proc.devRef .tc main_arg6) = W1 m ρ c (Proc.devRef .tc main_arg6) := W2_of_ne m ρ c main_arg6 (by decide)
theorem s2_arg7 : W2 m ρ c (Proc.devRef .tc main_arg7) = W1 m ρ c (Proc.devRef .tc main_arg7) := W2_of_ne m ρ c main_arg7 (by decide)
theorem s2_arg8 : W2 m ρ c (Proc.devRef .tc main_arg8) = W1 m ρ c (Proc.devRef .tc main_arg8) := W2_of_ne m ρ c main_arg8 (by decide)
theorem s2_arg9 : W2 m ρ c (Proc.devRef .tc main_arg9) = W1 m ρ c (Proc.devRef .tc main_arg9) := W2_of_ne m ρ c main_arg9 (by decide)
theorem s2_arg10 : W2 m ρ c (Proc.devRef .tc main_arg10) = W1 m ρ c (Proc.devRef .tc main_arg10) := W2_of_ne m ρ c main_arg10 (by decide)
theorem s2_arg11 : W2 m ρ c (Proc.devRef .tc main_arg11) = W1 m ρ c (Proc.devRef .tc main_arg11) := W2_of_ne m ρ c main_arg11 (by decide)
theorem s2_arg12 : W2 m ρ c (Proc.devRef .tc main_arg12) = W1 m ρ c (Proc.devRef .tc main_arg12) := W2_of_ne m ρ c main_arg12 (by decide)
theorem s2_arg13 : W2 m ρ c (Proc.devRef .tc main_arg13) = W1 m ρ c (Proc.devRef .tc main_arg13) := W2_of_ne m ρ c main_arg13 (by decide)
theorem s2_arg14 : W2 m ρ c (Proc.devRef .tc main_arg14) = W1 m ρ c (Proc.devRef .tc main_arg14) := W2_of_ne m ρ c main_arg14 (by decide)
theorem s2_arg15 : W2 m ρ c (Proc.devRef .tc main_arg15) = W1 m ρ c (Proc.devRef .tc main_arg15) := W2_of_ne m ρ c main_arg15 (by decide)
theorem s2_arg16 : W2 m ρ c (Proc.devRef .tc main_arg16) = W1 m ρ c (Proc.devRef .tc main_arg16) := W2_of_ne m ρ c main_arg16 (by decide)
theorem s2_arg17 : W2 m ρ c (Proc.devRef .tc main_arg17) = W1 m ρ c (Proc.devRef .tc main_arg17) := W2_of_ne m ρ c main_arg17 (by decide)
theorem s2_arg18 : W2 m ρ c (Proc.devRef .tc main_arg18) = W1 m ρ c (Proc.devRef .tc main_arg18) := W2_of_ne m ρ c main_arg18 (by decide)
theorem s2_arg19 : W2 m ρ c (Proc.devRef .tc main_arg19) = W1 m ρ c (Proc.devRef .tc main_arg19) := W2_of_ne m ρ c main_arg19 (by decide)
theorem s2_arg20 : W2 m ρ c (Proc.devRef .tc main_arg20) = W1 m ρ c (Proc.devRef .tc main_arg20) := W2_of_ne m ρ c main_arg20 (by decide)
theorem s2_arg21 : W2 m ρ c (Proc.devRef .tc main_arg21) = W1 m ρ c (Proc.devRef .tc main_arg21) := W2_of_ne m ρ c main_arg21 (by decide)
theorem s2_arg22 : W2 m ρ c (Proc.devRef .tc main_arg22) = W1 m ρ c (Proc.devRef .tc main_arg22) := W2_of_ne m ρ c main_arg22 (by decide)
theorem s2_arg23 : W2 m ρ c (Proc.devRef .tc main_arg23) = W1 m ρ c (Proc.devRef .tc main_arg23) := W2_of_ne m ρ c main_arg23 (by decide)
theorem s2_arg24 : W2 m ρ c (Proc.devRef .tc main_arg24) = W1 m ρ c (Proc.devRef .tc main_arg24) := W2_of_ne m ρ c main_arg24 (by decide)
theorem s2_arg25 : W2 m ρ c (Proc.devRef .tc main_arg25) = W1 m ρ c (Proc.devRef .tc main_arg25) := W2_of_ne m ρ c main_arg25 (by decide)
theorem s2_arg26 : W2 m ρ c (Proc.devRef .tc main_arg26) = W1 m ρ c (Proc.devRef .tc main_arg26) := W2_of_ne m ρ c main_arg26 (by decide)
theorem s2_arg27 : W2 m ρ c (Proc.devRef .tc main_arg27) = W1 m ρ c (Proc.devRef .tc main_arg27) := W2_of_ne m ρ c main_arg27 (by decide)
theorem s2_arg28 : W2 m ρ c (Proc.devRef .tc main_arg28) = W1 m ρ c (Proc.devRef .tc main_arg28) := W2_of_ne m ρ c main_arg28 (by decide)
theorem s2_arg29 : W2 m ρ c (Proc.devRef .tc main_arg29) = W1 m ρ c (Proc.devRef .tc main_arg29) := W2_of_ne m ρ c main_arg29 (by decide)
theorem s2_arg30 : W2 m ρ c (Proc.devRef .tc main_arg30) = W1 m ρ c (Proc.devRef .tc main_arg30) := W2_of_ne m ρ c main_arg30 (by decide)
theorem s2_arg31 : W2 m ρ c (Proc.devRef .tc main_arg31) = W1 m ρ c (Proc.devRef .tc main_arg31) := W2_of_ne m ρ c main_arg31 (by decide)
theorem s2_arg32 : W2 m ρ c (Proc.devRef .tc main_arg32) = W1 m ρ c (Proc.devRef .tc main_arg32) := W2_of_ne m ρ c main_arg32 (by decide)
theorem s2_arg33 : W2 m ρ c (Proc.devRef .tc main_arg33) = W1 m ρ c (Proc.devRef .tc main_arg33) := W2_of_ne m ρ c main_arg33 (by decide)
theorem s2_arg34 : W2 m ρ c (Proc.devRef .tc main_arg34) = W1 m ρ c (Proc.devRef .tc main_arg34) := W2_of_ne m ρ c main_arg34 (by decide)
theorem s2_arg35 : W2 m ρ c (Proc.devRef .tc main_arg35) = W1 m ρ c (Proc.devRef .tc main_arg35) := W2_of_ne m ρ c main_arg35 (by decide)
theorem s2_arg36 : W2 m ρ c (Proc.devRef .tc main_arg36) = W1 m ρ c (Proc.devRef .tc main_arg36) := W2_of_ne m ρ c main_arg36 (by decide)

end Cert.KernelIdeal.Whole

end
-- ==== Proof.KeepB.lean ====
/-
  Buffers that persist.  Between the places where a buffer is written and where it is read lie stretches of host
  operations that do not write it and grid regions whose windows are other arrays; through each such segment
  the buffer keeps its contents.  One equation per buffer and segment (segments 3, 4 of the eleven), for
  exactly the buffers a later segment reads: the two index lists and the edge weights computed before the
  first region, and the argument arrays.
-/
import proofs.«104744_j77352361001295_2_alg».proof.Proof.KeepTac

set_option maxRecDepth 16384

noncomputable section

namespace Cert.KernelIdeal.Whole

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

/-! ### segment 3: a stretch of host operations -/

theorem s3_v3 : W3 m ρ c (Proc.devRef .tc main_v3) = W2 m ρ c (Proc.devRef .tc main_v3) := by stretch_keeps
theorem s3_v6 : W3 m ρ c (Proc.devRef .tc main_v6) = W2 m ρ c (Proc.devRef .tc main_v6) := by stretch_keeps
theorem s3_v27 : W3 m ρ c (Proc.devRef .tc main_v27) = W2 m ρ c (Proc.devRef .tc main_v27) := by stretch_keeps
theorem s3_arg2 : W3 m ρ c (Proc.devRef .tc main_arg2) = W2 m ρ c (Proc.devRef .tc main_arg2) := by stretch_keeps
theorem s3_arg9 : W3 m ρ c (Proc.devRef .tc main_arg9) = W2 m ρ c (Proc.devRef .tc main_arg9) := by stretch_keeps
theorem s3_arg10 : W3 m ρ c (Proc.devRef .tc main_arg10) = W2 m ρ c (Proc.devRef .tc main_arg10) := by stretch_keeps
theorem s3_arg11 : W3 m ρ c (Proc.devRef .tc main_arg11) = W2 m ρ c (Proc.devRef .tc main_arg11) := by stretch_keeps
theorem s3_arg12 : W3 m ρ c (Proc.devRef .tc main_arg12) = W2 m ρ c (Proc.devRef .tc main_arg12) := by stretch_keeps
theorem s3_arg13 : W3 m ρ c (Proc.devRef .tc main_arg13) = W2 m ρ c (Proc.devRef .tc main_arg13) := by stretch_keeps
theorem s3_arg14 : W3 m ρ c (Proc.devRef .tc main_arg14) = W2 m ρ c (Proc.devRef .tc main_arg14) := by stretch_keeps
theorem s3_arg15 : W3 m ρ c (Proc.devRef .tc main_arg15) = W2 m ρ c (Proc.devRef .tc main_arg15) := by stretch_keeps
theorem s3_arg16 : W3 m ρ c (Proc.devRef .tc main_arg16) = W2 m ρ c (Proc.devRef .tc main_arg16) := by stretch_keeps
theorem s3_arg17 : W3 m ρ c (Proc.devRef .tc main_arg17) = W2 m ρ c (Proc.devRef .tc main_arg17) := by stretch_keeps
theorem s3_arg18 : W3 m ρ c (Proc.devRef .tc main_arg18) = W2 m ρ c (Proc.devRef .tc main_arg18) := by stretch_keeps
theorem s3_arg19 : W3 m ρ c (Proc.devRef .tc main_arg19) = W2 m ρ c (Proc.devRef .tc main_arg19) := by stretch_keeps
theorem s3_arg20 : W3 m ρ c (Proc.devRef .tc main_arg20) = W2 m ρ c (Proc.devRef .tc main_arg20) := by stretch_keeps
theorem s3_arg21 : W3 m ρ c (Proc.devRef .tc main_arg21) = W2 m ρ c (Proc.devRef .tc main_arg21) := by stretch_keeps
theorem s3_arg22 : W3 m ρ c (Proc.devRef .tc main_arg22) = W2 m ρ c (Proc.devRef .tc main_arg22) := by stretch_keeps
theorem s3_arg23 : W3 m ρ c (Proc.devRef .tc main_arg23) = W2 m ρ c (Proc.devRef .tc main_arg23) := by stretch_keeps
theorem s3_arg24 : W3 m ρ c (Proc.devRef .tc main_arg24) = W2 m ρ c (Proc.devRef .tc main_arg24) := by stretch_keeps
theorem s3_arg25 : W3 m ρ c (Proc.devRef .tc main_arg25) = W2 m ρ c (Proc.devRef .tc main_arg25) := by stretch_keeps
theorem s3_arg26 : W3 m ρ c (Proc.devRef .tc main_arg26) = W2 m ρ c (Proc.devRef .tc main_arg26) := by stretch_keeps
theorem s3_arg27 : W3 m ρ c (Proc.devRef .tc main_arg27) = W2 m ρ c (Proc.devRef .tc main_arg27) := by stretch_keeps
theorem s3_arg28 : W3 m ρ c (Proc.devRef .tc main_arg28) = W2 m ρ c (Proc.devRef .tc main_arg28) := by stretch_keeps
theorem s3_arg29 : W3 m ρ c (Proc.devRef .tc main_arg29) = W2 m ρ c (Proc.devRef .tc main_arg29) := by stretch_keeps
theorem s3_arg30 : W3 m ρ c (Proc.devRef .tc main_arg30) = W2 m ρ c (Proc.devRef .tc main_arg30) := by stretch_keeps
theorem s3_arg31 : W3 m ρ c (Proc.devRef .tc main_arg31) = W2 m ρ c (Proc.devRef .tc main_arg31) := by stretch_keeps
theorem s3_arg32 : W3 m ρ c (Proc.devRef .tc main_arg32) = W2 m ρ c (Proc.devRef .tc main_arg32) := by stretch_keeps
theorem s3_arg33 : W3 m ρ c (Proc.devRef .tc main_arg33) = W2 m ρ c (Proc.devRef .tc main_arg33) := by stretch_keeps
theorem s3_arg34 : W3 m ρ c (Proc.devRef .tc main_arg34) = W2 m ρ c (Proc.devRef .tc main_arg34) := by stretch_keeps
theorem s3_arg35 : W3 m ρ c (Proc.devRef .tc main_arg35) = W2 m ρ c (Proc.devRef .tc main_arg35) := by stretch_keeps
theorem s3_arg36 : W3 m ρ c (Proc.devRef .tc main_arg36) = W2 m ρ c (Proc.devRef .tc main_arg36) := by stretch_keeps

/-! ### segment 4: a grid region (none of these buffers is one of its arrays) -/

theorem s4_v3 : W4 m ρ c (Proc.devRef .tc main_v3) = W3 m ρ c (Proc.devRef .tc main_v3) := W4_of_ne m ρ c main_v3 (by decide)
theorem s4_v6 : W4 m ρ c (Proc.devRef .tc main_v6) = W3 m ρ c (Proc.devRef .tc main_v6) := W4_of_ne m ρ c main_v6 (by decide)
theorem s4_v27 : W4 m ρ c (Proc.devRef .tc main_v27) = W3 m ρ c (Proc.devRef .tc main_v27) := W4_of_ne m ρ c main_v27 (by decide)
theorem s4_arg2 : W4 m ρ c (Proc.devRef .tc main_arg2) = W3 m ρ c (Proc.devRef .tc main_arg2) := W4_of_ne m ρ c main_arg2 (by decide)
theorem s4_arg10 : W4 m ρ c (Proc.devRef .tc main_arg10) = W3 m ρ c (Proc.devRef .tc main_arg10) := W4_of_ne m ρ c main_arg10 (by decide)
theorem s4_arg11 : W4 m ρ c (Proc.devRef .tc main_arg11) = W3 m ρ c (Proc.devRef .tc main_arg11) := W4_of_ne m ρ c main_arg11 (by decide)
theorem s4_arg12 : W4 m ρ c (Proc.devRef .tc main_arg12) = W3 m ρ c (Proc.devRef .tc main_arg12) := W4_of_ne m ρ c main_arg12 (by decide)
theorem s4_arg13 : W4 m ρ c (Proc.devRef .tc main_arg13) = W3 m ρ c (Proc.devRef .tc main_arg13) := W4_of_ne m ρ c main_arg13 (by decide)
theorem s4_arg14 : W4 m ρ c (Proc.devRef .tc main_arg14) = W3 m ρ c (Proc.devRef .tc main_arg14) := W4_of_ne m ρ c main_arg14 (by decide)
theorem s4_arg15 : W4 m ρ c (Proc.devRef .tc main_arg15) = W3 m ρ c (Proc.devRef .tc main_arg15) := W4_of_ne m ρ c main_arg15 (by decide)
theorem s4_arg16 : W4 m ρ c (Proc.devRef .tc main_arg16) = W3 m ρ c (Proc.devRef .tc main_arg16) := W4_of_ne m ρ c main_arg16 (by decide)
theorem s4_arg17 : W4 m ρ c (Proc.devRef .tc main_arg17) = W3 m ρ c (Proc.devRef .tc main_arg17) := W4_of_ne m ρ c main_arg17 (by decide)
theorem s4_arg18 : W4 m ρ c (Proc.devRef .tc main_arg18) = W3 m ρ c (Proc.devRef .tc main_arg18) := W4_of_ne m ρ c main_arg18 (by decide)
theorem s4_arg19 : W4 m ρ c (Proc.devRef .tc main_arg19) = W3 m ρ c (Proc.devRef .tc main_arg19) := W4_of_ne m ρ c main_arg19 (by decide)
theorem s4_arg20 : W4 m ρ c (Proc.devRef .tc main_arg20) = W3 m ρ c (Proc.devRef .tc main_arg20) := W4_of_ne m ρ c main_arg20 (by decide)
theorem s4_arg21 : W4 m ρ c (Proc.devRef .tc main_arg21) = W3 m ρ c (Proc.devRef .tc main_arg21) := W4_of_ne m ρ c main_arg21 (by decide)
theorem s4_arg22 : W4 m ρ c (Proc.devRef .tc main_arg22) = W3 m ρ c (Proc.devRef .tc main_arg22) := W4_of_ne m ρ c main_arg22 (by decide)
theorem s4_arg23 : W4 m ρ c (Proc.devRef .tc main_arg23) = W3 m ρ c (Proc.devRef .tc main_arg23) := W4_of_ne m ρ c main_arg23 (by decide)
theorem s4_arg24 : W4 m ρ c (Proc.devRef .tc main_arg24) = W3 m ρ c (Proc.devRef .tc main_arg24) := W4_of_ne m ρ c main_arg24 (by decide)
theorem s4_arg25 : W4 m ρ c (Proc.devRef .tc main_arg25) = W3 m ρ c (Proc.devRef .tc main_arg25) := W4_of_ne m ρ c main_arg25 (by decide)
theorem s4_arg26 : W4 m ρ c (Proc.devRef .tc main_arg26) = W3 m ρ c (Proc.devRef .tc main_arg26) := W4_of_ne m ρ c main_arg26 (by decide)
theorem s4_arg27 : W4 m ρ c (Proc.devRef .tc main_arg27) = W3 m ρ c (Proc.devRef .tc main_arg27) := W4_of_ne m ρ c main_arg27 (by decide)
theorem s4_arg28 : W4 m ρ c (Proc.devRef .tc main_arg28) = W3 m ρ c (Proc.devRef .tc main_arg28) := W4_of_ne m ρ c main_arg28 (by decide)
theorem s4_arg29 : W4 m ρ c (Proc.devRef .tc main_arg29) = W3 m ρ c (Proc.devRef .tc main_arg29) := W4_of_ne m ρ c main_arg29 (by decide)
theorem s4_arg30 : W4 m ρ c (Proc.devRef .tc main_arg30) = W3 m ρ c (Proc.devRef .tc main_arg30) := W4_of_ne m ρ c main_arg30 (by decide)
theorem s4_arg31 : W4 m ρ c (Proc.devRef .tc main_arg31) = W3 m ρ c (Proc.devRef .tc main_arg31) := W4_of_ne m ρ c main_arg31 (by decide)
theorem s4_arg32 : W4 m ρ c (Proc.devRef .tc main_arg32) = W3 m ρ c (Proc.devRef .tc main_arg32) := W4_of_ne m ρ c main_arg32 (by decide)
theorem s4_arg33 : W4 m ρ c (Proc.devRef .tc main_arg33) = W3 m ρ c (Proc.devRef .tc main_arg33) := W4_of_ne m ρ c main_arg33 (by decide)
theorem s4_arg34 : W4 m ρ c (Proc.devRef .tc main_arg34) = W3 m ρ c (Proc.devRef .tc main_arg34) := W4_of_ne m ρ c main_arg34 (by decide)
theorem s4_arg35 : W4 m ρ c (Proc.devRef .tc main_arg35) = W3 m ρ c (Proc.devRef .tc main_arg35) := W4_of_ne m ρ c main_arg35 (by decide)
theorem s4_arg36 : W4 m ρ c (Proc.devRef .tc main_arg36) = W3 m ρ c (Proc.devRef .tc main_arg36) := W4_of_ne m ρ c main_arg36 (by decide)

end Cert.KernelIdeal.Whole

end
-- ==== Proof.KeepC.lean ====
/-
  Buffers that persist.  Between the places where a buffer is written and where it is read lie stretches of host
  operations that do not write it and grid regions whose windows are other arrays; through each such segment
  the buffer keeps its contents.  One equation per buffer and segment (segments 5, 6 of the eleven), for
  exactly the buffers a later segment reads: the two index lists and the edge weights computed before the
  first region, and the argument arrays.
-/
import proofs.«104744_j77352361001295_2_alg».proof.Proof.KeepTac

set_option maxRecDepth 16384

noncomputable section

namespace Cert.KernelIdeal.Whole

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

/-! ### segment 5: a stretch of host operations -/

theorem s5_v3 : W5 m ρ c (Proc.devRef .tc main_v3) = W4 m ρ c (Proc.devRef .tc main_v3) := by stretch_keeps
theorem s5_v6 : W5 m ρ c (Proc.devRef .tc main_v6) = W4 m ρ c (Proc.devRef .tc main_v6) := by stretch_keeps
theorem s5_v27 : W5 m ρ c (Proc.devRef .tc main_v27) = W4 m ρ c (Proc.devRef .tc main_v27) := by stretch_keeps
theorem s5_arg2 : W5 m ρ c (Proc.devRef .tc main_arg2) = W4 m ρ c (Proc.devRef .tc main_arg2) := by stretch_keeps
theorem s5_arg15 : W5 m ρ c (Proc.devRef .tc main_arg15) = W4 m ρ c (Proc.devRef .tc main_arg15) := by stretch_keeps
theorem s5_arg16 : W5 m ρ c (Proc.devRef .tc main_arg16) = W4 m ρ c (Proc.devRef .tc main_arg16) := by stretch_keeps
theorem s5_arg17 : W5 m ρ c (Proc.devRef .tc main_arg17) = W4 m ρ c (Proc.devRef .tc main_arg17) := by stretch_keeps
theorem s5_arg18 : W5 m ρ c (Proc.devRef .tc main_arg18) = W4 m ρ c (Proc.devRef .tc main_arg18) := by stretch_keeps
theorem s5_arg19 : W5 m ρ c (Proc.devRef .tc main_arg19) = W4 m ρ c (Proc.devRef .tc main_arg19) := by stretch_keeps
theorem s5_arg20 : W5 m ρ c (Proc.devRef .tc main_arg20) = W4 m ρ c (Proc.devRef .tc main_arg20) := by stretch_keeps
theorem s5_arg21 : W5 m ρ c (Proc.devRef .tc main_arg21) = W4 m ρ c (Proc.devRef .tc main_arg21) := by stretch_keeps
theorem s5_arg22 : W5 m ρ c (Proc.devRef .tc main_arg22) = W4 m ρ c (Proc.devRef .tc main_arg22) := by stretch_keeps
theorem s5_arg23 : W5 m ρ c (Proc.devRef .tc main_arg23) = W4 m ρ c (Proc.devRef .tc main_arg23) := by stretch_keeps
theorem s5_arg24 : W5 m ρ c (Proc.devRef .tc main_arg24) = W4 m ρ c (Proc.devRef .tc main_arg24) := by stretch_keeps
theorem s5_arg25 : W5 m ρ c (Proc.devRef .tc main_arg25) = W4 m ρ c (Proc.devRef .tc main_arg25) := by stretch_keeps
theorem s5_arg26 : W5 m ρ c (Proc.devRef .tc main_arg26) = W4 m ρ c (Proc.devRef .tc main_arg26) := by stretch_keeps
theorem s5_arg27 : W5 m ρ c (Proc.devRef .tc main_arg27) = W4 m ρ c (Proc.devRef .tc main_arg27) := by stretch_keeps
theorem s5_arg28 : W5 m ρ c (Proc.devRef .tc main_arg28) = W4 m ρ c (Proc.devRef .tc main_arg28) := by stretch_keeps
theorem s5_arg29 : W5 m ρ c (Proc.devRef .tc main_arg29) = W4 m ρ c (Proc.devRef .tc main_arg29) := by stretch_keeps
theorem s5_arg30 : W5 m ρ c (Proc.devRef .tc main_arg30) = W4 m ρ c (Proc.devRef .tc main_arg30) := by stretch_keeps
theorem s5_arg31 : W5 m ρ c (Proc.devRef .tc main_arg31) = W4 m ρ c (Proc.devRef .tc main_arg31) := by stretch_keeps
theorem s5_arg32 : W5 m ρ c (Proc.devRef .tc main_arg32) = W4 m ρ c (Proc.devRef .tc main_arg32) := by stretch_keeps
theorem s5_arg33 : W5 m ρ c (Proc.devRef .tc main_arg33) = W4 m ρ c (Proc.devRef .tc main_arg33) := by stretch_keeps
theorem s5_arg34 : W5 m ρ c (Proc.devRef .tc main_arg34) = W4 m ρ c (Proc.devRef .tc main_arg34) := by stretch_keeps
theorem s5_arg35 : W5 m ρ c (Proc.devRef .tc main_arg35) = W4 m ρ c (Proc.devRef .tc main_arg35) := by stretch_keeps
theorem s5_arg36 : W5 m ρ c (Proc.devRef .tc main_arg36) = W4 m ρ c (Proc.devRef .tc main_arg36) := by stretch_keeps

/-! ### segment 6: a grid region (none of these buffers is one of its arrays) -/

theorem s6_v3 : W6 m ρ c (Proc.devRef .tc main_v3) = W5 m ρ c (Proc.devRef .tc main_v3) := W6_of_ne m ρ c main_v3 (by decide)
theorem s6_v6 : W6 m ρ c (Proc.devRef .tc main_v6) = W5 m ρ c (Proc.devRef .tc main_v6) := W6_of_ne m ρ c main_v6 (by decide)
theorem s6_v27 : W6 m ρ c (Proc.devRef .tc main_v27) = W5 m ρ c (Proc.devRef .tc main_v27) := W6_of_ne m ρ c main_v27 (by decide)
theorem s6_arg2 : W6 m ρ c (Proc.devRef .tc main_arg2) = W5 m ρ c (Proc.devRef .tc main_arg2) := W6_of_ne m ρ c main_arg2 (by decide)
theorem s6_arg16 : W6 m ρ c (Proc.devRef .tc main_arg16) = W5 m ρ c (Proc.devRef .tc main_arg16) := W6_of_ne m ρ c main_arg16 (by decide)
theorem s6_arg17 : W6 m ρ c (Proc.devRef .tc main_arg17) = W5 m ρ c (Proc.devRef .tc main_arg17) := W6_of_ne m ρ c main_arg17 (by decide)
theorem s6_arg18 : W6 m ρ c (Proc.devRef .tc main_arg18) = W5 m ρ c (Proc.devRef .tc main_arg18) := W6_of_ne m ρ c main_arg18 (by decide)
theorem s6_arg19 : W6 m ρ c (Proc.devRef .tc main_arg19) = W5 m ρ c (Proc.devRef .tc main_arg19) := W6_of_ne m ρ c main_arg19 (by decide)
theorem s6_arg20 : W6 m ρ c (Proc.devRef .tc main_arg20) = W5 m ρ c (Proc.devRef .tc main_arg20) := W6_of_ne m ρ c main_arg20 (by decide)
theorem s6_arg21 : W6 m ρ c (Proc.devRef .tc main_arg21) = W5 m ρ c (Proc.devRef .tc main_arg21) := W6_of_ne m ρ c main_arg21 (by decide)
theorem s6_arg22 : W6 m ρ c (Proc.devRef .tc main_arg22) = W5 m ρ c (Proc.devRef .tc main_arg22) := W6_of_ne m ρ c main_arg22 (by decide)
theorem s6_arg23 : W6 m ρ c (Proc.devRef .tc main_arg23) = W5 m ρ c (Proc.devRef .tc main_arg23) := W6_of_ne m ρ c main_arg23 (by decide)
theorem s6_arg24 : W6 m ρ c (Proc.devRef .tc main_arg24) = W5 m ρ c (Proc.devRef .tc main_arg24) := W6_of_ne m ρ c main_arg24 (by decide)
theorem s6_arg25 : W6 m ρ c (Proc.devRef .tc main_arg25) = W5 m ρ c (Proc.devRef .tc main_arg25) := W6_of_ne m ρ c main_arg25 (by decide)
theorem s6_arg26 : W6 m ρ c (Proc.devRef .tc main_arg26) = W5 m ρ c (Proc.devRef .tc main_arg26) := W6_of_ne m ρ c main_arg26 (by decide)
theorem s6_arg27 : W6 m ρ c (Proc.devRef .tc main_arg27) = W5 m ρ c (Proc.devRef .tc main_arg27) := W6_of_ne m ρ c main_arg27 (by decide)
theorem s6_arg28 : W6 m ρ c (Proc.devRef .tc main_arg28) = W5 m ρ c (Proc.devRef .tc main_arg28) := W6_of_ne m ρ c main_arg28 (by decide)
theorem s6_arg29 : W6 m ρ c (Proc.devRef .tc main_arg29) = W5 m ρ c (Proc.devRef .tc main_arg29) := W6_of_ne m ρ c main_arg29 (by decide)
theorem s6_arg30 : W6 m ρ c (Proc.devRef .tc main_arg30) = W5 m ρ c (Proc.devRef .tc main_arg30) := W6_of_ne m ρ c main_arg30 (by decide)
theorem s6_arg31 : W6 m ρ c (Proc.devRef .tc main_arg31) = W5 m ρ c (Proc.devRef .tc main_arg31) := W6_of_ne m ρ c main_arg31 (by decide)
theorem s6_arg32 : W6 m ρ c (Proc.devRef .tc main_arg32) = W5 m ρ c (Proc.devRef .tc main_arg32) := W6_of_ne m ρ c main_arg32 (by decide)
theorem s6_arg33 : W6 m ρ c (Proc.devRef .tc main_arg33) = W5 m ρ c (Proc.devRef .tc main_arg33) := W6_of_ne m ρ c main_arg33 (by decide)
theorem s6_arg34 : W6 m ρ c (Proc.devRef .tc main_arg34) = W5 m ρ c (Proc.devRef .tc main_arg34) := W6_of_ne m ρ c main_arg34 (by decide)
theorem s6_arg35 : W6 m ρ c (Proc.devRef .tc main_arg35) = W5 m ρ c (Proc.devRef .tc main_arg35) := W6_of_ne m ρ c main_arg35 (by decide)
theorem s6_arg36 : W6 m ρ c (Proc.devRef .tc main_arg36) = W5 m ρ c (Proc.devRef .tc main_arg36) := W6_of_ne m ρ c main_arg36 (by decide)

end Cert.KernelIdeal.Whole

end
-- ==== Proof.KeepD.lean ====
/-
  Buffers that persist.  Between the places where a buffer is written and where it is read lie stretches of host
  operations that do not write it and grid regions whose windows are other arrays; through each such segment
  the buffer keeps its contents.  One equation per buffer and segment (segments 7, 8, 9 of the eleven), for
  exactly the buffers a later segment reads: the two index lists and the edge weights computed before the
  first region, and the argument arrays.
-/
import proofs.«104744_j77352361001295_2_alg».proof.Proof.KeepTac

set_option maxRecDepth 16384

noncomputable section

namespace Cert.KernelIdeal.Whole

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

/-! ### segment 7: a stretch of host operations -/

theorem s7_arg2 : W7 m ρ c (Proc.devRef .tc main_arg2) = W6 m ρ c (Proc.devRef .tc main_arg2) := by stretch_keeps
theorem s7_arg21 : W7 m ρ c (Proc.devRef .tc main_arg21) = W6 m ρ c (Proc.devRef .tc main_arg21) := by stretch_keeps
theorem s7_arg22 : W7 m ρ c (Proc.devRef .tc main_arg22) = W6 m ρ c (Proc.devRef .tc main_arg22) := by stretch_keeps
theorem s7_arg23 : W7 m ρ c (Proc.devRef .tc main_arg23) = W6 m ρ c (Proc.devRef .tc main_arg23) := by stretch_keeps
theorem s7_arg24 : W7 m ρ c (Proc.devRef .tc main_arg24) = W6 m ρ c (Proc.devRef .tc main_arg24) := by stretch_keeps
theorem s7_arg25 : W7 m ρ c (Proc.devRef .tc main_arg25) = W6 m ρ c (Proc.devRef .tc main_arg25) := by stretch_keeps
theorem s7_arg26 : W7 m ρ c (Proc.devRef .tc main_arg26) = W6 m ρ c (Proc.devRef .tc main_arg26) := by stretch_keeps
theorem s7_arg27 : W7 m ρ c (Proc.devRef .tc main_arg27) = W6 m ρ c (Proc.devRef .tc main_arg27) := by stretch_keeps
theorem s7_arg28 : W7 m ρ c (Proc.devRef .tc main_arg28) = W6 m ρ c (Proc.devRef .tc main_arg28) := by stretch_keeps
theorem s7_arg29 : W7 m ρ c (Proc.devRef .tc main_arg29) = W6 m ρ c (Proc.devRef .tc main_arg29) := by stretch_keeps
theorem s7_arg30 : W7 m ρ c (Proc.devRef .tc main_arg30) = W6 m ρ c (Proc.devRef .tc main_arg30) := by stretch_keeps
theorem s7_arg31 : W7 m ρ c (Proc.devRef .tc main_arg31) = W6 m ρ c (Proc.devRef .tc main_arg31) := by stretch_keeps
theorem s7_arg32 : W7 m ρ c (Proc.devRef .tc main_arg32) = W6 m ρ c (Proc.devRef .tc main_arg32) := by stretch_keeps
theorem s7_arg33 : W7 m ρ c (Proc.devRef .tc main_arg33) = W6 m ρ c (Proc.devRef .tc main_arg33) := by stretch_keeps
theorem s7_arg34 : W7 m ρ c (Proc.devRef .tc main_arg34) = W6 m ρ c (Proc.devRef .tc main_arg34) := by stretch_keeps
theorem s7_arg35 : W7 m ρ c (Proc.devRef .tc main_arg35) = W6 m ρ c (Proc.devRef .tc main_arg35) := by stretch_keeps
theorem s7_arg36 : W7 m ρ c (Proc.devRef .tc main_arg36) = W6 m ρ c (Proc.devRef .tc main_arg36) := by stretch_keeps

/-! ### segment 8: a grid region (none of these buffers is one of its arrays) -/

theorem s8_arg2 : W8 m ρ c (Proc.devRef .tc main_arg2) = W7 m ρ c (Proc.devRef .tc main_arg2) := W8_of_ne m ρ c main_arg2 (by decide)
theorem s8_arg21 : W8 m ρ c (Proc.devRef .tc main_arg21) = W7 m ρ c (Proc.devRef .tc main_arg21) := W8_of_ne m ρ c main_arg21 (by decide)
theorem s8_arg22 : W8 m ρ c (Proc.devRef .tc main_arg22) = W7 m ρ c (Proc.devRef .tc main_arg22) := W8_of_ne m ρ c main_arg22 (by decide)
theorem s8_arg23 : W8 m ρ c (Proc.devRef .tc main_arg23) = W7 m ρ c (Proc.devRef .tc main_arg23) := W8_of_ne m ρ c main_arg23 (by decide)
theorem s8_arg24 : W8 m ρ c (Proc.devRef .tc main_arg24) = W7 m ρ c (Proc.devRef .tc main_arg24) := W8_of_ne m ρ c main_arg24 (by decide)
theorem s8_arg25 : W8 m ρ c (Proc.devRef .tc main_arg25) = W7 m ρ c (Proc.devRef .tc main_arg25) := W8_of_ne m ρ c main_arg25 (by decide)
theorem s8_arg26 : W8 m ρ c (Proc.devRef .tc main_arg26) = W7 m ρ c (Proc.devRef .tc main_arg26) := W8_of_ne m ρ c main_arg26 (by decide)
theorem s8_arg27 : W8 m ρ c (Proc.devRef .tc main_arg27) = W7 m ρ c (Proc.devRef .tc main_arg27) := W8_of_ne m ρ c main_arg27 (by decide)
theorem s8_arg28 : W8 m ρ c (Proc.devRef .tc main_arg28) = W7 m ρ c (Proc.devRef .tc main_arg28) := W8_of_ne m ρ c main_arg28 (by decide)
theorem s8_arg29 : W8 m ρ c (Proc.devRef .tc main_arg29) = W7 m ρ c (Proc.devRef .tc main_arg29) := W8_of_ne m ρ c main_arg29 (by decide)
theorem s8_arg30 : W8 m ρ c (Proc.devRef .tc main_arg30) = W7 m ρ c (Proc.devRef .tc main_arg30) := W8_of_ne m ρ c main_arg30 (by decide)
theorem s8_arg31 : W8 m ρ c (Proc.devRef .tc main_arg31) = W7 m ρ c (Proc.devRef .tc main_arg31) := W8_of_ne m ρ c main_arg31 (by decide)
theorem s8_arg32 : W8 m ρ c (Proc.devRef .tc main_arg32) = W7 m ρ c (Proc.devRef .tc main_arg32) := W8_of_ne m ρ c main_arg32 (by decide)
theorem s8_arg33 : W8 m ρ c (Proc.devRef .tc main_arg33) = W7 m ρ c (Proc.devRef .tc main_arg33) := W8_of_ne m ρ c main_arg33 (by decide)
theorem s8_arg34 : W8 m ρ c (Proc.devRef .tc main_arg34) = W7 m ρ c (Proc.devRef .tc main_arg34) := W8_of_ne m ρ c main_arg34 (by decide)
theorem s8_arg35 : W8 m ρ c (Proc.devRef .tc main_arg35) = W7 m ρ c (Proc.devRef .tc main_arg35) := W8_of_ne m ρ c main_arg35 (by decide)
theorem s8_arg36 : W8 m ρ c (Proc.devRef .tc main_arg36) = W7 m ρ c (Proc.devRef .tc main_arg36) := W8_of_ne m ρ c main_arg36 (by decide)

/-! ### segment 9: a stretch of host operations -/

theorem s9_arg27 : W9 m ρ c (Proc.devRef .tc main_arg27) = W8 m ρ c (Proc.devRef .tc main_arg27) := by stretch_keeps
theorem s9_arg33 : W9 m ρ c (Proc.devRef .tc main_arg33) = W8 m ρ c (Proc.devRef .tc main_arg33) := by stretch_keeps
theorem s9_arg35 : W9 m ρ c (Proc.devRef .tc main_arg35) = W8 m ρ c (Proc.devRef .tc main_arg35) := by stretch_keeps

end Cert.KernelIdeal.Whole

end
-- ==== Proof.KeepAll.lean ====
/-
  Buffers that persist, composed.  Each argument array, at the boundary where a stretch or a region reads it,
  still holds its launch contents; the two index lists and the edge weights, at each boundary where the
  aggregation reads them, still hold what the first stretch computed.  Each is the chain of the one-segment
  equations from the reading boundary back to the launch (to the first stretch's end for the three computed buffers).
-/
import proofs.«104744_j77352361001295_2_alg».proof.Proof.KeepA
import proofs.«104744_j77352361001295_2_alg».proof.Proof.KeepB
import proofs.«104744_j77352361001295_2_alg».proof.Proof.KeepC
import proofs.«104744_j77352361001295_2_alg».proof.Proof.KeepD

set_option maxRecDepth 16384

noncomputable section

namespace Cert.KernelIdeal.Whole

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

theorem W1_arg0 : W1 m ρ c (Proc.devRef .tc main_arg0) = m ((c : Thread nD τ).loc main_arg0) :=
  (s1_arg0 m ρ c).trans rfl
theorem W1_arg3 : W1 m ρ c (Proc.devRef .tc main_arg3) = m ((c : Thread nD τ).loc main_arg3) :=
  (s1_arg3 m ρ c).trans rfl
theorem W2_arg4 : W2 m ρ c (Proc.devRef .tc main_arg4) = m ((c : Thread nD τ).loc main_arg4) :=
  ((s2_arg4 m ρ c).trans (s1_arg4 m ρ c)).trans rfl
theorem W2_arg5 : W2 m ρ c (Proc.devRef .tc main_arg5) = m ((c : Thread nD τ).loc main_arg5) :=
  ((s2_arg5 m ρ c).trans (s1_arg5 m ρ c)).trans rfl
theorem W2_arg6 : W2 m ρ c (Proc.devRef .tc main_arg6) = m ((c : Thread nD τ).loc main_arg6) :=
  ((s2_arg6 m ρ c).trans (s1_arg6 m ρ c)).trans rfl
theorem W2_arg7 : W2 m ρ c (Proc.devRef .tc main_arg7) = m ((c : Thread nD τ).loc main_arg7) :=
  ((s2_arg7 m ρ c).trans (s1_arg7 m ρ c)).trans rfl
theorem W2_arg8 : W2 m ρ c (Proc.devRef .tc main_arg8) = m ((c : Thread nD τ).loc main_arg8) :=
  ((s2_arg8 m ρ c).trans (s1_arg8 m ρ c)).trans rfl
theorem W3_arg9 : W3 m ρ c (Proc.devRef .tc main_arg9) = m ((c : Thread nD τ).loc main_arg9) :=
  ((s3_arg9 m ρ c).trans ((s2_arg9 m ρ c).trans (s1_arg9 m ρ c))).trans rfl
theorem W4_arg10 : W4 m ρ c (Proc.devRef .tc main_arg10) = m ((c : Thread nD τ).loc main_arg10) :=
  ((s4_arg10 m ρ c).trans ((s3_arg10 m ρ c).trans ((s2_arg10 m ρ c).trans (s1_arg10 m ρ c)))).trans rfl
theorem W4_arg11 : W4 m ρ c (Proc.devRef .tc main_arg11) = m ((c : Thread nD τ).loc main_arg11) :=
  ((s4_arg11 m ρ c).trans ((s3_arg11 m ρ c).trans ((s2_arg11 m ρ c).trans (s1_arg11 m ρ c)))).trans rfl
theorem W4_arg12 : W4 m ρ c (Proc.devRef .tc main_arg12) = m ((c : Thread nD τ).loc main_arg12) :=
  ((s4_arg12 m ρ c).trans ((s3_arg12 m ρ c).trans ((s2_arg12 m ρ c).trans (s1_arg12 m ρ c)))).trans rfl
theorem W4_arg13 : W4 m ρ c (Proc.devRef .tc main_arg13) = m ((c : Thread nD τ).loc main_arg13) :=
  ((s4_arg13 m ρ c).trans ((s3_arg13 m ρ c).trans ((s2_arg13 m ρ c).trans (s1_arg13 m ρ c)))).trans rfl
theorem W4_arg14 : W4 m ρ c (Proc.devRef .tc main_arg14) = m ((c : Thread nD τ).loc main_arg14) :=
  ((s4_arg14 m ρ c).trans ((s3_arg14 m ρ c).trans ((s2_arg14 m ρ c).trans (s1_arg14 m ρ c)))).trans rfl
theorem W5_arg15 : W5 m ρ c (Proc.devRef .tc main_arg15) = m ((c : Thread nD τ).loc main_arg15) :=
  ((s5_arg15 m ρ c).trans ((s4_arg15 m ρ c).trans ((s3_arg15 m ρ c).trans ((s2_arg15 m ρ c).trans (s1_arg15 m ρ c))))).trans rfl
theorem W6_arg16 : W6 m ρ c (Proc.devRef .tc main_arg16) = m ((c : Thread nD τ).loc main_arg16) :=
  ((s6_arg16 m ρ c).trans ((s5_arg16 m ρ c).trans ((s4_arg16 m ρ c).trans ((s3_arg16 m ρ c).trans ((s2_arg16 m ρ c).trans (s1_arg16 m ρ c)))))).trans rfl
theorem W6_arg17 : W6 m ρ c (Proc.devRef .tc main_arg17) = m ((c : Thread nD τ).loc main_arg17) :=
  ((s6_arg17 m ρ c).trans ((s5_arg17 m ρ c).trans ((s4_arg17 m ρ c).trans ((s3_arg17 m ρ c).trans ((s2_arg17 m ρ c).trans (s1_arg17 m ρ c)))))).trans rfl
theorem W6_arg18 : W6 m ρ c (Proc.devRef .tc main_arg18) = m ((c : Thread nD τ).loc main_arg18) :=
  ((s6_arg18 m ρ c).trans ((s5_arg18 m ρ c).trans ((s4_arg18 m ρ c).trans ((s3_arg18 m ρ c).trans ((s2_arg18 m ρ c).trans (s1_arg18 m ρ c)))))).trans rfl
theorem W6_arg19 : W6 m ρ c (Proc.devRef .tc main_arg19) = m ((c : Thread nD τ).loc main_arg19) :=
  ((s6_arg19 m ρ c).trans ((s5_arg19 m ρ c).trans ((s4_arg19 m ρ c).trans ((s3_arg19 m ρ c).trans ((s2_arg19 m ρ c).trans (s1_arg19 m ρ c)))))).trans rfl
theorem W6_arg20 : W6 m ρ c (Proc.devRef .tc main_arg20) = m ((c : Thread nD τ).loc main_arg20) :=
  ((s6_arg20 m ρ c).trans ((s5_arg20 m ρ c).trans ((s4_arg20 m ρ c).trans ((s3_arg20 m ρ c).trans ((s2_arg20 m ρ c).trans (s1_arg20 m ρ c)))))).trans rfl
theorem W8_arg2 : W8 m ρ c (Proc.devRef .tc main_arg2) = m ((c : Thread nD τ).loc main_arg2) :=
  ((s8_arg2 m ρ c).trans ((s7_arg2 m ρ c).trans ((s6_arg2 m ρ c).trans ((s5_arg2 m ρ c).trans ((s4_arg2 m ρ c).trans ((s3_arg2 m ρ c).trans ((s2_arg2 m ρ c).trans (s1_arg2 m ρ c)))))))).trans rfl
theorem W8_arg21 : W8 m ρ c (Proc.devRef .tc main_arg21) = m ((c : Thread nD τ).loc main_arg21) :=
  ((s8_arg21 m ρ c).trans ((s7_arg21 m ρ c).trans ((s6_arg21 m ρ c).trans ((s5_arg21 m ρ c).trans ((s4_arg21 m ρ c).trans ((s3_arg21 m ρ c).trans ((s2_arg21 m ρ c).trans (s1_arg21 m ρ c)))))))).trans rfl
theorem W8_arg22 : W8 m ρ c (Proc.devRef .tc main_arg22) = m ((c : Thread nD τ).loc main_arg22) :=
  ((s8_arg22 m ρ c).trans ((s7_arg22 m ρ c).trans ((s6_arg22 m ρ c).trans ((s5_arg22 m ρ c).trans ((s4_arg22 m ρ c).trans ((s3_arg22 m ρ c).trans ((s2_arg22 m ρ c).trans (s1_arg22 m ρ c)))))))).trans rfl
theorem W8_arg23 : W8 m ρ c (Proc.devRef .tc main_arg23) = m ((c : Thread nD τ).loc main_arg23) :=
  ((s8_arg23 m ρ c).trans ((s7_arg23 m ρ c).trans ((s6_arg23 m ρ c).trans ((s5_arg23 m ρ c).trans ((s4_arg23 m ρ c).trans ((s3_arg23 m ρ c).trans ((s2_arg23 m ρ c).trans (s1_arg23 m ρ c)))))))).trans rfl
theorem W8_arg24 : W8 m ρ c (Proc.devRef .tc main_arg24) = m ((c : Thread nD τ).loc main_arg24) :=
  ((s8_arg24 m ρ c).trans ((s7_arg24 m ρ c).trans ((s6_arg24 m ρ c).trans ((s5_arg24 m ρ c).trans ((s4_arg24 m ρ c).trans ((s3_arg24 m ρ c).trans ((s2_arg24 m ρ c).trans (s1_arg24 m ρ c)))))))).trans rfl
theorem W8_arg25 : W8 m ρ c (Proc.devRef .tc main_arg25) = m ((c : Thread nD τ).loc main_arg25) :=
  ((s8_arg25 m ρ c).trans ((s7_arg25 m ρ c).trans ((s6_arg25 m ρ c).trans ((s5_arg25 m ρ c).trans ((s4_arg25 m ρ c).trans ((s3_arg25 m ρ c).trans ((s2_arg25 m ρ c).trans (s1_arg25 m ρ c)))))))).trans rfl
theorem W8_arg26 : W8 m ρ c (Proc.devRef .tc main_arg26) = m ((c : Thread nD τ).loc main_arg26) :=
  ((s8_arg26 m ρ c).trans ((s7_arg26 m ρ c).trans ((s6_arg26 m ρ c).trans ((s5_arg26 m ρ c).trans ((s4_arg26 m ρ c).trans ((s3_arg26 m ρ c).trans ((s2_arg26 m ρ c).trans (s1_arg26 m ρ c)))))))).trans rfl
theorem W8_arg28 : W8 m ρ c (Proc.devRef .tc main_arg28) = m ((c : Thread nD τ).loc main_arg28) :=
  ((s8_arg28 m ρ c).trans ((s7_arg28 m ρ c).trans ((s6_arg28 m ρ c).trans ((s5_arg28 m ρ c).trans ((s4_arg28 m ρ c).trans ((s3_arg28 m ρ c).trans ((s2_arg28 m ρ c).trans (s1_arg28 m ρ c)))))))).trans rfl
theorem W8_arg29 : W8 m ρ c (Proc.devRef .tc main_arg29) = m ((c : Thread nD τ).loc main_arg29) :=
  ((s8_arg29 m ρ c).trans ((s7_arg29 m ρ c).trans ((s6_arg29 m ρ c).trans ((s5_arg29 m ρ c).trans ((s4_arg29 m ρ c).trans ((s3_arg29 m ρ c).trans ((s2_arg29 m ρ c).trans (s1_arg29 m ρ c)))))))).trans rfl
theorem W8_arg30 : W8 m ρ c (Proc.devRef .tc main_arg30) = m ((c : Thread nD τ).loc main_arg30) :=
  ((s8_arg30 m ρ c).trans ((s7_arg30 m ρ c).trans ((s6_arg30 m ρ c).trans ((s5_arg30 m ρ c).trans ((s4_arg30 m ρ c).trans ((s3_arg30 m ρ c).trans ((s2_arg30 m ρ c).trans (s1_arg30 m ρ c)))))))).trans rfl
theorem W8_arg31 : W8 m ρ c (Proc.devRef .tc main_arg31) = m ((c : Thread nD τ).loc main_arg31) :=
  ((s8_arg31 m ρ c).trans ((s7_arg31 m ρ c).trans ((s6_arg31 m ρ c).trans ((s5_arg31 m ρ c).trans ((s4_arg31 m ρ c).trans ((s3_arg31 m ρ c).trans ((s2_arg31 m ρ c).trans (s1_arg31 m ρ c)))))))).trans rfl
theorem W8_arg32 : W8 m ρ c (Proc.devRef .tc main_arg32) = m ((c : Thread nD τ).loc main_arg32) :=
  ((s8_arg32 m ρ c).trans ((s7_arg32 m ρ c).trans ((s6_arg32 m ρ c).trans ((s5_arg32 m ρ c).trans ((s4_arg32 m ρ c).trans ((s3_arg32 m ρ c).trans ((s2_arg32 m ρ c).trans (s1_arg32 m ρ c)))))))).trans rfl
theorem W8_arg34 : W8 m ρ c (Proc.devRef .tc main_arg34) = m ((c : Thread nD τ).loc main_arg34) :=
  ((s8_arg34 m ρ c).trans ((s7_arg34 m ρ c).trans ((s6_arg34 m ρ c).trans ((s5_arg34 m ρ c).trans ((s4_arg34 m ρ c).trans ((s3_arg34 m ρ c).trans ((s2_arg34 m ρ c).trans (s1_arg34 m ρ c)))))))).trans rfl
theorem W8_arg36 : W8 m ρ c (Proc.devRef .tc main_arg36) = m ((c : Thread nD τ).loc main_arg36) :=
  ((s8_arg36 m ρ c).trans ((s7_arg36 m ρ c).trans ((s6_arg36 m ρ c).trans ((s5_arg36 m ρ c).trans ((s4_arg36 m ρ c).trans ((s3_arg36 m ρ c).trans ((s2_arg36 m ρ c).trans (s1_arg36 m ρ c)))))))).trans rfl
theorem W9_arg27 : W9 m ρ c (Proc.devRef .tc main_arg27) = m ((c : Thread nD τ).loc main_arg27) :=
  ((s9_arg27 m ρ c).trans ((s8_arg27 m ρ c).trans ((s7_arg27 m ρ c).trans ((s6_arg27 m ρ c).trans ((s5_arg27 m ρ c).trans ((s4_arg27 m ρ c).trans ((s3_arg27 m ρ c).trans ((s2_arg27 m ρ c).trans (s1_arg27 m ρ c))))))))).trans rfl
theorem W9_arg33 : W9 m ρ c (Proc.devRef .tc main_arg33) = m ((c : Thread nD τ).loc main_arg33) :=
  ((s9_arg33 m ρ c).trans ((s8_arg33 m ρ c).trans ((s7_arg33 m ρ c).trans ((s6_arg33 m ρ c).trans ((s5_arg33 m ρ c).trans ((s4_arg33 m ρ c).trans ((s3_arg33 m ρ c).trans ((s2_arg33 m ρ c).trans (s1_arg33 m ρ c))))))))).trans rfl
theorem W9_arg35 : W9 m ρ c (Proc.devRef .tc main_arg35) = m ((c : Thread nD τ).loc main_arg35) :=
  ((s9_arg35 m ρ c).trans ((s8_arg35 m ρ c).trans ((s7_arg35 m ρ c).trans ((s6_arg35 m ρ c).trans ((s5_arg35 m ρ c).trans ((s4_arg35 m ρ c).trans ((s3_arg35 m ρ c).trans ((s2_arg35 m ρ c).trans (s1_arg35 m ρ c))))))))).trans rfl

theorem W2_v3 : W2 m ρ c (Proc.devRef .tc main_v3) = W1 m ρ c (Proc.devRef .tc main_v3) :=
  (s2_v3 m ρ c)
theorem W2_v6 : W2 m ρ c (Proc.devRef .tc main_v6) = W1 m ρ c (Proc.devRef .tc main_v6) :=
  (s2_v6 m ρ c)
theorem W2_v27 : W2 m ρ c (Proc.devRef .tc main_v27) = W1 m ρ c (Proc.devRef .tc main_v27) :=
  (s2_v27 m ρ c)
theorem W4_v3 : W4 m ρ c (Proc.devRef .tc main_v3) = W1 m ρ c (Proc.devRef .tc main_v3) :=
  ((s4_v3 m ρ c).trans ((s3_v3 m ρ c).trans (s2_v3 m ρ c)))
theorem W4_v6 : W4 m ρ c (Proc.devRef .tc main_v6) = W1 m ρ c (Proc.devRef .tc main_v6) :=
  ((s4_v6 m ρ c).trans ((s3_v6 m ρ c).trans (s2_v6 m ρ c)))
theorem W4_v27 : W4 m ρ c (Proc.devRef .tc main_v27) = W1 m ρ c (Proc.devRef .tc main_v27) :=
  ((s4_v27 m ρ c).trans ((s3_v27 m ρ c).trans (s2_v27 m ρ c)))
theorem W6_v3 : W6 m ρ c (Proc.devRef .tc main_v3) = W1 m ρ c (Proc.devRef .tc main_v3) :=
  ((s6_v3 m ρ c).trans ((s5_v3 m ρ c).trans ((s4_v3 m ρ c).trans ((s3_v3 m ρ c).trans (s2_v3 m ρ c)))))
theorem W6_v6 : W6 m ρ c (Proc.devRef .tc main_v6) = W1 m ρ c (Proc.devRef .tc main_v6) :=
  ((s6_v6 m ρ c).trans ((s5_v6 m ρ c).trans ((s4_v6 m ρ c).trans ((s3_v6 m ρ c).trans (s2_v6 m ρ c)))))
theorem W6_v27 : W6 m ρ c (Proc.devRef .tc main_v27) = W1 m ρ c (Proc.devRef .tc main_v27) :=
  ((s6_v27 m ρ c).trans ((s5_v27 m ρ c).trans ((s4_v27 m ρ c).trans ((s3_v27 m ρ c).trans (s2_v27 m ρ c)))))

end Cert.KernelIdeal.Whole

end
-- ==== Proof.Region0.lean ====
/-
  Region 0: the first feature product.  The grid has 20 points; point t stages rows 5000·t … 5000·t+4999 of the
  100000×128 feature array together with the whole 128×64 weight, and writes back the 5000×64 product of the two.
  The 20 row blocks tile the 100000×64 output, so after the region the output array is the full product x·W:
  entry (r, q) is the sum over the 128 shared columns k of x (r, k) · W (k, q) — the reference's first stage.
  Rounding the operands to a narrower format is the identity on the extended reals, and the product accumulates
  into a zero array, so each entry is exactly that sum.
-/
import proofs.«104744_j77352361001295_2_alg».proof.Proof.Gen.KernelIdeal.Frame
import proofs.«104744_j77352361001295_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

/-- The two zeros of a whole-block access, as the constant function. -/
theorem hz : (![0, 0] : Fin 2 → Nat) = fun _ => 0 := funext fun a => by fin_cases a <;> rfl

/-! ## The product's operand indices: entry (p, q) and shared column k read (p, k) on the left, (k, q) on the right -/

theorem lhs_row (i : S5000x64.Idx) (s : dot_S5000x128_S128x64_S5000x64_1_0_0_1_n_n.contr.Idx) :
    (dot_S5000x128_S128x64_S5000x64_1_0_0_1_n_n.lhsIdx i s 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_col (i : S5000x64.Idx) (s : dot_S5000x128_S128x64_S5000x64_1_0_0_1_n_n.contr.Idx) :
    (dot_S5000x128_S128x64_S5000x64_1_0_0_1_n_n.lhsIdx i s 1).val = (s ⟨0, by decide⟩).val :=
  dot_S5000x128_S128x64_S5000x64_1_0_0_1_n_n.lhsIdx_val_of_single rfl i s
theorem rhs_row (i : S5000x64.Idx) (s : dot_S5000x128_S128x64_S5000x64_1_0_0_1_n_n.contr.Idx) :
    (dot_S5000x128_S128x64_S5000x64_1_0_0_1_n_n.rhsIdx i s 0).val = (s ⟨0, by decide⟩).val :=
  dot_S5000x128_S128x64_S5000x64_1_0_0_1_n_n.rhsIdx_val_of_single rfl i s
theorem rhs_col (i : S5000x64.Idx) (s : dot_S5000x128_S128x64_S5000x64_1_0_0_1_n_n.contr.Idx) :
    (dot_S5000x128_S128x64_S5000x64_1_0_0_1_n_n.rhsIdx i s 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- One entry of the body's product: row p of the staged 5000×128 block against column q of the staged weight. -/
theorem pay_apply (a : FVec Ideal S5000x128 .f32) (b : FVec Ideal S128x64 .f32) (p : Fin 5000) (q : Fin 64) :
    k0_pay1 (F := Ideal) a b (ix2 p q) = ∑ k : Fin 128, a (ix2 p k) * b (ix2 k q) := by
  unfold k0_pay1
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k :=
    funext fun d => Fin.ext (by
      match d with
      | ⟨0, _⟩ => exact lhs_row _ _
      | ⟨1, _⟩ => exact (lhs_col _ _).trans hk)
  have er : dot_S5000x128_S128x64_S5000x64_1_0_0_1_n_n.rhsIdx (ix2 p q)
      ((contrEquiv1 dot_S5000x128_S128x64_S5000x64_1_0_0_1_n_n 128 rfl rfl).symm k) = ix2 k q :=
    funext fun d => Fin.ext (by
      match d with
      | ⟨0, _⟩ => exact (rhs_row _ _).trans hk
      | ⟨1, _⟩ => exact rhs_col _ _)
  rw [el, er]
  rfl

/-! ## The reference's operand indices at an entry of the whole array -/

theorem lidx_eq (r : Fin 100000) (q : Fin 64) (k : Fin 128) :
    Cert.ReferenceIdeal.Read.lidx_main_v28 (ix2 r q) k = ix2 r k :=
  funext fun a => by match a with | ⟨0, _⟩ => rfl | ⟨1, _⟩ => rfl
theorem ridx_eq (r : Fin 100000) (q : Fin 64) (k : Fin 128) :
    Cert.ReferenceIdeal.Read.ridx_main_v28 (ix2 r q) k = ix2 k q :=
  funext fun a => by match a with | ⟨0, _⟩ => rfl | ⟨1, _⟩ => rfl

/-- A staged pair of blocks — rows 5000·n … of the features, the whole weight — multiplies to rows 5000·n … of
    the reference's product. -/
theorem block_entry (X0 : FVec Ideal S100000x128 .f32) (X3 : FVec Ideal S128x64 .f32)
    (a : FVec Ideal S5000x128 .f32) (b : FVec Ideal S128x64 .f32) (n : Nat) (hn : n < 20)
    (ha : ∀ (p : Fin 5000) (k : Fin 128), a (ix2 p k) = X0 (ix2 ⟨n * 5000 + p.val, by have := p.isLt; omega⟩ k))
    (hb : ∀ (k : Fin 128) (q : Fin 64), b (ix2 k q) = X3 (ix2 k q))
    (p : Fin 5000) (q : Fin 64) :
    k0_pay1 (F := Ideal) a b (ix2 p q)
      = Cert.ReferenceIdeal.Read.val_main_v28 (F := Ideal) X0 X3 (ix2 ⟨n * 5000 + p.val, by have := p.isLt; omega⟩ q) := by
  refine (pay_apply a b p q).trans ?_
  refine Eq.trans ?_ (Cert.ReferenceIdeal.Read.val_main_v28_apply X0 X3 _).symm
  refine Finset.sum_congr rfl fun k _ => ?_
  rw [ha p k, hb k q, lidx_eq, ridx_eq]

/-! ## From blocks to the array -/

/-- The windows' block indices, decided over the 20 grid points: the feature and output windows move down one block of
    rows per point, the weight window stays. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the reference's product. -/
theorem flushed_eq (V : (c : Dev nD) → (b : Ref sig .tc) → Buf (Elt Ideal) ((c : Thread nD τ).loc b)) (c : Dev nD)
    (x0 : FVec Ideal S100000x128 .f32) (x3 : FVec Ideal S128x64 .f32)
    (h0 : V c main_arg0 = x0) (h3 : V c main_arg3 = x3) (t : Fin cfg0.N) :
    (dat0 (F := Ideal) V c).flushed 2 t
      = ((cfg0.win 2).blk t).view.read (Elt Ideal) (Cert.ReferenceIdeal.Read.val_main_v28 (F := Ideal) x0 x3) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  have ht : t.val < 20 := lt_of_lt_of_eq t.isLt N_0
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = Cert.ReferenceIdeal.Read.val_main_v28 (F := Ideal) x0 x3 (((cfg0.win 2).blk t).view.emb (ix2 p q))
  have hout : ((cfg0.win 2).blk t).view.emb (ix2 p q) = ix2 ⟨t.val * 5000 + p.val, by have := p.isLt; omega⟩ q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [hout]
  refine block_entry x0 x3 (iblk0 V c 0 t) (iblk0 V c 1 t) t.val ht ?_ ?_ p q
  · intro p k
    show V c main_arg0 (((cfg0.win 0).blk t).view.emb (ix2 p k)) = _
    rw [h0]
    refine congrArg x0 ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg3 (((cfg0.win 1).blk t).view.emb (ix2 k q)) = _
    rw [h3]
    refine congrArg x3 ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v28).slice (win0_2.rect t)).set ↔ _
  rw [View.set_slice_whole, Rect.mem_set_unit]
  exact Iff.rfl

/-- Row r of the output lies in the block of point r / 5000. -/
theorem cover_at (i : S100000x64.Idx) (t : Fin cfg0.N) (ht : t.val = (i 0).val / 5000) :
    (cfg0.win 2).flush t = true ∧ i ∈ ((cfg0.win 2).blk t).view.set := by
  obtain ⟨-, -, -, -, e4, e5⟩ := idx_facts t
  have hi0 : (i 0).val < 100000 := (i 0).isLt
  have hi1 : (i 1).val < 64 := (i 1).isLt
  refine ⟨flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The 20 row blocks tile the output array. -/
theorem cover (i : S100000x64.Idx) :
    ∃ t : Fin cfg0.N, (cfg0.win 2).flush t = true ∧ i ∈ ((cfg0.win 2).blk t).view.set := by
  have hi0 : (i 0).val < 100000 := (i 0).isLt
  have hlt : (i 0).val / 5000 < cfg0.N := by
    show (i 0).val / 5000 < grid0.N
    rw [N_0]; omega
  exact ⟨⟨(i 0).val / 5000, hlt⟩, cover_at i ⟨(i 0).val / 5000, hlt⟩ rfl⟩

/-- THE ARRAY after region 0 is the reference's product of the features and the first weight. -/
theorem value (V : (c : Dev nD) → (b : Ref sig .tc) → Buf (Elt Ideal) ((c : Thread nD τ).loc b)) (c : Dev nD)
    (x0 : FVec Ideal S100000x128 .f32) (x3 : FVec Ideal S128x64 .f32)
    (h0 : V c main_arg0 = x0) (h3 : V c main_arg3 = x3) :
    (dat0 (F := Ideal) V c).arrAt 2 cfg0.N = Cert.ReferenceIdeal.Read.val_main_v28 (F := Ideal) x0 x3 :=
  (dat0 (F := Ideal) V c).arrAt_eq_of_cover 2 (Cert.ReferenceIdeal.Read.val_main_v28 (F := Ideal) x0 x3)
    (fun t _ => flushed_eq V c x0 x3 h0 h3 t) cover

end Cert.KernelIdeal.Region0

end
-- ==== Proof.Region1.lean ====
import proofs.«104744_j77352361001295_2_alg».proof.Proof.Gen.KernelIdeal.Frame
import proofs.«104744_j77352361001295_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

/-! # Region 1: the first hidden layer's normalisation, rectification and weight product

The region normalises the aggregated features and multiplies them by the layer's weight matrix:
for a row `r` of the 100000 nodes and an output column `q`,

  `out r q = ∑ k < 64, max (((A r k + b k) - m k) * rsqrt (v k + eps) * g k + be k) 0 * W k q`.

The grid has 20 points; point `t` reads rows `5000 t … 5000 t + 4999` of `A` and the whole of the six small
operands, and writes the same rows of the result. The reference computes the same expression on whole arrays
(a broadcast of each `[64]` vector, the pointwise operations in the same order, then one contraction over `k`).
At the ideal values rounding to the narrower float format is the identity and the matrix product into a zero
accumulator is the plain sum over `k`, so the two sides agree entry by entry with no algebraic law at all: both
are literally the sum above. What is proved here is that sum for one entry of a block, the same sum for one entry
of the reference's array, and that the 20 row blocks tile the array. -/

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read

/-- One entry of the hidden activation: the bias `b` is added to the aggregated entry `a`, the sum is centred by
    the mean `m` and scaled by the reciprocal root of the variance `v` plus the fixed `eps`, then scaled by `g`,
    shifted by `be`, and rectified. -/
def act (a b g be m v : EReal) : EReal :=
  max ((a + b - m) * Ideal.rsqrt (v + Ideal.ofBits .f32 0x3727C5AC#32) * g + be) (Ideal.ofBits .f32 0x00000000#32)

/-- The pointwise reciprocal square root, at an index. -/
theorem rsqrt_apply {s : Shape} {φ : FTy} (a : FVec Ideal s φ) (i : s.Idx) : rsqrt a i = Ideal.rsqrt (a i) := rfl

/-! ## The operand indices of the contraction

At an output index and a contraction index the left operand is read in the output's row at the contraction
index, the right operand in the contraction index's row at the output's column. -/

theorem lhs0 (i : S5000x64.Idx) (κ : dot_S5000x64_S64x64_S5000x64_1_0_0_1_n_n.contr.Idx) : (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs1 (i : S5000x64.Idx) (κ : dot_S5000x64_S64x64_S5000x64_1_0_0_1_n_n.contr.Idx) : (dot_S5000x64_S64x64_S5000x64_1_0_0_1_n_n.lhsIdx i κ 1).val = (κ ⟨0, by decide⟩).val :=
  dot_S5000x64_S64x64_S5000x64_1_0_0_1_n_n.lhsIdx_val_of_single rfl i κ
theorem rhs0 (i : S5000x64.Idx) (κ : dot_S5000x64_S64x64_S5000x64_1_0_0_1_n_n.contr.Idx) : (dot_S5000x64_S64x64_S5000x64_1_0_0_1_n_n.rhsIdx i κ 0).val = (κ ⟨0, by decide⟩).val :=
  dot_S5000x64_S64x64_S5000x64_1_0_0_1_n_n.rhsIdx_val_of_single rfl i κ
theorem rhs1 (i : S5000x64.Idx) (κ : dot_S5000x64_S64x64_S5000x64_1_0_0_1_n_n.contr.Idx) : (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## One entry of a block the body writes -/

/-- Entry `(p, q)` of the body's result on a block of 5000 rows: the contraction over the 64 hidden columns of the
    rectified normalised entry of row `p` with column `q` of the weights. The `[1, 64]` operands are read in their
    one row; the casts to the narrower format are the identity and the accumulator starts at zero. -/
theorem pay_apply (v0 : Vec Ideal S5000x64 .f32) (v2 v6 v10 v17 v21 : Vec Ideal S1x64 .f32) (v28 : Vec Ideal S64x64 .f32)
    (p : Fin 5000) (q : Fin 64) :
    k1_pay1 (F := Ideal) v0 v2 v6 v10 v17 v21 v28 (ix2 p q)
      = ∑ k : Fin 64, act (v0 (ix2 p k)) (v2 (ix2 (0 : Fin 1) k)) (v17 (ix2 (0 : Fin 1) k)) (v21 (ix2 (0 : Fin 1) k))
          (v6 (ix2 (0 : Fin 1) k)) (v10 (ix2 (0 : Fin 1) k)) * (v28 (ix2 k q) : EReal) := by
  unfold k1_pay1
  simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs0 _ _
      | ⟨1, _⟩ => exact (lhs1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs0 _ _).trans hk
      | ⟨1, _⟩ => exact rhs1 _ _)
  rw [el, er]
  simp only [truncf_apply, maximumf_apply, addf_apply, mulf_apply, subf_apply, broadcast_apply, rsqrt_apply,
    broadcastTo_1b_ab_apply]
  generalize v0 (ix2 p k) = a0
  generalize v2 (ix2 (0 : Fin 1) k) = a1
  generalize v17 (ix2 (0 : Fin 1) k) = a2
  generalize v21 (ix2 (0 : Fin 1) k) = a3
  generalize v6 (ix2 (0 : Fin 1) k) = a4
  generalize v10 (ix2 (0 : Fin 1) k) = a5
  generalize v28 (ix2 k q) = a6
  rfl

/-! ## One entry of the reference's array -/

/-- Entry `(r, q)` of the reference's stage: the same contraction, over the entries of row `r` of the aggregated
    array and entry `k` of each `[64]` vector (every broadcast reads its operand at the column). -/
theorem ref_apply (x0 : (⟨Cert.ReferenceIdeal.S100000x128, .f32⟩ : BufTy).Contents (Elt Ideal)) (x1 : (⟨Cert.ReferenceIdeal.S2x1250000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal)) (r : Fin 100000) (q : Fin 64) :
    val_main_v60 (F := Ideal) x0 x1 x3 x4 x5 x6 x7 x8 x9 (ix2 r q)
      = ∑ k : Fin 64, act (val_main_v40 (F := Ideal) x0 x1 x3 (ix2 r k)) (x4 (ix1 k)) (x5 (ix1 k)) (x6 (ix1 k))
          (x7 (ix1 k)) (x8 (ix1 k)) * (x9 (ix2 k q) : EReal) := by
  rw [val_main_v60_apply]
  refine Finset.sum_congr rfl fun k _ => ?_
  have el : lidx_main_v60 (ix2 r q) k = ix2 r k := funext fun a => by
    match a with
    | ⟨0, _⟩ => rfl
    | ⟨1, _⟩ => rfl
  have er : ridx_main_v60 (ix2 r q) k = ix2 k q := funext fun a => by
    match a with
    | ⟨0, _⟩ => rfl
    | ⟨1, _⟩ => rfl
  have eb : idx_main_v41 (idx_main_v42 (ix2 r k)) = ix1 k := funext fun a => by
    match a with
    | ⟨0, _⟩ => rfl
  have em : idx_main_v44 (idx_main_v45 (ix2 r k)) = ix1 k := funext fun a => by
    match a with
    | ⟨0, _⟩ => rfl
  have ev : idx_main_v50 (idx_main_v51 (ix2 r k)) = ix1 k := funext fun a => by
    match a with
    | ⟨0, _⟩ => rfl
  have eg : idx_main_v53 (idx_main_v54 (ix2 r k)) = ix1 k := funext fun a => by
    match a with
    | ⟨0, _⟩ => rfl
  have ebe : idx_main_v56 (idx_main_v57 (ix2 r k)) = ix1 k := funext fun a => by
    match a with
    | ⟨0, _⟩ => rfl
  rw [el, er, val_main_v59_apply, val_main_v58_apply, val_main_v55_apply, val_main_v52_apply, val_main_v46_apply,
    val_main_v43_apply, val_main_v42_apply, val_main_v41_apply, val_main_v45_apply, val_main_v44_apply,
    val_main_v51_apply, val_main_v50_apply, val_main_v49_apply, val_main_v48_apply, val_main_v47_apply,
    val_main_cst_7_apply, val_main_v54_apply, val_main_v53_apply, val_main_v57_apply, val_main_v56_apply,
    val_main_call0_v0_apply, val_main_call0_cst_apply, eb, em, ev, eg, ebe]
  generalize val_main_v40 (F := Ideal) x0 x1 x3 (ix2 r k) = a0
  generalize x4 (ix1 k) = a1
  generalize x5 (ix1 k) = a2
  generalize x6 (ix1 k) = a3
  generalize x7 (ix1 k) = a4
  generalize x8 (ix1 k) = a5
  generalize x9 (ix2 k q) = a6
  rfl

/-! ## One entry of a block against one entry of the reference -/

/-- If the blocks `B0 … B6` the body reads hold, at the coordinates entry `j` of the result depends on, what the
    reference's operands hold at the coordinates entry `i` of its stage depends on, the two entries are equal. -/
theorem point (B0 : Vec Ideal S5000x64 .f32) (B1 B2 B3 B4 B5 : Vec Ideal S1x64 .f32) (B6 : Vec Ideal S64x64 .f32)
    (x0 : (⟨Cert.ReferenceIdeal.S100000x128, .f32⟩ : BufTy).Contents (Elt Ideal)) (x1 : (⟨Cert.ReferenceIdeal.S2x1250000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal))
    (j : S5000x64.Idx) (i : S100000x64.Idx) (p : Fin 5000) (q : Fin 64) (r : Fin 100000)
    (hj0 : (j 0).val = p.val) (hj1 : (j 1).val = q.val) (hi0 : (i 0).val = r.val) (hi1 : (i 1).val = q.val)
    (h0 : ∀ k : Fin 64, B0 (ix2 p k) = val_main_v40 (F := Ideal) x0 x1 x3 (ix2 r k))
    (h1 : ∀ k : Fin 64, B1 (ix2 (0 : Fin 1) k) = x4 (ix1 k))
    (h2 : ∀ k : Fin 64, B2 (ix2 (0 : Fin 1) k) = x5 (ix1 k))
    (h3 : ∀ k : Fin 64, B3 (ix2 (0 : Fin 1) k) = x6 (ix1 k))
    (h4 : ∀ k : Fin 64, B4 (ix2 (0 : Fin 1) k) = x7 (ix1 k))
    (h5 : ∀ k : Fin 64, B5 (ix2 (0 : Fin 1) k) = x8 (ix1 k))
    (h6 : ∀ k : Fin 64, B6 (ix2 k q) = x9 (ix2 k q)) :
    k1_pay1 (F := Ideal) B0 B1 B4 B5 B2 B3 B6 j = val_main_v60 (F := Ideal) x0 x1 x3 x4 x5 x6 x7 x8 x9 i := by
  have ej : j = ix2 p q := funext fun a => Fin.ext (by
    match a with
    | ⟨0, _⟩ => exact hj0
    | ⟨1, _⟩ => exact hj1)
  have ei : i = ix2 r q := funext fun a => Fin.ext (by
    match a with
    | ⟨0, _⟩ => exact hi0
    | ⟨1, _⟩ => exact hi1)
  rw [ej, ei, pay_apply, ref_apply]
  exact Finset.sum_congr rfl fun k _ => by rw [h0 k, h1 k, h2 k, h3 k, h4 k, h5 k, h6 k]

/-! ## From the blocks to the array -/

theorem hz : (![0, 0] : Fin 2 → Nat) = fun _ => 0 := funext fun a => by fin_cases a <;> rfl

/-- The index maps over the 20 grid points: the result's block and the aggregated array's block are both block `t`
    of the rows and the only block of the columns; each small operand has one block. -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- A block equals the block of a whole array `G` at point `t` as soon as each of its entries is `G` at the entry's
    place in the array. -/
theorem eq_read_blk (t : Fin cfg1.N) (G : S100000x64.Idx → EReal)
    (X : ((cfg1.win 7).xblock (grid1.coords t)).Idx → EReal)
    (h : ∀ y, X y = G (((cfg1.win 7).blk t).view.emb y)) :
    X = ((cfg1.win 7).blk t).view.read (Elt Ideal) G :=
  funext fun y => h y

/-- What point `t` writes back is block `t` of the reference's stage, when the region finds the aggregated array,
    the five `[1, 64]` rows and the weights holding the reference's operands. -/
theorem flushed_eq (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1250000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal))
    (hA : V c main_v40 = val_main_v40 (F := Ideal) x0 x1 x3)
    (h1 : ∀ k : Fin 64, (V c main_v41 : S1x64.Idx → EReal) (ix2 (0 : Fin 1) k) = x4 (ix1 k))
    (h2 : ∀ k : Fin 64, (V c main_v42 : S1x64.Idx → EReal) (ix2 (0 : Fin 1) k) = x5 (ix1 k))
    (h3 : ∀ k : Fin 64, (V c main_v43 : S1x64.Idx → EReal) (ix2 (0 : Fin 1) k) = x6 (ix1 k))
    (h4 : ∀ k : Fin 64, (V c main_v44 : S1x64.Idx → EReal) (ix2 (0 : Fin 1) k) = x7 (ix1 k))
    (h5 : ∀ k : Fin 64, (V c main_v45 : S1x64.Idx → EReal) (ix2 (0 : Fin 1) k) = x8 (ix1 k))
    (hW : V c main_arg9 = x9) (t : Fin cfg1.N) :
    (dat1 (F := Ideal) V c).flushed 7 t
      = ((cfg1.win 7).blk t).view.read (Elt Ideal) (val_main_v60 (F := Ideal) x0 x1 x3 x4 x5 x6 x7 x8 x9) := by
  show (cfg1.win 7).cut (grid1.coords t) ((dat1 (F := Ideal) V c).after 7 t) = _
  rw [after1_7]
  unfold out1_7
  rw [View.canon_unit_zero hz]
  simp only [View.ld_unit_zero (S := S5000x64) hz, View.ld_unit_zero (S := S1x64) hz, View.ld_unit_zero (S := S64x64) hz]
  obtain ⟨e70, e71, e00, e01, e10, e11, e20, e21, e30, e31, e40, e41, e50, e51, e60, e61⟩ := idx_facts t
  refine eq_read_blk t (val_main_v60 (F := Ideal) x0 x1 x3 x4 x5 x6 x7 x8 x9) _ fun y => ?_
  have hp : (y 0).val < 5000 := (y 0).isLt
  have hq : (y 1).val < 64 := (y 1).isLt
  have hr : ((((cfg1.win 7).blk t).view.emb y) 0).val < 100000 := ((((cfg1.win 7).blk t).view.emb y) 0).isLt
  refine point (iblk1 V c 0 t) (iblk1 V c 1 t) (iblk1 V c 2 t) (iblk1 V c 3 t) (iblk1 V c 4 t) (iblk1 V c 5 t)
    (iblk1 V c 6 t) x0 x1 x3 x4 x5 x6 x7 x8 x9 ((cfg1.win 7).xinj (grid1.coords t) y) (((cfg1.win 7).blk t).view.emb y)
    ⟨(y 0).val, hp⟩ ⟨(y 1).val, hq⟩ ⟨_, hr⟩ rfl rfl rfl ?_ ?_ ?_ ?_ ?_ ?_ ?_ ?_
  · show win1_7.index t (1 : Fin 2) * 64 + 1 * (y 1).val = (y 1).val
    omega
  · intro k
    show V c main_v40 (((cfg1.win 0).blk t).view.emb (ix2 (⟨(y 0).val, hp⟩ : Fin 5000) k)) = _
    rw [hA]
    refine congrArg (val_main_v40 (F := Ideal) x0 x1 x3) (funext fun a => Fin.ext ?_)
    match a with
    | ⟨0, _⟩ =>
      show win1_0.index t (0 : Fin 2) * 5000 + 1 * (y 0).val = win1_7.index t (0 : Fin 2) * 5000 + 1 * (y 0).val
      omega
    | ⟨1, _⟩ =>
      show win1_0.index t (1 : Fin 2) * 64 + 1 * k.val = k.val
      omega
  · intro k
    refine (congrArg (V c main_v41 : S1x64.Idx → EReal) (funext fun a => Fin.ext ?_)).trans (h1 k)
    match a with
    | ⟨0, _⟩ =>
      show win1_1.index t (0 : Fin 2) * 1 + 1 * ((0 : Fin 1) : ℕ) = ((0 : Fin 1) : ℕ)
      omega
    | ⟨1, _⟩ =>
      show win1_1.index t (1 : Fin 2) * 64 + 1 * k.val = k.val
      omega
  · intro k
    refine (congrArg (V c main_v42 : S1x64.Idx → EReal) (funext fun a => Fin.ext ?_)).trans (h2 k)
    match a with
    | ⟨0, _⟩ =>
      show win1_2.index t (0 : Fin 2) * 1 + 1 * ((0 : Fin 1) : ℕ) = ((0 : Fin 1) : ℕ)
      omega
    | ⟨1, _⟩ =>
      show win1_2.index t (1 : Fin 2) * 64 + 1 * k.val = k.val
      omega
  · intro k
    refine (congrArg (V c main_v43 : S1x64.Idx → EReal) (funext fun a => Fin.ext ?_)).trans (h3 k)
    match a with
    | ⟨0, _⟩ =>
      show win1_3.index t (0 : Fin 2) * 1 + 1 * ((0 : Fin 1) : ℕ) = ((0 : Fin 1) : ℕ)
      omega
    | ⟨1, _⟩ =>
      show win1_3.index t (1 : Fin 2) * 64 + 1 * k.val = k.val
      omega
  · intro k
    refine (congrArg (V c main_v44 : S1x64.Idx → EReal) (funext fun a => Fin.ext ?_)).trans (h4 k)
    match a with
    | ⟨0, _⟩ =>
      show win1_4.index t (0 : Fin 2) * 1 + 1 * ((0 : Fin 1) : ℕ) = ((0 : Fin 1) : ℕ)
      omega
    | ⟨1, _⟩ =>
      show win1_4.index t (1 : Fin 2) * 64 + 1 * k.val = k.val
      omega
  · intro k
    refine (congrArg (V c main_v45 : S1x64.Idx → EReal) (funext fun a => Fin.ext ?_)).trans (h5 k)
    match a with
    | ⟨0, _⟩ =>
      show win1_5.index t (0 : Fin 2) * 1 + 1 * ((0 : Fin 1) : ℕ) = ((0 : Fin 1) : ℕ)
      omega
    | ⟨1, _⟩ =>
      show win1_5.index t (1 : Fin 2) * 64 + 1 * k.val = k.val
      omega
  · intro k
    show V c main_arg9 (((cfg1.win 6).blk t).view.emb (ix2 k (⟨(y 1).val, hq⟩ : Fin 64))) = _
    rw [hW]
    refine congrArg x9 (funext fun a => Fin.ext ?_)
    match a with
    | ⟨0, _⟩ =>
      show win1_6.index t (0 : Fin 2) * 64 + 1 * k.val = k.val
      omega
    | ⟨1, _⟩ =>
      show win1_6.index t (1 : Fin 2) * 64 + 1 * (y 1).val = (y 1).val
      omega

/-- An index of the array lies in point `t`'s block iff each coordinate lies in the block's range on its axis. -/
theorem mem_blk (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v46).slice (win1_7.rect t)).set ↔ _
  rw [View.set_slice_whole, Rect.mem_set_unit]
  exact Iff.rfl

/-- The 20 blocks of 5000 rows tile the 100000 rows: row `r` lies in the block of point `r / 5000`. -/
theorem cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e70, e71, -⟩ := idx_facts t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 64 ≤ (i 1).val ∧ (i 1).val < win1_7.index t (1 : Fin 2) * 64 + 64
    omega

/-- The region's output array, after the region, is the reference's stage. -/
theorem value (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1250000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal))
    (hA : V c main_v40 = val_main_v40 (F := Ideal) x0 x1 x3)
    (h1 : ∀ k : Fin 64, (V c main_v41 : S1x64.Idx → EReal) (ix2 (0 : Fin 1) k) = x4 (ix1 k))
    (h2 : ∀ k : Fin 64, (V c main_v42 : S1x64.Idx → EReal) (ix2 (0 : Fin 1) k) = x5 (ix1 k))
    (h3 : ∀ k : Fin 64, (V c main_v43 : S1x64.Idx → EReal) (ix2 (0 : Fin 1) k) = x6 (ix1 k))
    (h4 : ∀ k : Fin 64, (V c main_v44 : S1x64.Idx → EReal) (ix2 (0 : Fin 1) k) = x7 (ix1 k))
    (h5 : ∀ k : Fin 64, (V c main_v45 : S1x64.Idx → EReal) (ix2 (0 : Fin 1) k) = x8 (ix1 k))
    (hW : V c main_arg9 = x9) :
    (dat1 (F := Ideal) V c).arrAt 7 cfg1.N = val_main_v60 (F := Ideal) x0 x1 x3 x4 x5 x6 x7 x8 x9 :=
  (dat1 (F := Ideal) V c).arrAt_eq_of_cover 7 (val_main_v60 (F := Ideal) x0 x1 x3 x4 x5 x6 x7 x8 x9)
    (fun t _ => flushed_eq V c x0 x1 x3 x4 x5 x6 x7 x8 x9 hA h1 h2 h3 h4 h5 hW t) cover

end Cert.KernelIdeal.Region1

end
-- ==== Proof.Region2.lean ====
import proofs.«104744_j77352361001295_2_alg».proof.Proof.Gen.KernelIdeal.Frame
import proofs.«104744_j77352361001295_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

/-! # Region 2: the second hidden layer's normalisation, rectification and weight product

The region normalises the aggregated features and multiplies them by the layer's weight matrix:
for a row `r` of the 100000 nodes and an output column `q`,

  `out r q = ∑ k < 64, max (((A r k + b k) - m k) * rsqrt (v k + eps) * g k + be k) 0 * W k q`.

The grid has 20 points; point `t` reads rows `5000 t … 5000 t + 4999` of `A` and the whole of the six small
operands, and writes the same rows of the result. The reference computes the same expression on whole arrays
(a broadcast of each `[64]` vector, the pointwise operations in the same order, then one contraction over `k`).
At the ideal values rounding to the narrower float format is the identity and the matrix product into a zero
accumulator is the plain sum over `k`, so the two sides agree entry by entry with no algebraic law at all: both
are literally the sum above. What is proved here is that sum for one entry of a block, the same sum for one entry
of the reference's array, and that the 20 row blocks tile the array. -/

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read

/-- One entry of the hidden activation: the bias `b` is added to the aggregated entry `a`, the sum is centred by
    the mean `m` and scaled by the reciprocal root of the variance `v` plus the fixed `eps`, then scaled by `g`,
    shifted by `be`, and rectified. -/
def act (a b g be m v : EReal) : EReal :=
  max ((a + b - m) * Ideal.rsqrt (v + Ideal.ofBits .f32 0x3727C5AC#32) * g + be) (Ideal.ofBits .f32 0x00000000#32)

/-- The pointwise reciprocal square root, at an index. -/
theorem rsqrt_apply {s : Shape} {φ : FTy} (a : FVec Ideal s φ) (i : s.Idx) : rsqrt a i = Ideal.rsqrt (a i) := rfl

/-! ## The operand indices of the contraction

At an output index and a contraction index the left operand is read in the output's row at the contraction
index, the right operand in the contraction index's row at the output's column. -/

theorem lhs0 (i : S5000x64.Idx) (κ : dot_S5000x64_S64x64_S5000x64_1_0_0_1_n_n.contr.Idx) : (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs1 (i : S5000x64.Idx) (κ : dot_S5000x64_S64x64_S5000x64_1_0_0_1_n_n.contr.Idx) : (dot_S5000x64_S64x64_S5000x64_1_0_0_1_n_n.lhsIdx i κ 1).val = (κ ⟨0, by decide⟩).val :=
  dot_S5000x64_S64x64_S5000x64_1_0_0_1_n_n.lhsIdx_val_of_single rfl i κ
theorem rhs0 (i : S5000x64.Idx) (κ : dot_S5000x64_S64x64_S5000x64_1_0_0_1_n_n.contr.Idx) : (dot_S5000x64_S64x64_S5000x64_1_0_0_1_n_n.rhsIdx i κ 0).val = (κ ⟨0, by decide⟩).val :=
  dot_S5000x64_S64x64_S5000x64_1_0_0_1_n_n.rhsIdx_val_of_single rfl i κ
theorem rhs1 (i : S5000x64.Idx) (κ : dot_S5000x64_S64x64_S5000x64_1_0_0_1_n_n.contr.Idx) : (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## One entry of a block the body writes -/

/-- Entry `(p, q)` of the body's result on a block of 5000 rows: the contraction over the 64 hidden columns of the
    rectified normalised entry of row `p` with column `q` of the weights. The `[1, 64]` operands are read in their
    one row; the casts to the narrower format are the identity and the accumulator starts at zero. -/
theorem pay_apply (v0 : Vec Ideal S5000x64 .f32) (v2 v6 v10 v17 v21 : Vec Ideal S1x64 .f32) (v28 : Vec Ideal S64x64 .f32)
    (p : Fin 5000) (q : Fin 64) :
    k2_pay1 (F := Ideal) v0 v2 v6 v10 v17 v21 v28 (ix2 p q)
      = ∑ k : Fin 64, act (v0 (ix2 p k)) (v2 (ix2 (0 : Fin 1) k)) (v17 (ix2 (0 : Fin 1) k)) (v21 (ix2 (0 : Fin 1) k))
          (v6 (ix2 (0 : Fin 1) k)) (v10 (ix2 (0 : Fin 1) k)) * (v28 (ix2 k q) : EReal) := by
  unfold k2_pay1
  simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs0 _ _
      | ⟨1, _⟩ => exact (lhs1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs0 _ _).trans hk
      | ⟨1, _⟩ => exact rhs1 _ _)
  rw [el, er]
  simp only [truncf_apply, maximumf_apply, addf_apply, mulf_apply, subf_apply, broadcast_apply, rsqrt_apply,
    broadcastTo_1b_ab_apply]
  generalize v0 (ix2 p k) = a0
  generalize v2 (ix2 (0 : Fin 1) k) = a1
  generalize v17 (ix2 (0 : Fin 1) k) = a2
  generalize v21 (ix2 (0 : Fin 1) k) = a3
  generalize v6 (ix2 (0 : Fin 1) k) = a4
  generalize v10 (ix2 (0 : Fin 1) k) = a5
  generalize v28 (ix2 k q) = a6
  rfl

/-! ## One entry of the reference's array -/

/-- Entry `(r, q)` of the reference's stage: the same contraction, over the entries of row `r` of the aggregated
    array and entry `k` of each `[64]` vector (every broadcast reads its operand at the column). -/
theorem ref_apply (x0 : (⟨Cert.ReferenceIdeal.S100000x128, .f32⟩ : BufTy).Contents (Elt Ideal)) (x1 : (⟨Cert.ReferenceIdeal.S2x1250000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal)) (x10 x11 x12 x13 x14 : (⟨Cert.ReferenceIdeal.S64, .f32⟩ : BufTy).Contents (Elt Ideal)) (x15 : (⟨Cert.ReferenceIdeal.S64x64, .f32⟩ : BufTy).Contents (Elt Ideal)) (r : Fin 100000) (q : Fin 64) :
    val_main_v92 (F := Ideal) x0 x1 x3 x4 x5 x6 x7 x8 x9 x10 x11 x12 x13 x14 x15 (ix2 r q)
      = ∑ k : Fin 64, act (val_main_v72 (F := Ideal) x0 x1 x3 x4 x5 x6 x7 x8 x9 (ix2 r k)) (x10 (ix1 k)) (x11 (ix1 k)) (x12 (ix1 k))
          (x13 (ix1 k)) (x14 (ix1 k)) * (x15 (ix2 k q) : EReal) := by
  rw [val_main_v92_apply]
  refine Finset.sum_congr rfl fun k _ => ?_
  have el : lidx_main_v92 (ix2 r q) k = ix2 r k := funext fun a => by
    match a with
    | ⟨0, _⟩ => rfl
    | ⟨1, _⟩ => rfl
  have er : ridx_main_v92 (ix2 r q) k = ix2 k q := funext fun a => by
    match a with
    | ⟨0, _⟩ => rfl
    | ⟨1, _⟩ => rfl
  have eb : idx_main_v73 (idx_main_v74 (ix2 r k)) = ix1 k := funext fun a => by
    match a with
    | ⟨0, _⟩ => rfl
  have em : idx_main_v76 (idx_main_v77 (ix2 r k)) = ix1 k := funext fun a => by
    match a with
    | ⟨0, _⟩ => rfl
  have ev : idx_main_v82 (idx_main_v83 (ix2 r k)) = ix1 k := funext fun a => by
    match a with
    | ⟨0, _⟩ => rfl
  have eg : idx_main_v85 (idx_main_v86 (ix2 r k)) = ix1 k := funext fun a => by
    match a with
    | ⟨0, _⟩ => rfl
  have ebe : idx_main_v88 (idx_main_v89 (ix2 r k)) = ix1 k := funext fun a => by
    match a with
    | ⟨0, _⟩ => rfl
  rw [el, er, val_main_v91_apply, val_main_v90_apply, val_main_v87_apply, val_main_v84_apply, val_main_v78_apply,
    val_main_v75_apply, val_main_v74_apply, val_main_v73_apply, val_main_v77_apply, val_main_v76_apply,
    val_main_v83_apply, val_main_v82_apply, val_main_v81_apply, val_main_v80_apply, val_main_v79_apply,
    val_main_cst_11_apply, val_main_v86_apply, val_main_v85_apply, val_main_v89_apply, val_main_v88_apply,
    val_main_call1_v0_apply, val_main_call1_cst_apply, eb, em, ev, eg, ebe]
  generalize val_main_v72 (F := Ideal) x0 x1 x3 x4 x5 x6 x7 x8 x9 (ix2 r k) = a0
  generalize x10 (ix1 k) = a1
  generalize x11 (ix1 k) = a2
  generalize x12 (ix1 k) = a3
  generalize x13 (ix1 k) = a4
  generalize x14 (ix1 k) = a5
  generalize x15 (ix2 k q) = a6
  rfl

/-! ## One entry of a block against one entry of the reference -/

/-- If the blocks `B0 … B6` the body reads hold, at the coordinates entry `j` of the result depends on, what the
    reference's operands hold at the coordinates entry `i` of its stage depends on, the two entries are equal. -/
theorem point (B0 : Vec Ideal S5000x64 .f32) (B1 B2 B3 B4 B5 : Vec Ideal S1x64 .f32) (B6 : Vec Ideal S64x64 .f32)
    (x0 : (⟨Cert.ReferenceIdeal.S100000x128, .f32⟩ : BufTy).Contents (Elt Ideal)) (x1 : (⟨Cert.ReferenceIdeal.S2x1250000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal)) (x10 x11 x12 x13 x14 : (⟨Cert.ReferenceIdeal.S64, .f32⟩ : BufTy).Contents (Elt Ideal)) (x15 : (⟨Cert.ReferenceIdeal.S64x64, .f32⟩ : BufTy).Contents (Elt Ideal))
    (j : S5000x64.Idx) (i : S100000x64.Idx) (p : Fin 5000) (q : Fin 64) (r : Fin 100000)
    (hj0 : (j 0).val = p.val) (hj1 : (j 1).val = q.val) (hi0 : (i 0).val = r.val) (hi1 : (i 1).val = q.val)
    (h0 : ∀ k : Fin 64, B0 (ix2 p k) = val_main_v72 (F := Ideal) x0 x1 x3 x4 x5 x6 x7 x8 x9 (ix2 r k))
    (h1 : ∀ k : Fin 64, B1 (ix2 (0 : Fin 1) k) = x10 (ix1 k))
    (h2 : ∀ k : Fin 64, B2 (ix2 (0 : Fin 1) k) = x11 (ix1 k))
    (h3 : ∀ k : Fin 64, B3 (ix2 (0 : Fin 1) k) = x12 (ix1 k))
    (h4 : ∀ k : Fin 64, B4 (ix2 (0 : Fin 1) k) = x13 (ix1 k))
    (h5 : ∀ k : Fin 64, B5 (ix2 (0 : Fin 1) k) = x14 (ix1 k))
    (h6 : ∀ k : Fin 64, B6 (ix2 k q) = x15 (ix2 k q)) :
    k2_pay1 (F := Ideal) B0 B1 B4 B5 B2 B3 B6 j = val_main_v92 (F := Ideal) x0 x1 x3 x4 x5 x6 x7 x8 x9 x10 x11 x12 x13 x14 x15 i := by
  have ej : j = ix2 p q := funext fun a => Fin.ext (by
    match a with
    | ⟨0, _⟩ => exact hj0
    | ⟨1, _⟩ => exact hj1)
  have ei : i = ix2 r q := funext fun a => Fin.ext (by
    match a with
    | ⟨0, _⟩ => exact hi0
    | ⟨1, _⟩ => exact hi1)
  rw [ej, ei, pay_apply, ref_apply]
  exact Finset.sum_congr rfl fun k _ => by rw [h0 k, h1 k, h2 k, h3 k, h4 k, h5 k, h6 k]

/-! ## From the blocks to the array -/

theorem hz : (![0, 0] : Fin 2 → Nat) = fun _ => 0 := funext fun a => by fin_cases a <;> rfl

/-- The index maps over the 20 grid points: the result's block and the aggregated array's block are both block `t`
    of the rows and the only block of the columns; each small operand has one block. -/
theorem idx_facts : ∀ t : Fin cfg2.N,
    win2_7.index t (0 : Fin 2) = t.val ∧ win2_7.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- A block equals the block of a whole array `G` at point `t` as soon as each of its entries is `G` at the entry's
    place in the array. -/
theorem eq_read_blk (t : Fin cfg2.N) (G : S100000x64.Idx → EReal)
    (X : ((cfg2.win 7).xblock (grid2.coords t)).Idx → EReal)
    (h : ∀ y, X y = G (((cfg2.win 7).blk t).view.emb y)) :
    X = ((cfg2.win 7).blk t).view.read (Elt Ideal) G :=
  funext fun y => h y

/-- What point `t` writes back is block `t` of the reference's stage, when the region finds the aggregated array,
    the five `[1, 64]` rows and the weights holding the reference's operands. -/
theorem flushed_eq (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1250000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal)) (x10 x11 x12 x13 x14 : (⟨Cert.ReferenceIdeal.S64, .f32⟩ : BufTy).Contents (Elt Ideal)) (x15 : (⟨Cert.ReferenceIdeal.S64x64, .f32⟩ : BufTy).Contents (Elt Ideal))
    (hA : V c main_v58 = val_main_v72 (F := Ideal) x0 x1 x3 x4 x5 x6 x7 x8 x9)
    (h1 : ∀ k : Fin 64, (V c main_v59 : S1x64.Idx → EReal) (ix2 (0 : Fin 1) k) = x10 (ix1 k))
    (h2 : ∀ k : Fin 64, (V c main_v60 : S1x64.Idx → EReal) (ix2 (0 : Fin 1) k) = x11 (ix1 k))
    (h3 : ∀ k : Fin 64, (V c main_v61 : S1x64.Idx → EReal) (ix2 (0 : Fin 1) k) = x12 (ix1 k))
    (h4 : ∀ k : Fin 64, (V c main_v62 : S1x64.Idx → EReal) (ix2 (0 : Fin 1) k) = x13 (ix1 k))
    (h5 : ∀ k : Fin 64, (V c main_v63 : S1x64.Idx → EReal) (ix2 (0 : Fin 1) k) = x14 (ix1 k))
    (hW : V c main_arg15 = x15) (t : Fin cfg2.N) :
    (dat2 (F := Ideal) V c).flushed 7 t
      = ((cfg2.win 7).blk t).view.read (Elt Ideal) (val_main_v92 (F := Ideal) x0 x1 x3 x4 x5 x6 x7 x8 x9 x10 x11 x12 x13 x14 x15) := by
  show (cfg2.win 7).cut (grid2.coords t) ((dat2 (F := Ideal) V c).after 7 t) = _
  rw [after2_7]
  unfold out2_7
  rw [View.canon_unit_zero hz]
  simp only [View.ld_unit_zero (S := S5000x64) hz, View.ld_unit_zero (S := S1x64) hz, View.ld_unit_zero (S := S64x64) hz]
  obtain ⟨e70, e71, e00, e01, e10, e11, e20, e21, e30, e31, e40, e41, e50, e51, e60, e61⟩ := idx_facts t
  refine eq_read_blk t (val_main_v92 (F := Ideal) x0 x1 x3 x4 x5 x6 x7 x8 x9 x10 x11 x12 x13 x14 x15) _ fun y => ?_
  have hp : (y 0).val < 5000 := (y 0).isLt
  have hq : (y 1).val < 64 := (y 1).isLt
  have hr : ((((cfg2.win 7).blk t).view.emb y) 0).val < 100000 := ((((cfg2.win 7).blk t).view.emb y) 0).isLt
  refine point (iblk2 V c 0 t) (iblk2 V c 1 t) (iblk2 V c 2 t) (iblk2 V c 3 t) (iblk2 V c 4 t) (iblk2 V c 5 t)
    (iblk2 V c 6 t) x0 x1 x3 x4 x5 x6 x7 x8 x9 x10 x11 x12 x13 x14 x15 ((cfg2.win 7).xinj (grid2.coords t) y) (((cfg2.win 7).blk t).view.emb y)
    ⟨(y 0).val, hp⟩ ⟨(y 1).val, hq⟩ ⟨_, hr⟩ rfl rfl rfl ?_ ?_ ?_ ?_ ?_ ?_ ?_ ?_
  · show win2_7.index t (1 : Fin 2) * 64 + 1 * (y 1).val = (y 1).val
    omega
  · intro k
    show V c main_v58 (((cfg2.win 0).blk t).view.emb (ix2 (⟨(y 0).val, hp⟩ : Fin 5000) k)) = _
    rw [hA]
    refine congrArg (val_main_v72 (F := Ideal) x0 x1 x3 x4 x5 x6 x7 x8 x9) (funext fun a => Fin.ext ?_)
    match a with
    | ⟨0, _⟩ =>
      show win2_0.index t (0 : Fin 2) * 5000 + 1 * (y 0).val = win2_7.index t (0 : Fin 2) * 5000 + 1 * (y 0).val
      omega
    | ⟨1, _⟩ =>
      show win2_0.index t (1 : Fin 2) * 64 + 1 * k.val = k.val
      omega
  · intro k
    refine (congrArg (V c main_v59 : S1x64.Idx → EReal) (funext fun a => Fin.ext ?_)).trans (h1 k)
    match a with
    | ⟨0, _⟩ =>
      show win2_1.index t (0 : Fin 2) * 1 + 1 * ((0 : Fin 1) : ℕ) = ((0 : Fin 1) : ℕ)
      omega
    | ⟨1, _⟩ =>
      show win2_1.index t (1 : Fin 2) * 64 + 1 * k.val = k.val
      omega
  · intro k
    refine (congrArg (V c main_v60 : S1x64.Idx → EReal) (funext fun a => Fin.ext ?_)).trans (h2 k)
    match a with
    | ⟨0, _⟩ =>
      show win2_2.index t (0 : Fin 2) * 1 + 1 * ((0 : Fin 1) : ℕ) = ((0 : Fin 1) : ℕ)
      omega
    | ⟨1, _⟩ =>
      show win2_2.index t (1 : Fin 2) * 64 + 1 * k.val = k.val
      omega
  · intro k
    refine (congrArg (V c main_v61 : S1x64.Idx → EReal) (funext fun a => Fin.ext ?_)).trans (h3 k)
    match a with
    | ⟨0, _⟩ =>
      show win2_3.index t (0 : Fin 2) * 1 + 1 * ((0 : Fin 1) : ℕ) = ((0 : Fin 1) : ℕ)
      omega
    | ⟨1, _⟩ =>
      show win2_3.index t (1 : Fin 2) * 64 + 1 * k.val = k.val
      omega
  · intro k
    refine (congrArg (V c main_v62 : S1x64.Idx → EReal) (funext fun a => Fin.ext ?_)).trans (h4 k)
    match a with
    | ⟨0, _⟩ =>
      show win2_4.index t (0 : Fin 2) * 1 + 1 * ((0 : Fin 1) : ℕ) = ((0 : Fin 1) : ℕ)
      omega
    | ⟨1, _⟩ =>
      show win2_4.index t (1 : Fin 2) * 64 + 1 * k.val = k.val
      omega
  · intro k
    refine (congrArg (V c main_v63 : S1x64.Idx → EReal) (funext fun a => Fin.ext ?_)).trans (h5 k)
    match a with
    | ⟨0, _⟩ =>
      show win2_5.index t (0 : Fin 2) * 1 + 1 * ((0 : Fin 1) : ℕ) = ((0 : Fin 1) : ℕ)
      omega
    | ⟨1, _⟩ =>
      show win2_5.index t (1 : Fin 2) * 64 + 1 * k.val = k.val
      omega
  · intro k
    show V c main_arg15 (((cfg2.win 6).blk t).view.emb (ix2 k (⟨(y 1).val, hq⟩ : Fin 64))) = _
    rw [hW]
    refine congrArg x15 (funext fun a => Fin.ext ?_)
    match a with
    | ⟨0, _⟩ =>
      show win2_6.index t (0 : Fin 2) * 64 + 1 * k.val = k.val
      omega
    | ⟨1, _⟩ =>
      show win2_6.index t (1 : Fin 2) * 64 + 1 * (y 1).val = (y 1).val
      omega

/-- An index of the array lies in point `t`'s block iff each coordinate lies in the block's range on its axis. -/
theorem mem_blk (t : Fin cfg2.N) (i : S100000x64.Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v64).slice (win2_7.rect t)).set ↔ _
  rw [View.set_slice_whole, Rect.mem_set_unit]
  exact Iff.rfl

/-- The 20 blocks of 5000 rows tile the 100000 rows: row `r` lies in the block of point `r / 5000`. -/
theorem cover (i : S100000x64.Idx) :
    ∃ t : Fin cfg2.N, (cfg2.win 7).flush t = true ∧ i ∈ ((cfg2.win 7).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e70, e71, -⟩ := idx_facts t
  refine ⟨t, flush2_7 t, ?_⟩
  rw [mem_blk]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 64 ≤ (i 1).val ∧ (i 1).val < win2_7.index t (1 : Fin 2) * 64 + 64
    omega

/-- The region's output array, after the region, is the reference's stage. -/
theorem value (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1250000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal)) (x10 x11 x12 x13 x14 : (⟨Cert.ReferenceIdeal.S64, .f32⟩ : BufTy).Contents (Elt Ideal)) (x15 : (⟨Cert.ReferenceIdeal.S64x64, .f32⟩ : BufTy).Contents (Elt Ideal))
    (hA : V c main_v58 = val_main_v72 (F := Ideal) x0 x1 x3 x4 x5 x6 x7 x8 x9)
    (h1 : ∀ k : Fin 64, (V c main_v59 : S1x64.Idx → EReal) (ix2 (0 : Fin 1) k) = x10 (ix1 k))
    (h2 : ∀ k : Fin 64, (V c main_v60 : S1x64.Idx → EReal) (ix2 (0 : Fin 1) k) = x11 (ix1 k))
    (h3 : ∀ k : Fin 64, (V c main_v61 : S1x64.Idx → EReal) (ix2 (0 : Fin 1) k) = x12 (ix1 k))
    (h4 : ∀ k : Fin 64, (V c main_v62 : S1x64.Idx → EReal) (ix2 (0 : Fin 1) k) = x13 (ix1 k))
    (h5 : ∀ k : Fin 64, (V c main_v63 : S1x64.Idx → EReal) (ix2 (0 : Fin 1) k) = x14 (ix1 k))
    (hW : V c main_arg15 = x15) :
    (dat2 (F := Ideal) V c).arrAt 7 cfg2.N = val_main_v92 (F := Ideal) x0 x1 x3 x4 x5 x6 x7 x8 x9 x10 x11 x12 x13 x14 x15 :=
  (dat2 (F := Ideal) V c).arrAt_eq_of_cover 7 (val_main_v92 (F := Ideal) x0 x1 x3 x4 x5 x6 x7 x8 x9 x10 x11 x12 x13 x14 x15)
    (fun t _ => flushed_eq V c x0 x1 x3 x4 x5 x6 x7 x8 x9 x10 x11 x12 x13 x14 x15 hA h1 h2 h3 h4 h5 hW t) cover

end Cert.KernelIdeal.Region2

end
-- ==== Proof.Region3.lean ====
/-
  Region 3: the third layer's normalisation.  The grid has 20 points; point t stages rows 5000·t … 5000·t+4999 of the
  100000×64 aggregated array together with five 1×64 rows (bias, scale, shift, mean, variance), and writes back,
  entry by entry,  ((z + bias − mean) · rsqrt (variance + ε)) · scale + shift  with ε one fixed f32 word.  A 1×64 row's
  window never moves, so its block is the whole row.  The 20 row blocks tile the 100000×64 output, so after the region
  the output array is that pointwise function of the aggregated array and the five rows — which is, operation by
  operation and in the same order, what the reference computes (its rows are the rank-1 arguments broadcast).
-/
import proofs.«104744_j77352361001295_2_alg».proof.Proof.Gen.KernelIdeal.Frame
import proofs.«104744_j77352361001295_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

/-- The two zeros of a whole-block access, as the constant function. -/
theorem hz : (![0, 0] : Fin 2 → Nat) = fun _ => 0 := funext fun a => by fin_cases a <;> rfl

/-- One entry of the body's result: the staged block's entry (p, q) against column q of each staged row. -/
theorem pay_apply (a : FVec Ideal S5000x64 .f32) (b m v g be : FVec Ideal S1x64 .f32) (p : Fin 5000) (q : Fin 64) :
    k3_pay1 (F := Ideal) a b m v g be (ix2 p q)
      = FloatOps.addf (F := Ideal) (FloatOps.mulf (F := Ideal) (FloatOps.mulf (F := Ideal) (FloatOps.subf (F := Ideal) (FloatOps.addf (F := Ideal) (a (ix2 p q)) (b (ix2 (0 : Fin 1) q))) (m (ix2 (0 : Fin 1) q)))
        (FloatOps.hostUnary (F := Ideal) .rsqrt (FloatOps.addf (F := Ideal) (v (ix2 (0 : Fin 1) q)) (FloatOps.ofBits (F := Ideal) .f32 0x3727C5AC#32)))) (g (ix2 (0 : Fin 1) q))) (be (ix2 (0 : Fin 1) q)) := by
  unfold k3_pay1
  simp only [shapeCast_self]
  show FloatOps.addf (F := Ideal) (FloatOps.mulf (F := Ideal) (FloatOps.mulf (F := Ideal) (FloatOps.subf (F := Ideal) (FloatOps.addf (F := Ideal) (a (ix2 p q))
      (broadcastTo S5000x64 b broadcasts_S1x64_S5000x64 (ix2 p q)))
      (broadcastTo S5000x64 m broadcasts_S1x64_S5000x64 (ix2 p q)))
      (broadcastTo S5000x64 (rsqrt (addf v (broadcast S1x64 (Scalar.ofBits .f32 0x3727C5AC#32)))) broadcasts_S1x64_S5000x64 (ix2 p q)))
      (broadcastTo S5000x64 g broadcasts_S1x64_S5000x64 (ix2 p q)))
      (broadcastTo S5000x64 be broadcasts_S1x64_S5000x64 (ix2 p q)) = _
  rw [broadcastTo_1b_ab_apply b, broadcastTo_1b_ab_apply m, broadcastTo_1b_ab_apply g, broadcastTo_1b_ab_apply be,
    broadcastTo_1b_ab_apply (rsqrt (addf v (broadcast S1x64 (Scalar.ofBits .f32 0x3727C5AC#32))))]
  rfl

/-! ## The reference at an entry -/

/-- A rank-1 argument broadcast to one row and then down the rows is read, at (r, q), at q. -/
theorem row_idx (i1 : Cert.ReferenceIdeal.S1x64.Idx → Cert.ReferenceIdeal.S64.Idx)
    (i2 : Cert.ReferenceIdeal.S100000x64.Idx → Cert.ReferenceIdeal.S1x64.Idx)
    (h1 : ∀ j, i1 j = fun a => match a with | ⟨0, _⟩ => ⟨(j 1).val, (j 1).isLt⟩)
    (h2 : ∀ j, i2 j = fun a => match a with | ⟨0, _⟩ => ⟨0, Nat.one_pos⟩ | ⟨1, _⟩ => ⟨(j 1).val, (j 1).isLt⟩)
    (r : Fin 100000) (q : Fin 64) : i1 (i2 (ix2 r q)) = ix1 q := by
  rw [h1, h2]
  funext a
  match a with
  | ⟨0, _⟩ => rfl

theorem ref_apply (x0 : (⟨Cert.ReferenceIdeal.S100000x128, .f32⟩ : BufTy).Contents (Elt Ideal)) (x1 : (⟨Cert.ReferenceIdeal.S2x1250000, .i32⟩ : BufTy).Contents (Elt Ideal))
    (x3 : (⟨Cert.ReferenceIdeal.S128x64, .f32⟩ : BufTy).Contents (Elt Ideal))
    (x4 x5 x6 x7 x8 : (⟨Cert.ReferenceIdeal.S64, .f32⟩ : BufTy).Contents (Elt Ideal)) (x9 : (⟨Cert.ReferenceIdeal.S64x64, .f32⟩ : BufTy).Contents (Elt Ideal))
    (x10 x11 x12 x13 x14 : (⟨Cert.ReferenceIdeal.S64, .f32⟩ : BufTy).Contents (Elt Ideal)) (x15 : (⟨Cert.ReferenceIdeal.S64x64, .f32⟩ : BufTy).Contents (Elt Ideal))
    (x16 x17 x18 x19 x20 : (⟨Cert.ReferenceIdeal.S64, .f32⟩ : BufTy).Contents (Elt Ideal))
    (r : Fin 100000) (q : Fin 64) :
    Cert.ReferenceIdeal.Read.val_main_v122 (F := Ideal) x0 x1 x3 x4 x5 x6 x7 x8 x9 x10 x11 x12 x13 x14 x15 x16 x17 x18 x19 x20 (ix2 r q)
      = FloatOps.addf (F := Ideal) (FloatOps.mulf (F := Ideal) (FloatOps.mulf (F := Ideal) (FloatOps.subf (F := Ideal) (FloatOps.addf (F := Ideal) (Cert.ReferenceIdeal.Read.val_main_v104 (F := Ideal) x0 x1 x3 x4 x5 x6 x7 x8 x9 x10 x11 x12 x13 x14 x15 (ix2 r q)) (x16 (ix1 q))) (x19 (ix1 q)))
        (FloatOps.hostUnary (F := Ideal) .rsqrt (FloatOps.addf (F := Ideal) (x20 (ix1 q)) (FloatOps.ofBits (F := Ideal) .f32 0x3727C5AC#32)))) (x17 (ix1 q))) (x18 (ix1 q)) := by
  rw [Cert.ReferenceIdeal.Read.val_main_v122_apply, Cert.ReferenceIdeal.Read.val_main_v119_apply, Cert.ReferenceIdeal.Read.val_main_v116_apply, Cert.ReferenceIdeal.Read.val_main_v110_apply,
    Cert.ReferenceIdeal.Read.val_main_v107_apply, Cert.ReferenceIdeal.Read.val_main_v106_apply, Cert.ReferenceIdeal.Read.val_main_v105_apply,
    Cert.ReferenceIdeal.Read.val_main_v109_apply, Cert.ReferenceIdeal.Read.val_main_v108_apply,
    Cert.ReferenceIdeal.Read.val_main_v115_apply, Cert.ReferenceIdeal.Read.val_main_v114_apply, Cert.ReferenceIdeal.Read.val_main_v113_apply, Cert.ReferenceIdeal.Read.val_main_v112_apply,
    Cert.ReferenceIdeal.Read.val_main_v111_apply, Cert.ReferenceIdeal.Read.val_main_cst_15_apply,
    Cert.ReferenceIdeal.Read.val_main_v118_apply, Cert.ReferenceIdeal.Read.val_main_v117_apply,
    Cert.ReferenceIdeal.Read.val_main_v121_apply, Cert.ReferenceIdeal.Read.val_main_v120_apply]
  rw [row_idx Cert.ReferenceIdeal.Read.idx_main_v105 Cert.ReferenceIdeal.Read.idx_main_v106 (fun _ => rfl) (fun _ => rfl) r q,
    row_idx Cert.ReferenceIdeal.Read.idx_main_v108 Cert.ReferenceIdeal.Read.idx_main_v109 (fun _ => rfl) (fun _ => rfl) r q,
    row_idx Cert.ReferenceIdeal.Read.idx_main_v114 Cert.ReferenceIdeal.Read.idx_main_v115 (fun _ => rfl) (fun _ => rfl) r q,
    row_idx Cert.ReferenceIdeal.Read.idx_main_v117 Cert.ReferenceIdeal.Read.idx_main_v118 (fun _ => rfl) (fun _ => rfl) r q,
    row_idx Cert.ReferenceIdeal.Read.idx_main_v120 Cert.ReferenceIdeal.Read.idx_main_v121 (fun _ => rfl) (fun _ => rfl) r q]

/-- A staged block of rows 5000·n … of an array A, with the five rows, gives rows 5000·n … of any array Y that is,
    entry by entry, the normalisation of A by those rows. -/
theorem block_entry (A Y : (⟨Cert.ReferenceIdeal.S100000x64, .f32⟩ : BufTy).Contents (Elt Ideal))
    (x16 x17 x18 x19 x20 : (⟨Cert.ReferenceIdeal.S64, .f32⟩ : BufTy).Contents (Elt Ideal))
    (hY : ∀ (r : Fin 100000) (q : Fin 64), Y (ix2 r q)
      = FloatOps.addf (F := Ideal) (FloatOps.mulf (F := Ideal) (FloatOps.mulf (F := Ideal) (FloatOps.subf (F := Ideal) (FloatOps.addf (F := Ideal) (A (ix2 r q)) (x16 (ix1 q))) (x19 (ix1 q)))
        (FloatOps.hostUnary (F := Ideal) .rsqrt (FloatOps.addf (F := Ideal) (x20 (ix1 q)) (FloatOps.ofBits (F := Ideal) .f32 0x3727C5AC#32)))) (x17 (ix1 q))) (x18 (ix1 q)))
    (a : FVec Ideal S5000x64 .f32) (b m v g be : FVec Ideal S1x64 .f32) (n : Nat) (hn : n < 20)
    (ha : ∀ (p : Fin 5000) (q : Fin 64), a (ix2 p q) = A (ix2 ⟨n * 5000 + p.val, by have := p.isLt; omega⟩ q))
    (hb : ∀ q : Fin 64, b (ix2 (0 : Fin 1) q) = x16 (ix1 q))
    (hg : ∀ q : Fin 64, g (ix2 (0 : Fin 1) q) = x17 (ix1 q))
    (hbe : ∀ q : Fin 64, be (ix2 (0 : Fin 1) q) = x18 (ix1 q))
    (hm : ∀ q : Fin 64, m (ix2 (0 : Fin 1) q) = x19 (ix1 q))
    (hv : ∀ q : Fin 64, v (ix2 (0 : Fin 1) q) = x20 (ix1 q))
    (p : Fin 5000) (q : Fin 64) :
    k3_pay1 (F := Ideal) a b m v g be (ix2 p q) = Y (ix2 ⟨n * 5000 + p.val, by have := p.isLt; omega⟩ q) := by
  refine (pay_apply a b m v g be p q).trans ?_
  rw [hY, ha p q, hb q, hg q, hbe q, hm q, hv q]

/-! ## From blocks to the array -/

/-- The windows' block indices, decided over the 20 grid points: the aggregated and output windows move down one block
    of rows per point, the five row windows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of any array Y that is, entry by entry, the normalisation of the region's
    first input array by its five rows. -/
theorem flushed_eq (V : (c : Dev nD) → (b : Ref sig .tc) → Buf (Elt Ideal) ((c : Thread nD τ).loc b)) (c : Dev nD)
    (A Y : (⟨Cert.ReferenceIdeal.S100000x64, .f32⟩ : BufTy).Contents (Elt Ideal))
    (x16 x17 x18 x19 x20 : (⟨Cert.ReferenceIdeal.S64, .f32⟩ : BufTy).Contents (Elt Ideal))
    (hY : ∀ (r : Fin 100000) (q : Fin 64), Y (ix2 r q)
      = FloatOps.addf (F := Ideal) (FloatOps.mulf (F := Ideal) (FloatOps.mulf (F := Ideal) (FloatOps.subf (F := Ideal) (FloatOps.addf (F := Ideal) (A (ix2 r q)) (x16 (ix1 q))) (x19 (ix1 q)))
        (FloatOps.hostUnary (F := Ideal) .rsqrt (FloatOps.addf (F := Ideal) (x20 (ix1 q)) (FloatOps.ofBits (F := Ideal) .f32 0x3727C5AC#32)))) (x17 (ix1 q))) (x18 (ix1 q)))
    (hA : V c main_v76 = A)
    (h1 : ∀ k : Fin 64, (V c main_v77 : S1x64.Idx → EReal) (ix2 0 k) = x16 (ix1 k))
    (h2 : ∀ k : Fin 64, (V c main_v78 : S1x64.Idx → EReal) (ix2 0 k) = x17 (ix1 k))
    (h3 : ∀ k : Fin 64, (V c main_v79 : S1x64.Idx → EReal) (ix2 0 k) = x18 (ix1 k))
    (h4 : ∀ k : Fin 64, (V c main_v80 : S1x64.Idx → EReal) (ix2 0 k) = x19 (ix1 k))
    (h5 : ∀ k : Fin 64, (V c main_v81 : S1x64.Idx → EReal) (ix2 0 k) = x20 (ix1 k))
    (t : Fin cfg3.N) :
    (dat3 (F := Ideal) V c).flushed 6 t
      = ((cfg3.win 6).blk t).view.read (Elt Ideal) Y := by
  show (cfg3.win 6).cut (grid3.coords t) ((dat3 V c).after 6 t) = _
  rw [after3_6]
  unfold out3_6
  rw [View.canon_unit_zero hz]
  simp only [View.ld_unit_zero (S := S5000x64) hz, View.ld_unit_zero (S := S1x64) hz]
  obtain ⟨e00, e01, e10, e11, e20, e21, e30, e31, e40, e41, e50, e51, e60, e61⟩ := idx_facts t
  have ht : t.val < 20 := lt_of_lt_of_eq t.isLt N_3
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 4 t) (iblk3 V c 5 t) (iblk3 V c 2 t) (iblk3 V c 3 t) (ix2 p q)
    = Y (((cfg3.win 6).blk t).view.emb (ix2 p q))
  have hout : ((cfg3.win 6).blk t).view.emb (ix2 p q) = ix2 ⟨t.val * 5000 + p.val, by have := p.isLt; omega⟩ q := by
    funext a; apply Fin.ext
    match a with
    | ⟨0, _⟩ => show win3_6.index t (0 : Fin 2) * 5000 + 1 * p.val = t.val * 5000 + p.val; omega
    | ⟨1, _⟩ => show win3_6.index t (1 : Fin 2) * 64 + 1 * q.val = q.val; omega
  rw [hout]
  refine block_entry A Y x16 x17 x18 x19 x20 hY
    (iblk3 V c 0 t) (iblk3 V c 1 t) (iblk3 V c 4 t) (iblk3 V c 5 t) (iblk3 V c 2 t) (iblk3 V c 3 t) t.val ht ?_ ?_ ?_ ?_ ?_ ?_ p q
  · intro p q
    show V c main_v76 (((cfg3.win 0).blk t).view.emb (ix2 p q)) = _
    rw [hA]
    refine congrArg A ?_
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  · intro q
    show V c main_v77 (((cfg3.win 1).blk t).view.emb (ix2 (0 : Fin 1) q)) = _
    have e : ((cfg3.win 1).blk t).view.emb (ix2 (0 : Fin 1) q) = ix2 (0 : Fin 1) q := by
      funext a; apply Fin.ext
      match a with
      | ⟨0, _⟩ => show win3_1.index t (0 : Fin 2) * 1 + 1 * 0 = 0; omega
      | ⟨1, _⟩ => show win3_1.index t (1 : Fin 2) * 64 + 1 * q.val = q.val; omega
    rw [e]
    exact h1 q
  · intro q
    show V c main_v78 (((cfg3.win 2).blk t).view.emb (ix2 (0 : Fin 1) q)) = _
    have e : ((cfg3.win 2).blk t).view.emb (ix2 (0 : Fin 1) q) = ix2 (0 : Fin 1) q := by
      funext a; apply Fin.ext
      match a with
      | ⟨0, _⟩ => show win3_2.index t (0 : Fin 2) * 1 + 1 * 0 = 0; omega
      | ⟨1, _⟩ => show win3_2.index t (1 : Fin 2) * 64 + 1 * q.val = q.val; omega
    rw [e]
    exact h2 q
  · intro q
    show V c main_v79 (((cfg3.win 3).blk t).view.emb (ix2 (0 : Fin 1) q)) = _
    have e : ((cfg3.win 3).blk t).view.emb (ix2 (0 : Fin 1) q) = ix2 (0 : Fin 1) q := by
      funext a; apply Fin.ext
      match a with
      | ⟨0, _⟩ => show win3_3.index t (0 : Fin 2) * 1 + 1 * 0 = 0; omega
      | ⟨1, _⟩ => show win3_3.index t (1 : Fin 2) * 64 + 1 * q.val = q.val; omega
    rw [e]
    exact h3 q
  · intro q
    show V c main_v80 (((cfg3.win 4).blk t).view.emb (ix2 (0 : Fin 1) q)) = _
    have e : ((cfg3.win 4).blk t).view.emb (ix2 (0 : Fin 1) q) = ix2 (0 : Fin 1) q := by
      funext a; apply Fin.ext
      match a with
      | ⟨0, _⟩ => show win3_4.index t (0 : Fin 2) * 1 + 1 * 0 = 0; omega
      | ⟨1, _⟩ => show win3_4.index t (1 : Fin 2) * 64 + 1 * q.val = q.val; omega
    rw [e]
    exact h4 q
  · intro q
    show V c main_v81 (((cfg3.win 5).blk t).view.emb (ix2 (0 : Fin 1) q)) = _
    have e : ((cfg3.win 5).blk t).view.emb (ix2 (0 : Fin 1) q) = ix2 (0 : Fin 1) q := by
      funext a; apply Fin.ext
      match a with
      | ⟨0, _⟩ => show win3_5.index t (0 : Fin 2) * 1 + 1 * 0 = 0; omega
      | ⟨1, _⟩ => show win3_5.index t (1 : Fin 2) * 64 + 1 * q.val = q.val; omega
    rw [e]
    exact h5 q

/-- An index of the output array is in point t's block iff each coordinate is in the block's range on its axis. -/
theorem mem_blk (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v82).slice (win3_6.rect t)).set ↔ _
  rw [View.set_slice_whole, Rect.mem_set_unit]
  exact Iff.rfl

/-- Row r of the output lies in the block of point r / 5000. -/
theorem cover_at (i : S100000x64.Idx) (t : Fin cfg3.N) (ht : t.val = (i 0).val / 5000) :
    (cfg3.win 6).flush t = true ∧ i ∈ ((cfg3.win 6).blk t).view.set := by
  obtain ⟨-, -, -, -, -, -, -, -, -, -, -, -, e60, e61⟩ := idx_facts t
  have hi0 : (i 0).val < 100000 := (i 0).isLt
  have hi1 : (i 1).val < 64 := (i 1).isLt
  refine ⟨flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 64 ≤ (i 1).val ∧ (i 1).val < win3_6.index t (1 : Fin 2) * 64 + 64
    omega

/-- The 20 row blocks tile the output array. -/
theorem cover (i : S100000x64.Idx) :
    ∃ t : Fin cfg3.N, (cfg3.win 6).flush t = true ∧ i ∈ ((cfg3.win 6).blk t).view.set := by
  have hi0 : (i 0).val < 100000 := (i 0).isLt
  have hlt : (i 0).val / 5000 < cfg3.N := by
    show (i 0).val / 5000 < grid3.N
    rw [N_3]; omega
  exact ⟨⟨(i 0).val / 5000, hlt⟩, cover_at i ⟨(i 0).val / 5000, hlt⟩ rfl⟩

/-- THE ARRAY after region 3 is the reference's normalised third-layer array. -/
theorem value (V : (c : Dev nD) → (b : Ref sig .tc) → Buf (Elt Ideal) ((c : Thread nD τ).loc b)) (c : Dev nD)
    (x0 : (⟨Cert.ReferenceIdeal.S100000x128, .f32⟩ : BufTy).Contents (Elt Ideal)) (x1 : (⟨Cert.ReferenceIdeal.S2x1250000, .i32⟩ : BufTy).Contents (Elt Ideal))
    (x3 : (⟨Cert.ReferenceIdeal.S128x64, .f32⟩ : BufTy).Contents (Elt Ideal))
    (x4 x5 x6 x7 x8 : (⟨Cert.ReferenceIdeal.S64, .f32⟩ : BufTy).Contents (Elt Ideal)) (x9 : (⟨Cert.ReferenceIdeal.S64x64, .f32⟩ : BufTy).Contents (Elt Ideal))
    (x10 x11 x12 x13 x14 : (⟨Cert.ReferenceIdeal.S64, .f32⟩ : BufTy).Contents (Elt Ideal)) (x15 : (⟨Cert.ReferenceIdeal.S64x64, .f32⟩ : BufTy).Contents (Elt Ideal))
    (x16 x17 x18 x19 x20 : (⟨Cert.ReferenceIdeal.S64, .f32⟩ : BufTy).Contents (Elt Ideal))
    (hA : V c main_v76 = Cert.ReferenceIdeal.Read.val_main_v104 (F := Ideal) x0 x1 x3 x4 x5 x6 x7 x8 x9 x10 x11 x12 x13 x14 x15)
    (h1 : ∀ k : Fin 64, (V c main_v77 : S1x64.Idx → EReal) (ix2 0 k) = x16 (ix1 k))
    (h2 : ∀ k : Fin 64, (V c main_v78 : S1x64.Idx → EReal) (ix2 0 k) = x17 (ix1 k))
    (h3 : ∀ k : Fin 64, (V c main_v79 : S1x64.Idx → EReal) (ix2 0 k) = x18 (ix1 k))
    (h4 : ∀ k : Fin 64, (V c main_v80 : S1x64.Idx → EReal) (ix2 0 k) = x19 (ix1 k))
    (h5 : ∀ k : Fin 64, (V c main_v81 : S1x64.Idx → EReal) (ix2 0 k) = x20 (ix1 k)) :
    (dat3 (F := Ideal) V c).arrAt 6 cfg3.N = Cert.ReferenceIdeal.Read.val_main_v122 (F := Ideal) x0 x1 x3 x4 x5 x6 x7 x8 x9 x10 x11 x12 x13 x14 x15 x16 x17 x18 x19 x20 :=
  (dat3 (F := Ideal) V c).arrAt_eq_of_cover 6 (Cert.ReferenceIdeal.Read.val_main_v122 (F := Ideal) x0 x1 x3 x4 x5 x6 x7 x8 x9 x10 x11 x12 x13 x14 x15 x16 x17 x18 x19 x20)
    (fun t _ => flushed_eq V c (Cert.ReferenceIdeal.Read.val_main_v104 (F := Ideal) x0 x1 x3 x4 x5 x6 x7 x8 x9 x10 x11 x12 x13 x14 x15)
      (Cert.ReferenceIdeal.Read.val_main_v122 (F := Ideal) x0 x1 x3 x4 x5 x6 x7 x8 x9 x10 x11 x12 x13 x14 x15 x16 x17 x18 x19 x20) x16 x17 x18 x19 x20
      (ref_apply x0 x1 x3 x4 x5 x6 x7 x8 x9 x10 x11 x12 x13 x14 x15 x16 x17 x18 x19 x20) hA h1 h2 h3 h4 h5 t) cover

end Cert.KernelIdeal.Region3

end
-- ==== Proof.Region4Spec.lean ====
/-
The decode network of region 4, written once as plain arithmetic on the extended reals.

A row of the network takes the two gathered halves `a b : Fin 64 → EReal` of one edge and sends
them through
  layer 1 (128 outputs):  relu (bn (a·Wa + b·Wb + bias))
  layer 2 (64 outputs):   relu (bn (y1·W2 + bias))
  layer 3 (32 outputs):   relu (y2·W3 + bias)
  layer 4 (1 output):     y3·W4 + bias
where bn z = (z - mean) * rsqrt (var + eps) * gamma + beta and relu z = max z 0; `eps` and the
zero are kept as the f32 words both programs carry, so neither is ever evaluated.

The first product is written as the sum of its two 64-column halves; `sum_halves` is the one
algebraic law of the region: a sum over 128 joined columns is the sum of the two halves' sums
(a law of commutative monoids, so it holds on the extended reals without any finiteness).
-/
import Idealize.ShloMosaic.PureOps.Ideal.Laws
import Idealize.ShloMosaic.Lib.ValueIdx

noncomputable section

namespace Cert.KernelIdeal.Region4

open Idealize.ShloMosaic Idealize.ShloMosaic.ValueIdx

/-- Normalisation at a point: add the bias, centre, scale by the reciprocal root of the shifted
    variance, then the affine pair. -/
def bn (z b m v g be : EReal) : EReal :=
  (z + b - m) * Ideal.rsqrt (v + Ideal.ofBits .f32 0x3727C5AC#32) * g + be

/-- The rectifier, against the f32 zero word. -/
def relu (z : EReal) : EReal := max z (Ideal.ofBits .f32 0x00000000#32)

/-- Layer 1 before the rectifier: the two half products summed, then normalised. -/
def pre1 (a b : Fin 64 → EReal) (Wa Wb : Fin 64 → Fin 128 → EReal) (b1 m1 v1 g1 be1 : Fin 128 → EReal)
    (j : Fin 128) : EReal :=
  bn ((∑ k : Fin 64, a k * Wa k j) + ∑ k : Fin 64, b k * Wb k j) (b1 j) (m1 j) (v1 j) (g1 j) (be1 j)

/-- Layer 2 before the rectifier, from layer 1 before ITS rectifier. -/
def pre2 (x : Fin 128 → EReal) (W : Fin 128 → Fin 64 → EReal) (b2 m2 v2 g2 be2 : Fin 64 → EReal)
    (j : Fin 64) : EReal :=
  bn (∑ k : Fin 128, relu (x k) * W k j) (b2 j) (m2 j) (v2 j) (g2 j) (be2 j)

/-- Layer 3 before the rectifier, from layer 2 before its rectifier. -/
def pre3 (x : Fin 64 → EReal) (W : Fin 64 → Fin 32 → EReal) (b3 : Fin 32 → EReal) (j : Fin 32) : EReal :=
  (∑ k : Fin 64, relu (x k) * W k j) + b3 j

/-- The output, from layer 3 before its rectifier. -/
def out4 (x : Fin 32 → EReal) (W : Fin 32 → EReal) (b4 : EReal) : EReal :=
  (∑ k : Fin 32, relu (x k) * W k) + b4

/-- One row of the whole network. -/
def net (a b : Fin 64 → EReal) (Wa Wb : Fin 64 → Fin 128 → EReal) (b1 m1 v1 g1 be1 : Fin 128 → EReal)
    (W2 : Fin 128 → Fin 64 → EReal) (b2 m2 v2 g2 be2 : Fin 64 → EReal)
    (W3 : Fin 64 → Fin 32 → EReal) (b3 : Fin 32 → EReal) (W4 : Fin 32 → EReal) (b4 : EReal) : EReal :=
  out4 (pre3 (pre2 (pre1 a b Wa Wb b1 m1 v1 g1 be1) W2 b2 m2 v2 g2 be2) W3 b3) W4 b4

/-- The network on arrays: `N` rows, the weights as [k, n] arrays, each per-column vector as a
    [1, n] array; the result a [N, 1] array. -/
def mlp {N : Nat} (A B : (⟨2, ![N, 64]⟩ : Shape).Idx → EReal)
    (Wa Wb : (⟨2, ![64, 128]⟩ : Shape).Idx → EReal) (b1 m1 v1 g1 be1 : (⟨2, ![1, 128]⟩ : Shape).Idx → EReal)
    (W2 : (⟨2, ![128, 64]⟩ : Shape).Idx → EReal) (b2 m2 v2 g2 be2 : (⟨2, ![1, 64]⟩ : Shape).Idx → EReal)
    (W3 : (⟨2, ![64, 32]⟩ : Shape).Idx → EReal) (b3 : (⟨2, ![1, 32]⟩ : Shape).Idx → EReal)
    (W4 : (⟨2, ![32, 1]⟩ : Shape).Idx → EReal) (b4 : (⟨2, ![1, 1]⟩ : Shape).Idx → EReal) :
    (⟨2, ![N, 1]⟩ : Shape).Idx → EReal := fun i =>
  net (fun k => A (ix2 ⟨(i 0).val, idx2_lt0 i⟩ k)) (fun k => B (ix2 ⟨(i 0).val, idx2_lt0 i⟩ k))
    (fun k j => Wa (ix2 k j)) (fun k j => Wb (ix2 k j))
    (fun j => b1 (ix2 0 j)) (fun j => m1 (ix2 0 j)) (fun j => v1 (ix2 0 j)) (fun j => g1 (ix2 0 j)) (fun j => be1 (ix2 0 j))
    (fun k j => W2 (ix2 k j))
    (fun j => b2 (ix2 0 j)) (fun j => m2 (ix2 0 j)) (fun j => v2 (ix2 0 j)) (fun j => g2 (ix2 0 j)) (fun j => be2 (ix2 0 j))
    (fun k j => W3 (ix2 k j)) (fun j => b3 (ix2 0 j)) (fun k => W4 (ix2 k 0)) (b4 (ix2 0 0))

/-- A sum over 128 joined columns is the sum over the first 64 plus the sum over the last 64. -/
theorem sum_halves (f : Fin 128 → EReal) :
    ∑ k : Fin 128, f k
      = (∑ k : Fin 64, f ⟨k.val, by omega⟩) + ∑ k : Fin 64, f ⟨64 + k.val, by omega⟩ :=
  Fin.sum_univ_add (M := EReal) (a := 64) (b := 64) f

end Cert.KernelIdeal.Region4

end
-- ==== Proof.Region4Pay.lean ====
/-
The body of region 4 read at an index: what the kernel stores at row `p` of its block is one row
of the decode network (`net`) of the blocks it loaded.

Each matrix product into the zero accumulator is the plain sum over the contraction axis; a change
of float format is the identity on the extended reals; a [1, n] row broadcast down the rows reads
the row at its column; a shape cast to the same shape is the identity.
-/
import proofs.«104744_j77352361001295_2_alg».proof.Proof.Gen.KernelIdeal.Skeleton
import proofs.«104744_j77352361001295_2_alg».proof.Proof.Region4Spec
import Idealize.ShloMosaic.Lib.Pipeline.Value
import Idealize.ShloMosaic.Lib.ValueLayout

noncomputable section

namespace Cert.KernelIdeal.Region4

open Cert.KernelIdeal Cert.KernelIdeal.Gen Idealize.ShloMosaic Idealize.ShloMosaic.ValueIdx

theorem mm_64_128_l0 (i : S2000x128.Idx) (q : dot_S2000x64_S64x128_S2000x128_1_0_0_1_n_n.contr.Idx) : (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem mm_64_128_l1 (i : S2000x128.Idx) (q : dot_S2000x64_S64x128_S2000x128_1_0_0_1_n_n.contr.Idx) : (dot_S2000x64_S64x128_S2000x128_1_0_0_1_n_n.lhsIdx i q 1).val = (q ⟨0, by decide⟩).val :=
  dot_S2000x64_S64x128_S2000x128_1_0_0_1_n_n.lhsIdx_val_of_single rfl i q
theorem mm_64_128_r0 (i : S2000x128.Idx) (q : dot_S2000x64_S64x128_S2000x128_1_0_0_1_n_n.contr.Idx) : (dot_S2000x64_S64x128_S2000x128_1_0_0_1_n_n.rhsIdx i q 0).val = (q ⟨0, by decide⟩).val :=
  dot_S2000x64_S64x128_S2000x128_1_0_0_1_n_n.rhsIdx_val_of_single rfl i q
theorem mm_64_128_r1 (i : S2000x128.Idx) (q : dot_S2000x64_S64x128_S2000x128_1_0_0_1_n_n.contr.Idx) : (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl
/-- The [2000, 64] × [64, 128] product into the zero accumulator, at (p, j): the sum of the 64 products. -/
theorem mm_64_128 {φ₁ φ₂ : FTy} (l : FVec Ideal S2000x64 φ₁) (r : FVec Ideal S64x128 φ₂) (p : Fin 2000) (j : Fin 128) :
    FloatOps.matmul dot_S2000x64_S64x128_S2000x128_1_0_0_1_n_n none l r (constant S2000x128 .f32 0x00000000#32) (ix2 p j)
      = ∑ k : Fin 64, l (ix2 p k) * r (ix2 k j) := by
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p j) ((contrEquiv1 dot_S2000x64_S64x128_S2000x128_1_0_0_1_n_n 64 rfl rfl).symm k) = ix2 p k := funext fun a => Fin.ext (by
    match a with
    | ⟨0, _⟩ => exact mm_64_128_l0 _ _
    | ⟨1, _⟩ => exact (mm_64_128_l1 _ _).trans hk)
  have er : dot_S2000x64_S64x128_S2000x128_1_0_0_1_n_n.rhsIdx (ix2 p j) ((contrEquiv1 dot_S2000x64_S64x128_S2000x128_1_0_0_1_n_n 64 rfl rfl).symm k) = ix2 k j := funext fun a => Fin.ext (by
    match a with
    | ⟨0, _⟩ => exact (mm_64_128_r0 _ _).trans hk
    | ⟨1, _⟩ => exact mm_64_128_r1 _ _)
  rw [el, er]

theorem mm_128_64_l0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem mm_128_64_l1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem mm_128_64_r0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem mm_128_64_r1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl
/-- The [2000, 128] × [128, 64] product into the zero accumulator, at (p, j): the sum of the 128 products. -/
theorem mm_128_64 {φ₁ φ₂ : FTy} (l : FVec Ideal S2000x128 φ₁) (r : FVec Ideal S128x64 φ₂) (p : Fin 2000) (j : Fin 64) :
    FloatOps.matmul dot_S2000x128_S128x64_S2000x64_1_0_0_1_n_n none l r (constant S2000x64 .f32 0x00000000#32) (ix2 p j)
      = ∑ k : Fin 128, l (ix2 p k) * r (ix2 k j) := by
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p j) ((contrEquiv1 dot_S2000x128_S128x64_S2000x64_1_0_0_1_n_n 128 rfl rfl).symm k) = ix2 p k := funext fun a => Fin.ext (by
    match a with
    | ⟨0, _⟩ => exact mm_128_64_l0 _ _
    | ⟨1, _⟩ => exact (mm_128_64_l1 _ _).trans hk)
  have er : dot_S2000x128_S128x64_S2000x64_1_0_0_1_n_n.rhsIdx (ix2 p j) ((contrEquiv1 dot_S2000x128_S128x64_S2000x64_1_0_0_1_n_n 128 rfl rfl).symm k) = ix2 k j := funext fun a => Fin.ext (by
    match a with
    | ⟨0, _⟩ => exact (mm_128_64_r0 _ _).trans hk
    | ⟨1, _⟩ => exact mm_128_64_r1 _ _)
  rw [el, er]

theorem mm_64_32_l0 (i : S2000x32.Idx) (q : dot_S2000x64_S64x32_S2000x32_1_0_0_1_n_n.contr.Idx) : (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem mm_64_32_l1 (i : S2000x32.Idx) (q : dot_S2000x64_S64x32_S2000x32_1_0_0_1_n_n.contr.Idx) : (dot_S2000x64_S64x32_S2000x32_1_0_0_1_n_n.lhsIdx i q 1).val = (q ⟨0, by decide⟩).val :=
  dot_S2000x64_S64x32_S2000x32_1_0_0_1_n_n.lhsIdx_val_of_single rfl i q
theorem mm_64_32_r0 (i : S2000x32.Idx) (q : dot_S2000x64_S64x32_S2000x32_1_0_0_1_n_n.contr.Idx) : (dot_S2000x64_S64x32_S2000x32_1_0_0_1_n_n.rhsIdx i q 0).val = (q ⟨0, by decide⟩).val :=
  dot_S2000x64_S64x32_S2000x32_1_0_0_1_n_n.rhsIdx_val_of_single rfl i q
theorem mm_64_32_r1 (i : S2000x32.Idx) (q : dot_S2000x64_S64x32_S2000x32_1_0_0_1_n_n.contr.Idx) : (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl
/-- The [2000, 64] × [64, 32] product into the zero accumulator, at (p, j): the sum of the 64 products. -/
theorem mm_64_32 {φ₁ φ₂ : FTy} (l : FVec Ideal S2000x64 φ₁) (r : FVec Ideal S64x32 φ₂) (p : Fin 2000) (j : Fin 32) :
    FloatOps.matmul dot_S2000x64_S64x32_S2000x32_1_0_0_1_n_n none l r (constant S2000x32 .f32 0x00000000#32) (ix2 p j)
      = ∑ k : Fin 64, l (ix2 p k) * r (ix2 k j) := by
  rw [Ideal.matmul_constant_zero_apply, ← Equiv.sum_comp (contrEquiv1 dot_S2000x64_S64x32_S2000x32_1_0_0_1_n_n 64 rfl rfl).symm]
  refine Finset.sum_congr rfl fun k _ => ?_
  have hk := contrEquiv1_symm_val dot_S2000x64_S64x32_S2000x32_1_0_0_1_n_n 64 rfl rfl k
  have el : dot_S2000x64_S64x32_S2000x32_1_0_0_1_n_n.lhsIdx (ix2 p j) ((contrEquiv1 dot_S2000x64_S64x32_S2000x32_1_0_0_1_n_n 64 rfl rfl).symm k) = ix2 p k := funext fun a => Fin.ext (by
    match a with
    | ⟨0, _⟩ => exact mm_64_32_l0 _ _
    | ⟨1, _⟩ => exact (mm_64_32_l1 _ _).trans hk)
  have er : dot_S2000x64_S64x32_S2000x32_1_0_0_1_n_n.rhsIdx (ix2 p j) ((contrEquiv1 dot_S2000x64_S64x32_S2000x32_1_0_0_1_n_n 64 rfl rfl).symm k) = ix2 k j := funext fun a => Fin.ext (by
    match a with
    | ⟨0, _⟩ => exact (mm_64_32_r0 _ _).trans hk
    | ⟨1, _⟩ => exact mm_64_32_r1 _ _)
  rw [el, er]

theorem mm_32_1_l0 (i : S2000x1.Idx) (q : dot_S2000x32_S32x1_S2000x1_1_0_0_1_n_n.contr.Idx) : (dot_S2000x32_S32x1_S2000x1_1_0_0_1_n_n.lhsIdx i q 0).val = (i 0).val := by
  unfold DotDims.lhsIdx
  rw [dif_neg (show ¬(0 : Fin S2000x32.rank) ∈ dot_S2000x32_S32x1_S2000x1_1_0_0_1_n_n.lhsBatch by decide), dif_pos (show (0 : Fin S2000x32.rank) ∈ dot_S2000x32_S32x1_S2000x1_1_0_0_1_n_n.lhsNonContracting by decide)]
  rfl
theorem mm_32_1_l1 (i : S2000x1.Idx) (q : dot_S2000x32_S32x1_S2000x1_1_0_0_1_n_n.contr.Idx) : (dot_S2000x32_S32x1_S2000x1_1_0_0_1_n_n.lhsIdx i q 1).val = (q ⟨0, by decide⟩).val :=
  dot_S2000x32_S32x1_S2000x1_1_0_0_1_n_n.lhsIdx_val_of_single rfl i q
theorem mm_32_1_r0 (i : S2000x1.Idx) (q : dot_S2000x32_S32x1_S2000x1_1_0_0_1_n_n.contr.Idx) : (dot_S2000x32_S32x1_S2000x1_1_0_0_1_n_n.rhsIdx i q 0).val = (q ⟨0, by decide⟩).val :=
  dot_S2000x32_S32x1_S2000x1_1_0_0_1_n_n.rhsIdx_val_of_single rfl i q
theorem mm_32_1_r1 (i : S2000x1.Idx) (q : dot_S2000x32_S32x1_S2000x1_1_0_0_1_n_n.contr.Idx) : (dot_S2000x32_S32x1_S2000x1_1_0_0_1_n_n.rhsIdx i q 1).val = (i 1).val := by
  unfold DotDims.rhsIdx
  rw [dif_neg (show ¬(1 : Fin S32x1.rank) ∈ dot_S2000x32_S32x1_S2000x1_1_0_0_1_n_n.rhsBatch by decide), dif_pos (show (1 : Fin S32x1.rank) ∈ dot_S2000x32_S32x1_S2000x1_1_0_0_1_n_n.rhsNonContracting by decide)]
  rfl
/-- The [2000, 32] × [32, 1] product into the zero accumulator, at (p, j): the sum of the 32 products. -/
theorem mm_32_1 {φ₁ φ₂ : FTy} (l : FVec Ideal S2000x32 φ₁) (r : FVec Ideal S32x1 φ₂) (p : Fin 2000) (j : Fin 1) :
    FloatOps.matmul dot_S2000x32_S32x1_S2000x1_1_0_0_1_n_n none l r (constant S2000x1 .f32 0x00000000#32) (ix2 p j)
      = ∑ k : Fin 32, l (ix2 p k) * r (ix2 k j) := by
  rw [Ideal.matmul_constant_zero_apply, ← Equiv.sum_comp (contrEquiv1 dot_S2000x32_S32x1_S2000x1_1_0_0_1_n_n 32 rfl rfl).symm]
  refine Finset.sum_congr rfl fun k _ => ?_
  have hk := contrEquiv1_symm_val dot_S2000x32_S32x1_S2000x1_1_0_0_1_n_n 32 rfl rfl k
  have el : dot_S2000x32_S32x1_S2000x1_1_0_0_1_n_n.lhsIdx (ix2 p j) ((contrEquiv1 dot_S2000x32_S32x1_S2000x1_1_0_0_1_n_n 32 rfl rfl).symm k) = ix2 p k := funext fun a => Fin.ext (by
    match a with
    | ⟨0, _⟩ => exact mm_32_1_l0 _ _
    | ⟨1, _⟩ => exact (mm_32_1_l1 _ _).trans hk)
  have er : dot_S2000x32_S32x1_S2000x1_1_0_0_1_n_n.rhsIdx (ix2 p j) ((contrEquiv1 dot_S2000x32_S32x1_S2000x1_1_0_0_1_n_n 32 rfl rfl).symm k) = ix2 k j := funext fun a => Fin.ext (by
    match a with
    | ⟨0, _⟩ => exact (mm_32_1_r0 _ _).trans hk
    | ⟨1, _⟩ => exact mm_32_1_r1 _ _)
  rw [el, er]

/-- Layer 1 before its rectifier, at row `p`, column `j` of the block. -/
theorem pay2_apply (v0 v3 : Vec Ideal S2000x64 .f32) (v6 v10 : Vec Ideal S64x128 .f32) (v15 v19 v23 v30 v34 : Vec Ideal S1x128 .f32)
    (p : Fin 2000) (j : Fin 128) :
    k4_pay2 (F := Ideal) v0 v3 v6 v10 v15 v19 v23 v30 v34 (ix2 p j)
      = pre1 (fun k => v0 (ix2 p k)) (fun k => v3 (ix2 p k)) (fun k j => v6 (ix2 k j)) (fun k j => v10 (ix2 k j))
          (fun j => v15 (ix2 0 j)) (fun j => v19 (ix2 0 j)) (fun j => v23 (ix2 0 j)) (fun j => v30 (ix2 0 j)) (fun j => v34 (ix2 0 j)) j := by
  unfold k4_pay2 pre1 bn
  simp only [shapeCast_self, matmul, addf_apply, subf_apply, mulf_apply, mm_64_128, broadcastTo_1b_ab_apply, truncf_apply]
  rfl

/-- Layers 2 and 3 (before the third rectifier), at row `p`, column `j`. -/
theorem pay3_apply (v37 : FVec Ideal S2000x128 .f32) (v41 : Vec Ideal S128x64 .f32) (v44 v48 v52 v59 v63 : Vec Ideal S1x64 .f32)
    (v70 : Vec Ideal S64x32 .f32) (v73 : Vec Ideal S1x32 .f32) (p : Fin 2000) (j : Fin 32) :
    k4_pay3 (F := Ideal) v37 v41 v44 v48 v52 v59 v63 v70 v73 (ix2 p j)
      = pre3 (pre2 (fun k => v37 (ix2 p k)) (fun k j => v41 (ix2 k j))
            (fun j => v44 (ix2 0 j)) (fun j => v48 (ix2 0 j)) (fun j => v52 (ix2 0 j)) (fun j => v59 (ix2 0 j)) (fun j => v63 (ix2 0 j)))
          (fun k j => v70 (ix2 k j)) (fun j => v73 (ix2 0 j)) j := by
  unfold k4_pay3 pre3 pre2 bn relu
  simp only [shapeCast_self, matmul, addf_apply, subf_apply, mulf_apply, maximumf_apply, mm_128_64, mm_64_32, broadcastTo_1b_ab_apply, truncf_apply, broadcast_apply]
  rfl

/-- The output layer, at row `p`. -/
theorem pay1_apply (v76 : FVec Ideal S2000x32 .f32) (v80 : Vec Ideal S32x1 .f32) (v83 : Vec Ideal S1x1 .f32) (p : Fin 2000) :
    k4_pay1 (F := Ideal) v76 v80 v83 (ix2 p 0)
      = out4 (fun k => v76 (ix2 p k)) (fun k => v80 (ix2 k 0)) (v83 (ix2 0 0)) := by
  unfold k4_pay1 out4 relu
  simp only [shapeCast_self, matmul, addf_apply, maximumf_apply, mm_32_1, broadcastTo_1b_ab_apply, truncf_apply, broadcast_apply]
  rfl

/-- The whole body: row `p` of what is stored is the network's row on row `p` of the two loaded
    halves and the loaded weights. -/
theorem body_apply (x0 x1 : Vec Ideal S2000x64 .f32) (x2 x3 : Vec Ideal S64x128 .f32) (x4 x5 x6 x7 x8 : Vec Ideal S1x128 .f32)
    (x9 : Vec Ideal S128x64 .f32) (x10 x11 x12 x13 x14 : Vec Ideal S1x64 .f32) (x15 : Vec Ideal S64x32 .f32) (x16 : Vec Ideal S1x32 .f32)
    (x17 : Vec Ideal S32x1 .f32) (x18 : Vec Ideal S1x1 .f32) :
    k4_pay1 (F := Ideal) (k4_pay3 (k4_pay2 x0 x1 x2 x3 x4 x7 x8 x5 x6) x9 x10 x13 x14 x11 x12 x15 x16) x17 x18
      = mlp (N := 2000) x0 x1 x2 x3 x4 x7 x8 x5 x6 x9 x10 x13 x14 x11 x12 x15 x16 x17 x18 := by
  funext i
  obtain ⟨p, q, rfl⟩ : ∃ (p : Fin 2000) (q : Fin 1), i = ix2 p q := ⟨i 0, i 1, eq_ix2 i⟩
  obtain rfl : q = 0 := Subsingleton.elim _ _
  rw [pay1_apply]
  unfold mlp net
  refine congrArg (fun f => out4 f _ _) (funext fun k => ?_)
  rw [pay3_apply]
  refine congrArg (fun f => pre3 (pre2 f _ _ _ _ _ _) _ _ k) (funext fun k' => ?_)
  exact pay2_apply _ _ _ _ _ _ _ _ _ p k'

end Cert.KernelIdeal.Region4

end
-- ==== Proof.Region4Ref.lean ====
/-
The reference's decode network read at an index: its last stage at row `r` is one row of the
network (`net`) of the two gathered halves at row `r` and the weight arguments.

The reference multiplies the 128 joined columns of the two halves by the first weight matrix in
one sum; `sum_halves` splits that sum into the first 64 columns (read from the first half) and
the last 64 (read from the second half, against the weight's rows 64..127).
-/
import proofs.«104744_j77352361001295_2_alg».proof.Proof.Gen.ReferenceIdeal.Read
import proofs.«104744_j77352361001295_2_alg».proof.Proof.Region4Spec

noncomputable section

namespace Cert.KernelIdeal.Region4

open Cert.ReferenceIdeal Cert.ReferenceIdeal.Read Idealize.ShloMosaic Idealize.ShloMosaic.ValueIdx

/-! ## The composed index maps of the stages, at explicit coordinates -/

theorem li142 (r : Fin 200000) (j : Fin 128) (k : Fin 128) : lidx_main_v142 (ix2 r j) k = ix2 r k := funext fun a => Fin.ext (by match a with | ⟨0, _⟩ => rfl | ⟨1, _⟩ => rfl)
theorem ri142 (r : Fin 200000) (j : Fin 128) (k : Fin 128) : ridx_main_v142 (ix2 r j) k = ix2 k j := funext fun a => Fin.ext (by match a with | ⟨0, _⟩ => rfl | ⟨1, _⟩ => rfl)
theorem li162 (r : Fin 200000) (j : Fin 64) (k : Fin 128) : lidx_main_v162 (ix2 r j) k = ix2 r k := funext fun a => Fin.ext (by match a with | ⟨0, _⟩ => rfl | ⟨1, _⟩ => rfl)
theorem ri162 (r : Fin 200000) (j : Fin 64) (k : Fin 128) : ridx_main_v162 (ix2 r j) k = ix2 k j := funext fun a => Fin.ext (by match a with | ⟨0, _⟩ => rfl | ⟨1, _⟩ => rfl)
theorem li182 (r : Fin 200000) (j : Fin 32) (k : Fin 64) : lidx_main_v182 (ix2 r j) k = ix2 r k := funext fun a => Fin.ext (by match a with | ⟨0, _⟩ => rfl | ⟨1, _⟩ => rfl)
theorem ri182 (r : Fin 200000) (j : Fin 32) (k : Fin 64) : ridx_main_v182 (ix2 r j) k = ix2 k j := funext fun a => Fin.ext (by match a with | ⟨0, _⟩ => rfl | ⟨1, _⟩ => rfl)
theorem li187 (r : Fin 200000) (j : Fin 1) (k : Fin 32) : lidx_main_v187 (ix2 r j) k = ix2 r k := funext fun a => Fin.ext (by match a with | ⟨0, _⟩ => rfl | ⟨1, _⟩ => rfl)
theorem ri187 (r : Fin 200000) (j : Fin 1) (k : Fin 32) : ridx_main_v187 (ix2 r j) k = ix2 k j := funext fun a => Fin.ext (by match a with | ⟨0, _⟩ => rfl | ⟨1, _⟩ => rfl)
theorem bi144 (r : Fin 200000) (j : Fin 128) : idx_main_v144 (ix2 r j) = ix2 (0 : Fin 1) j := funext fun a => Fin.ext (by match a with | ⟨0, _⟩ => rfl | ⟨1, _⟩ => rfl)
theorem bi143 (p : Fin 1) (j : Fin 128) : idx_main_v143 (ix2 p j) = ix1 j := funext fun a => Fin.ext (by match a with | ⟨0, _⟩ => rfl)
theorem bi147 (r : Fin 200000) (j : Fin 128) : idx_main_v147 (ix2 r j) = ix2 (0 : Fin 1) j := funext fun a => Fin.ext (by match a with | ⟨0, _⟩ => rfl | ⟨1, _⟩ => rfl)
theorem bi146 (p : Fin 1) (j : Fin 128) : idx_main_v146 (ix2 p j) = ix1 j := funext fun a => Fin.ext (by match a with | ⟨0, _⟩ => rfl)
theorem bi153 (r : Fin 200000) (j : Fin 128) : idx_main_v153 (ix2 r j) = ix2 (0 : Fin 1) j := funext fun a => Fin.ext (by match a with | ⟨0, _⟩ => rfl | ⟨1, _⟩ => rfl)
theorem bi152 (p : Fin 1) (j : Fin 128) : idx_main_v152 (ix2 p j) = ix1 j := funext fun a => Fin.ext (by match a with | ⟨0, _⟩ => rfl)
theorem bi156 (r : Fin 200000) (j : Fin 128) : idx_main_v156 (ix2 r j) = ix2 (0 : Fin 1) j := funext fun a => Fin.ext (by match a with | ⟨0, _⟩ => rfl | ⟨1, _⟩ => rfl)
theorem bi155 (p : Fin 1) (j : Fin 128) : idx_main_v155 (ix2 p j) = ix1 j := funext fun a => Fin.ext (by match a with | ⟨0, _⟩ => rfl)
theorem bi159 (r : Fin 200000) (j : Fin 128) : idx_main_v159 (ix2 r j) = ix2 (0 : Fin 1) j := funext fun a => Fin.ext (by match a with | ⟨0, _⟩ => rfl | ⟨1, _⟩ => rfl)
theorem bi158 (p : Fin 1) (j : Fin 128) : idx_main_v158 (ix2 p j) = ix1 j := funext fun a => Fin.ext (by match a with | ⟨0, _⟩ => rfl)
theorem bi164 (r : Fin 200000) (j : Fin 64) : idx_main_v164 (ix2 r j) = ix2 (0 : Fin 1) j := funext fun a => Fin.ext (by match a with | ⟨0, _⟩ => rfl | ⟨1, _⟩ => rfl)
theorem bi163 (p : Fin 1) (j : Fin 64) : idx_main_v163 (ix2 p j) = ix1 j := funext fun a => Fin.ext (by match a with | ⟨0, _⟩ => rfl)
theorem bi167 (r : Fin 200000) (j : Fin 64) : idx_main_v167 (ix2 r j) = ix2 (0 : Fin 1) j := funext fun a => Fin.ext (by match a with | ⟨0, _⟩ => rfl | ⟨1, _⟩ => rfl)
theorem bi166 (p : Fin 1) (j : Fin 64) : idx_main_v166 (ix2 p j) = ix1 j := funext fun a => Fin.ext (by match a with | ⟨0, _⟩ => rfl)
theorem bi173 (r : Fin 200000) (j : Fin 64) : idx_main_v173 (ix2 r j) = ix2 (0 : Fin 1) j := funext fun a => Fin.ext (by match a with | ⟨0, _⟩ => rfl | ⟨1, _⟩ => rfl)
theorem bi172 (p : Fin 1) (j : Fin 64) : idx_main_v172 (ix2 p j) = ix1 j := funext fun a => Fin.ext (by match a with | ⟨0, _⟩ => rfl)
theorem bi176 (r : Fin 200000) (j : Fin 64) : idx_main_v176 (ix2 r j) = ix2 (0 : Fin 1) j := funext fun a => Fin.ext (by match a with | ⟨0, _⟩ => rfl | ⟨1, _⟩ => rfl)
theorem bi175 (p : Fin 1) (j : Fin 64) : idx_main_v175 (ix2 p j) = ix1 j := funext fun a => Fin.ext (by match a with | ⟨0, _⟩ => rfl)
theorem bi179 (r : Fin 200000) (j : Fin 64) : idx_main_v179 (ix2 r j) = ix2 (0 : Fin 1) j := funext fun a => Fin.ext (by match a with | ⟨0, _⟩ => rfl | ⟨1, _⟩ => rfl)
theorem bi178 (p : Fin 1) (j : Fin 64) : idx_main_v178 (ix2 p j) = ix1 j := funext fun a => Fin.ext (by match a with | ⟨0, _⟩ => rfl)
theorem bi184 (r : Fin 200000) (j : Fin 32) : idx_main_v184 (ix2 r j) = ix2 (0 : Fin 1) j := funext fun a => Fin.ext (by match a with | ⟨0, _⟩ => rfl | ⟨1, _⟩ => rfl)
theorem bi183 (p : Fin 1) (j : Fin 32) : idx_main_v183 (ix2 p j) = ix1 j := funext fun a => Fin.ext (by match a with | ⟨0, _⟩ => rfl)
theorem bi189 (r : Fin 200000) (j : Fin 1) : idx_main_v189 (ix2 r j) = ix2 (0 : Fin 1) (0 : Fin 1) := funext fun a => Fin.ext (by match a with | ⟨0, _⟩ => rfl | ⟨1, _⟩ => rfl)
theorem bi188 (p : Fin 1) (j : Fin 1) : idx_main_v188 (ix2 p j) = ix1 (0 : Fin 1) := funext fun a => Fin.ext (by match a with | ⟨0, _⟩ => rfl)

/-! ## The joined array at an index -/

/-- A column below 64 of the joined array is that column of the first half. -/
theorem cat_left (A B : S200000x64.Idx → EReal) (hc : Shape.Concatenates [S200000x64, S200000x64] S200000x128 1)
    (r : Fin 200000) (k : Fin 64) (h : k.val < 128) :
    concatenate S200000x128 1 [⟨S200000x64, A⟩, ⟨S200000x64, B⟩] hc (ix2 r ⟨k.val, h⟩) = A (ix2 r k) :=
  concatenate_pair_apply_left (t := S200000x128) 1 A B hc (ix2 r ⟨k.val, h⟩) rfl (ix2 r k)
    (fun b => by match b with | ⟨0, _⟩ => rfl | ⟨1, _⟩ => rfl)

/-- Column 64 + k of the joined array is column k of the second half. -/
theorem cat_right (A B : S200000x64.Idx → EReal) (hc : Shape.Concatenates [S200000x64, S200000x64] S200000x128 1)
    (r : Fin 200000) (k : Fin 64) (h : 64 + k.val < 128) :
    concatenate S200000x128 1 [⟨S200000x64, A⟩, ⟨S200000x64, B⟩] hc (ix2 r ⟨64 + k.val, h⟩) = B (ix2 r k) :=
  concatenate_pair_apply_right (t := S200000x128) 1 A B hc (ix2 r ⟨64 + k.val, h⟩) rfl rfl (ix2 r k)
    (fun b hb => by match b with | ⟨0, _⟩ => rfl | ⟨1, _⟩ => exact absurd rfl hb)
    (by show k.val + 64 = 64 + k.val; omega)

/-! ## The four layers -/

/-- Layer 1 before its rectifier. -/
theorem ref_pre1 (x0 : (⟨S100000x128, .f32⟩ : BufTy).Contents (Elt Ideal)) (x1 : (⟨S2x1250000, .i32⟩ : BufTy).Contents (Elt Ideal)) (x2 : (⟨S2x200000, .i32⟩ : BufTy).Contents (Elt Ideal)) (x3 : (⟨S128x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) (x21 : (⟨S128x128, .f32⟩ : BufTy).Contents (Elt Ideal)) (x22 x23 x24 x25 x26 : (⟨S128, .f32⟩ : BufTy).Contents (Elt Ideal)) (x27 : (⟨S128x64, .f32⟩ : BufTy).Contents (Elt Ideal)) (x28 x29 x30 x31 x32 : (⟨S64, .f32⟩ : BufTy).Contents (Elt Ideal)) (x33 : (⟨S64x32, .f32⟩ : BufTy).Contents (Elt Ideal)) (x34 : (⟨S32, .f32⟩ : BufTy).Contents (Elt Ideal)) (x35 : (⟨S32x1, .f32⟩ : BufTy).Contents (Elt Ideal)) (x36 : (⟨S1, .f32⟩ : BufTy).Contents (Elt Ideal)) (r : Fin 200000) (j : Fin 128) :
    val_main_v160 (F := Ideal) x0 x1 x2 x3 x4 x5 x6 x7 x8 x9 x10 x11 x12 x13 x14 x15 x16 x17 x18 x19 x20 x21 x22 x23 x24 x25 x26 (ix2 r j)
      = pre1 (fun k => val_main_v131 (F := Ideal) x0 x1 x2 x3 x4 x5 x6 x7 x8 x9 x10 x11 x12 x13 x14 x15 x16 x17 x18 x19 x20 (ix2 r k)) (fun k => val_main_v140 (F := Ideal) x0 x1 x2 x3 x4 x5 x6 x7 x8 x9 x10 x11 x12 x13 x14 x15 x16 x17 x18 x19 x20 (ix2 r k))
          (fun k j => x21 (ix2 ⟨k.val, by omega⟩ j)) (fun k j => x21 (ix2 ⟨64 + k.val, by omega⟩ j))
          (fun j => x22 (ix1 j)) (fun j => x25 (ix1 j)) (fun j => x26 (ix1 j)) (fun j => x23 (ix1 j)) (fun j => x24 (ix1 j)) j := by
  rw [val_main_v160_apply, val_main_v157_apply, val_main_v154_apply, val_main_v148_apply, val_main_v145_apply, val_main_v142_apply]
  rw [val_main_v144_apply, val_main_v143_apply, bi144, bi143, val_main_v147_apply, val_main_v146_apply, bi147, bi146, val_main_v153_apply, val_main_v152_apply, bi153, bi152, val_main_v151_apply, val_main_v150_apply, val_main_v149_apply, val_main_cst_20_apply, val_main_v156_apply, val_main_v155_apply, bi156, bi155, val_main_v159_apply, val_main_v158_apply, bi159, bi158]
  unfold pre1 bn
  refine congrArg (fun s => (s + x22 (ix1 j) - x25 (ix1 j)) * Ideal.rsqrt (x26 (ix1 j) + Ideal.ofBits .f32 0x3727C5AC#32) * x23 (ix1 j) + x24 (ix1 j)) ?_
  rw [sum_halves]
  refine congrArg₂ (· + ·) (Finset.sum_congr rfl fun k _ => ?_) (Finset.sum_congr rfl fun k _ => ?_)
  · rw [li142, ri142]
    unfold val_main_v141
    rw [cat_left]
  · rw [li142, ri142]
    unfold val_main_v141
    rw [cat_right]

/-- Layer 2 before its rectifier, from layer 1 before its rectifier. -/
theorem ref_pre2 (x0 : (⟨S100000x128, .f32⟩ : BufTy).Contents (Elt Ideal)) (x1 : (⟨S2x1250000, .i32⟩ : BufTy).Contents (Elt Ideal)) (x2 : (⟨S2x200000, .i32⟩ : BufTy).Contents (Elt Ideal)) (x3 : (⟨S128x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) (x21 : (⟨S128x128, .f32⟩ : BufTy).Contents (Elt Ideal)) (x22 x23 x24 x25 x26 : (⟨S128, .f32⟩ : BufTy).Contents (Elt Ideal)) (x27 : (⟨S128x64, .f32⟩ : BufTy).Contents (Elt Ideal)) (x28 x29 x30 x31 x32 : (⟨S64, .f32⟩ : BufTy).Contents (Elt Ideal)) (x33 : (⟨S64x32, .f32⟩ : BufTy).Contents (Elt Ideal)) (x34 : (⟨S32, .f32⟩ : BufTy).Contents (Elt Ideal)) (x35 : (⟨S32x1, .f32⟩ : BufTy).Contents (Elt Ideal)) (x36 : (⟨S1, .f32⟩ : BufTy).Contents (Elt Ideal)) (r : Fin 200000) (j : Fin 64) :
    val_main_v180 (F := Ideal) x0 x1 x2 x3 x4 x5 x6 x7 x8 x9 x10 x11 x12 x13 x14 x15 x16 x17 x18 x19 x20 x21 x22 x23 x24 x25 x26 x27 x28 x29 x30 x31 x32 (ix2 r j)
      = pre2 (fun k => val_main_v160 (F := Ideal) x0 x1 x2 x3 x4 x5 x6 x7 x8 x9 x10 x11 x12 x13 x14 x15 x16 x17 x18 x19 x20 x21 x22 x23 x24 x25 x26 (ix2 r k)) (fun k j => x27 (ix2 k j))
          (fun j => x28 (ix1 j)) (fun j => x31 (ix1 j)) (fun j => x32 (ix1 j)) (fun j => x29 (ix1 j)) (fun j => x30 (ix1 j)) j := by
  rw [val_main_v180_apply, val_main_v177_apply, val_main_v174_apply, val_main_v168_apply, val_main_v165_apply, val_main_v162_apply]
  rw [val_main_v164_apply, val_main_v163_apply, bi164, bi163, val_main_v167_apply, val_main_v166_apply, bi167, bi166, val_main_v173_apply, val_main_v172_apply, bi173, bi172, val_main_v171_apply, val_main_v170_apply, val_main_v169_apply, val_main_cst_21_apply, val_main_v176_apply, val_main_v175_apply, bi176, bi175, val_main_v179_apply, val_main_v178_apply, bi179, bi178]
  unfold pre2 bn relu
  refine congrArg (fun s => (s + x28 (ix1 j) - x31 (ix1 j)) * Ideal.rsqrt (x32 (ix1 j) + Ideal.ofBits .f32 0x3727C5AC#32) * x29 (ix1 j) + x30 (ix1 j)) ?_
  refine Finset.sum_congr rfl fun k _ => ?_
  rw [li162, ri162, val_main_v161_apply, val_main_call2_v0_apply, val_main_call2_cst_apply]
  rfl

/-- Layer 3 before its rectifier, from layer 2 before its rectifier. -/
theorem ref_pre3 (x0 : (⟨S100000x128, .f32⟩ : BufTy).Contents (Elt Ideal)) (x1 : (⟨S2x1250000, .i32⟩ : BufTy).Contents (Elt Ideal)) (x2 : (⟨S2x200000, .i32⟩ : BufTy).Contents (Elt Ideal)) (x3 : (⟨S128x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) (x21 : (⟨S128x128, .f32⟩ : BufTy).Contents (Elt Ideal)) (x22 x23 x24 x25 x26 : (⟨S128, .f32⟩ : BufTy).Contents (Elt Ideal)) (x27 : (⟨S128x64, .f32⟩ : BufTy).Contents (Elt Ideal)) (x28 x29 x30 x31 x32 : (⟨S64, .f32⟩ : BufTy).Contents (Elt Ideal)) (x33 : (⟨S64x32, .f32⟩ : BufTy).Contents (Elt Ideal)) (x34 : (⟨S32, .f32⟩ : BufTy).Contents (Elt Ideal)) (x35 : (⟨S32x1, .f32⟩ : BufTy).Contents (Elt Ideal)) (x36 : (⟨S1, .f32⟩ : BufTy).Contents (Elt Ideal)) (r : Fin 200000) (j : Fin 32) :
    val_main_v185 (F := Ideal) x0 x1 x2 x3 x4 x5 x6 x7 x8 x9 x10 x11 x12 x13 x14 x15 x16 x17 x18 x19 x20 x21 x22 x23 x24 x25 x26 x27 x28 x29 x30 x31 x32 x33 x34 (ix2 r j)
      = pre3 (fun k => val_main_v180 (F := Ideal) x0 x1 x2 x3 x4 x5 x6 x7 x8 x9 x10 x11 x12 x13 x14 x15 x16 x17 x18 x19 x20 x21 x22 x23 x24 x25 x26 x27 x28 x29 x30 x31 x32 (ix2 r k)) (fun k j => x33 (ix2 k j)) (fun j => x34 (ix1 j)) j := by
  rw [val_main_v185_apply, val_main_v182_apply]
  rw [val_main_v184_apply, val_main_v183_apply, bi184, bi183]
  unfold pre3 relu
  refine congrArg (fun s => s + x34 (ix1 j)) ?_
  refine Finset.sum_congr rfl fun k _ => ?_
  rw [li182, ri182, val_main_v181_apply, val_main_call3_v0_apply, val_main_call3_cst_apply]
  rfl

/-- The output, from layer 3 before its rectifier. -/
theorem ref_out4 (x0 : (⟨S100000x128, .f32⟩ : BufTy).Contents (Elt Ideal)) (x1 : (⟨S2x1250000, .i32⟩ : BufTy).Contents (Elt Ideal)) (x2 : (⟨S2x200000, .i32⟩ : BufTy).Contents (Elt Ideal)) (x3 : (⟨S128x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) (x21 : (⟨S128x128, .f32⟩ : BufTy).Contents (Elt Ideal)) (x22 x23 x24 x25 x26 : (⟨S128, .f32⟩ : BufTy).Contents (Elt Ideal)) (x27 : (⟨S128x64, .f32⟩ : BufTy).Contents (Elt Ideal)) (x28 x29 x30 x31 x32 : (⟨S64, .f32⟩ : BufTy).Contents (Elt Ideal)) (x33 : (⟨S64x32, .f32⟩ : BufTy).Contents (Elt Ideal)) (x34 : (⟨S32, .f32⟩ : BufTy).Contents (Elt Ideal)) (x35 : (⟨S32x1, .f32⟩ : BufTy).Contents (Elt Ideal)) (x36 : (⟨S1, .f32⟩ : BufTy).Contents (Elt Ideal)) (r : Fin 200000) :
    val_main_v190 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 r 0)
      = out4 (fun k => val_main_v185 (F := Ideal) x0 x1 x2 x3 x4 x5 x6 x7 x8 x9 x10 x11 x12 x13 x14 x15 x16 x17 x18 x19 x20 x21 x22 x23 x24 x25 x26 x27 x28 x29 x30 x31 x32 x33 x34 (ix2 r k)) (fun k => x35 (ix2 k 0)) (x36 (ix1 0)) := by
  rw [val_main_v190_apply, val_main_v187_apply]
  rw [val_main_v189_apply, val_main_v188_apply, bi189, bi188]
  unfold out4 relu
  refine congrArg (fun s => s + x36 (ix1 0)) ?_
  refine Finset.sum_congr rfl fun k _ => ?_
  rw [li187, ri187, val_main_v186_apply, val_main_call4_v0_apply, val_main_call4_cst_apply]
  rfl

/-- The reference's last stage is the network on arrays, of the two gathered halves and of any
    weight arrays that agree entrywise with the reference's weight arguments. -/
theorem ref_eq (x0 : (⟨S100000x128, .f32⟩ : BufTy).Contents (Elt Ideal)) (x1 : (⟨S2x1250000, .i32⟩ : BufTy).Contents (Elt Ideal)) (x2 : (⟨S2x200000, .i32⟩ : BufTy).Contents (Elt Ideal)) (x3 : (⟨S128x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) (x21 : (⟨S128x128, .f32⟩ : BufTy).Contents (Elt Ideal)) (x22 x23 x24 x25 x26 : (⟨S128, .f32⟩ : BufTy).Contents (Elt Ideal)) (x27 : (⟨S128x64, .f32⟩ : BufTy).Contents (Elt Ideal)) (x28 x29 x30 x31 x32 : (⟨S64, .f32⟩ : BufTy).Contents (Elt Ideal)) (x33 : (⟨S64x32, .f32⟩ : BufTy).Contents (Elt Ideal)) (x34 : (⟨S32, .f32⟩ : BufTy).Contents (Elt Ideal)) (x35 : (⟨S32x1, .f32⟩ : BufTy).Contents (Elt Ideal)) (x36 : (⟨S1, .f32⟩ : BufTy).Contents (Elt Ideal))
    (Wa Wb : (⟨2, ![64, 128]⟩ : Shape).Idx → EReal) (b1 m1 v1 g1 be1 : (⟨2, ![1, 128]⟩ : Shape).Idx → EReal)
    (b2 m2 v2 g2 be2 : (⟨2, ![1, 64]⟩ : Shape).Idx → EReal) (b3 : (⟨2, ![1, 32]⟩ : Shape).Idx → EReal)
    (b4 : (⟨2, ![1, 1]⟩ : Shape).Idx → EReal)
    (hWa : ∀ (k : Fin 64) (j : Fin 128), Wa (ix2 k j) = x21 (ix2 ⟨k.val, by omega⟩ j))
    (hWb : ∀ (k : Fin 64) (j : Fin 128), Wb (ix2 k j) = x21 (ix2 ⟨64 + k.val, by omega⟩ j))
    (hb1 : ∀ j : Fin 128, b1 (ix2 0 j) = x22 (ix1 j)) (hg1 : ∀ j : Fin 128, g1 (ix2 0 j) = x23 (ix1 j))
    (hbe1 : ∀ j : Fin 128, be1 (ix2 0 j) = x24 (ix1 j)) (hm1 : ∀ j : Fin 128, m1 (ix2 0 j) = x25 (ix1 j))
    (hv1 : ∀ j : Fin 128, v1 (ix2 0 j) = x26 (ix1 j))
    (hb2 : ∀ j : Fin 64, b2 (ix2 0 j) = x28 (ix1 j)) (hg2 : ∀ j : Fin 64, g2 (ix2 0 j) = x29 (ix1 j))
    (hbe2 : ∀ j : Fin 64, be2 (ix2 0 j) = x30 (ix1 j)) (hm2 : ∀ j : Fin 64, m2 (ix2 0 j) = x31 (ix1 j))
    (hv2 : ∀ j : Fin 64, v2 (ix2 0 j) = x32 (ix1 j))
    (hb3 : ∀ j : Fin 32, b3 (ix2 0 j) = x34 (ix1 j)) (hb4 : b4 (ix2 0 0) = x36 (ix1 0)) :
    val_main_v190 (F := Ideal) x0 x1 x2 x3 x4 x5 x6 x7 x8 x9 x10 x11 x12 x13 x14 x15 x16 x17 x18 x19 x20 x21 x22 x23 x24 x25 x26 x27 x28 x29 x30 x31 x32 x33 x34 x35 x36
      = mlp (N := 200000) (val_main_v131 (F := Ideal) x0 x1 x2 x3 x4 x5 x6 x7 x8 x9 x10 x11 x12 x13 x14 x15 x16 x17 x18 x19 x20) (val_main_v140 (F := Ideal) x0 x1 x2 x3 x4 x5 x6 x7 x8 x9 x10 x11 x12 x13 x14 x15 x16 x17 x18 x19 x20)
          Wa Wb b1 m1 v1 g1 be1 x27 b2 m2 v2 g2 be2 x33 b3 x35 b4 := by
  funext i
  obtain ⟨r, q, rfl⟩ : ∃ (r : Fin 200000) (q : Fin 1), i = ix2 r q := ⟨i 0, i 1, eq_ix2 i⟩
  obtain rfl : q = 0 := Subsingleton.elim _ _
  rw [ref_out4 x0 x1 x2 x3 x4 x5 x6 x7 x8 x9 x10 x11 x12 x13 x14 x15 x16 x17 x18 x19 x20 x21 x22 x23 x24 x25 x26 x27 x28 x29 x30 x31 x32 x33 x34 x35 x36]
  unfold mlp net
  simp only [hWa, hWb, hb1, hg1, hbe1, hm1, hv1, hb2, hg2, hbe2, hm2, hv2, hb3, hb4]
  refine congrArg (fun f => out4 f _ _) (funext fun k => ?_)
  rw [ref_pre3 x0 x1 x2 x3 x4 x5 x6 x7 x8 x9 x10 x11 x12 x13 x14 x15 x16 x17 x18 x19 x20 x21 x22 x23 x24 x25 x26 x27 x28 x29 x30 x31 x32 x33 x34 x35 x36]
  refine congrArg (fun f => pre3 f _ _ k) (funext fun k2 => ?_)
  rw [ref_pre2 x0 x1 x2 x3 x4 x5 x6 x7 x8 x9 x10 x11 x12 x13 x14 x15 x16 x17 x18 x19 x20 x21 x22 x23 x24 x25 x26 x27 x28 x29 x30 x31 x32 x33 x34 x35 x36]
  refine congrArg (fun f => pre2 f _ _ _ _ _ _ k2) (funext fun k1 => ?_)
  exact ref_pre1 x0 x1 x2 x3 x4 x5 x6 x7 x8 x9 x10 x11 x12 x13 x14 x15 x16 x17 x18 x19 x20 x21 x22 x23 x24 x25 x26 x27 x28 x29 x30 x31 x32 x33 x34 x35 x36 r k1

end Cert.KernelIdeal.Region4

end
-- ==== Proof.Region4.lean ====
/-
Region 4 (the decode network) from blocks to the array, and the region's value.

The grid has 100 points; point `t` stages rows 2000·t … 2000·t + 1999 of the two gathered halves,
every weight array whole (its block index is (0, 0) at every point), and writes back rows
2000·t … 2000·t + 1999 of the [200000, 1] result. What it writes is the network's row on the
staged rows (`body_apply`), and a row of the network depends only on that row of the two halves
(`mlp_rows`), so point `t` writes block `t` of ONE function of the whole arrays; the 100 blocks
tile the result, so the result is that function. The reference's last stage is the same function
(`ref_eq`) once the joined 128-column sum is split into its halves.
-/
import proofs.«104744_j77352361001295_2_alg».proof.Proof.Gen.KernelIdeal.Frame
import proofs.«104744_j77352361001295_2_alg».proof.Proof.Region4Pay
import proofs.«104744_j77352361001295_2_alg».proof.Proof.Region4Ref
import Idealize.ShloMosaic.Lib.Pipeline.Value

noncomputable section

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat)

/-- A row of the network on arrays depends only on that row of the two halves. -/
theorem mlp_rows {N M : Nat} (A B : (⟨2, ![N, 64]⟩ : Shape).Idx → EReal) (a b : (⟨2, ![M, 64]⟩ : Shape).Idx → EReal)
    (Wa Wb : (⟨2, ![64, 128]⟩ : Shape).Idx → EReal) (b1 m1 v1 g1 be1 : (⟨2, ![1, 128]⟩ : Shape).Idx → EReal)
    (W2 : (⟨2, ![128, 64]⟩ : Shape).Idx → EReal) (b2 m2 v2 g2 be2 : (⟨2, ![1, 64]⟩ : Shape).Idx → EReal)
    (W3 : (⟨2, ![64, 32]⟩ : Shape).Idx → EReal) (b3 : (⟨2, ![1, 32]⟩ : Shape).Idx → EReal)
    (W4 : (⟨2, ![32, 1]⟩ : Shape).Idx → EReal) (b4 : (⟨2, ![1, 1]⟩ : Shape).Idx → EReal)
    (i : (⟨2, ![N, 1]⟩ : Shape).Idx) (j : (⟨2, ![M, 1]⟩ : Shape).Idx)
    (hA : ∀ k : Fin 64, a (ix2 ⟨(j 0).val, idx2_lt0 j⟩ k) = A (ix2 ⟨(i 0).val, idx2_lt0 i⟩ k))
    (hB : ∀ k : Fin 64, b (ix2 ⟨(j 0).val, idx2_lt0 j⟩ k) = B (ix2 ⟨(i 0).val, idx2_lt0 i⟩ k)) :
    mlp a b Wa Wb b1 m1 v1 g1 be1 W2 b2 m2 v2 g2 be2 W3 b3 W4 b4 j
      = mlp A B Wa Wb b1 m1 v1 g1 be1 W2 b2 m2 v2 g2 be2 W3 b3 W4 b4 i := by
  unfold mlp
  simp only [hA, hB]

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## The printed index maps, decided over the 100 grid points -/

/-- The two row-blocked inputs move with the output down the rows and sit at column block 0. -/
theorem idx_rows : ∀ t : Fin cfg4.N, win4_0.index t (0 : Fin 2) = win4_19.index t (0 : Fin 2) ∧ win4_0.index t (1 : Fin 2) = 0
    ∧ win4_1.index t (0 : Fin 2) = win4_19.index t (0 : Fin 2) ∧ win4_1.index t (1 : Fin 2) = 0
    ∧ win4_19.index t (1 : Fin 2) = 0 :=
  (by decide +kernel : ∀ t : Fin grid4.N, _)

/-- Every row block of the output is some point's. -/
theorem idx_onto : ∀ q0 : Fin 100, ∃ t : Fin cfg4.N, win4_19.index t = ![q0.val, 0] :=
  (by decide +kernel : ∀ q0 : Fin 100, ∃ t : Fin grid4.N, win4_19.index t = ![q0.val, 0])

/-! Each weight window's block index is (0, 0) at every point. -/
theorem idxw_2 : ∀ t : Fin cfg4.N, win4_2.index t (0 : Fin 2) = 0 ∧ win4_2.index t (1 : Fin 2) = 0 :=
  (by decide +kernel : ∀ t : Fin grid4.N, _)
theorem idxw_3 : ∀ t : Fin cfg4.N, win4_3.index t (0 : Fin 2) = 0 ∧ win4_3.index t (1 : Fin 2) = 0 :=
  (by decide +kernel : ∀ t : Fin grid4.N, _)
theorem idxw_4 : ∀ t : Fin cfg4.N, win4_4.index t (0 : Fin 2) = 0 ∧ win4_4.index t (1 : Fin 2) = 0 :=
  (by decide +kernel : ∀ t : Fin grid4.N, _)
theorem idxw_5 : ∀ t : Fin cfg4.N, win4_5.index t (0 : Fin 2) = 0 ∧ win4_5.index t (1 : Fin 2) = 0 :=
  (by decide +kernel : ∀ t : Fin grid4.N, _)
theorem idxw_6 : ∀ t : Fin cfg4.N, win4_6.index t (0 : Fin 2) = 0 ∧ win4_6.index t (1 : Fin 2) = 0 :=
  (by decide +kernel : ∀ t : Fin grid4.N, _)
theorem idxw_7 : ∀ t : Fin cfg4.N, win4_7.index t (0 : Fin 2) = 0 ∧ win4_7.index t (1 : Fin 2) = 0 :=
  (by decide +kernel : ∀ t : Fin grid4.N, _)
theorem idxw_8 : ∀ t : Fin cfg4.N, win4_8.index t (0 : Fin 2) = 0 ∧ win4_8.index t (1 : Fin 2) = 0 :=
  (by decide +kernel : ∀ t : Fin grid4.N, _)
theorem idxw_9 : ∀ t : Fin cfg4.N, win4_9.index t (0 : Fin 2) = 0 ∧ win4_9.index t (1 : Fin 2) = 0 :=
  (by decide +kernel : ∀ t : Fin grid4.N, _)
theorem idxw_10 : ∀ t : Fin cfg4.N, win4_10.index t (0 : Fin 2) = 0 ∧ win4_10.index t (1 : Fin 2) = 0 :=
  (by decide +kernel : ∀ t : Fin grid4.N, _)
theorem idxw_11 : ∀ t : Fin cfg4.N, win4_11.index t (0 : Fin 2) = 0 ∧ win4_11.index t (1 : Fin 2) = 0 :=
  (by decide +kernel : ∀ t : Fin grid4.N, _)
theorem idxw_12 : ∀ t : Fin cfg4.N, win4_12.index t (0 : Fin 2) = 0 ∧ win4_12.index t (1 : Fin 2) = 0 :=
  (by decide +kernel : ∀ t : Fin grid4.N, _)
theorem idxw_13 : ∀ t : Fin cfg4.N, win4_13.index t (0 : Fin 2) = 0 ∧ win4_13.index t (1 : Fin 2) = 0 :=
  (by decide +kernel : ∀ t : Fin grid4.N, _)
theorem idxw_14 : ∀ t : Fin cfg4.N, win4_14.index t (0 : Fin 2) = 0 ∧ win4_14.index t (1 : Fin 2) = 0 :=
  (by decide +kernel : ∀ t : Fin grid4.N, _)
theorem idxw_15 : ∀ t : Fin cfg4.N, win4_15.index t (0 : Fin 2) = 0 ∧ win4_15.index t (1 : Fin 2) = 0 :=
  (by decide +kernel : ∀ t : Fin grid4.N, _)
theorem idxw_16 : ∀ t : Fin cfg4.N, win4_16.index t (0 : Fin 2) = 0 ∧ win4_16.index t (1 : Fin 2) = 0 :=
  (by decide +kernel : ∀ t : Fin grid4.N, _)
theorem idxw_17 : ∀ t : Fin cfg4.N, win4_17.index t (0 : Fin 2) = 0 ∧ win4_17.index t (1 : Fin 2) = 0 :=
  (by decide +kernel : ∀ t : Fin grid4.N, _)
theorem idxw_18 : ∀ t : Fin cfg4.N, win4_18.index t (0 : Fin 2) = 0 ∧ win4_18.index t (1 : Fin 2) = 0 :=
  (by decide +kernel : ∀ t : Fin grid4.N, _)

/-! ## The staged blocks, read off the arrays as the region finds them -/

/-! A weight window's block is its whole array. -/
theorem blk_2 (t : Fin cfg4.N) : (iblk4 (F := Ideal) V c 2 t : Vec Ideal S64x128 .f32) = V c main_v101 := by
  obtain ⟨e0, e1⟩ := idxw_2 t
  funext y
  show V c main_v101 (((cfg4.win 2).blk t).view.emb y) = V c main_v101 y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 128 + 1 * (y 1).val = (y 1).val; omega
theorem blk_3 (t : Fin cfg4.N) : (iblk4 (F := Ideal) V c 3 t : Vec Ideal S64x128 .f32) = V c main_v102 := by
  obtain ⟨e0, e1⟩ := idxw_3 t
  funext y
  show V c main_v102 (((cfg4.win 3).blk t).view.emb y) = V c main_v102 y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 128 + 1 * (y 1).val = (y 1).val; omega
theorem blk_4 (t : Fin cfg4.N) : (iblk4 (F := Ideal) V c 4 t : Vec Ideal S1x128 .f32) = V c main_v103 := by
  obtain ⟨e0, e1⟩ := idxw_4 t
  funext y
  show V c main_v103 (((cfg4.win 4).blk t).view.emb y) = V c main_v103 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega
theorem blk_5 (t : Fin cfg4.N) : (iblk4 (F := Ideal) V c 5 t : Vec Ideal S1x128 .f32) = V c main_v104 := by
  obtain ⟨e0, e1⟩ := idxw_5 t
  funext y
  show V c main_v104 (((cfg4.win 5).blk t).view.emb y) = V c main_v104 y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega
theorem blk_6 (t : Fin cfg4.N) : (iblk4 (F := Ideal) V c 6 t : Vec Ideal S1x128 .f32) = V c main_v105 := by
  obtain ⟨e0, e1⟩ := idxw_6 t
  funext y
  show V c main_v105 (((cfg4.win 6).blk t).view.emb y) = V c main_v105 y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 128 + 1 * (y 1).val = (y 1).val; omega
theorem blk_7 (t : Fin cfg4.N) : (iblk4 (F := Ideal) V c 7 t : Vec Ideal S1x128 .f32) = V c main_v106 := by
  obtain ⟨e0, e1⟩ := idxw_7 t
  funext y
  show V c main_v106 (((cfg4.win 7).blk t).view.emb y) = V c main_v106 y
  refine congrArg _ (funext fun a => Fin.ext ?_)
  match a with
  | ⟨0, _⟩ => show win4_7.index t (0 : Fin 2) * 1 + 1 * (y 0).val = (y 0).val; omega
  | ⟨1, _⟩ => show win4_7.index t (1 : Fin 2) * 128 + 1 * (y 1).val = (y 1).val; omega
theorem blk_8 (t : Fin cfg4.N) : (iblk4 (F := Ideal) V c 8 t : Vec Ideal S1x128 .f32) = V c main_v107 := by
  obtain ⟨e0, e1⟩ := idxw_8 t
  funext y
  show V c main_v107 (((cfg4.win 8).blk t).view.emb y) = V c main_v107 y
  refine congrArg _ (funext fun a => Fin.ext ?_)
  match a with
  | ⟨0, _⟩ => show win4_8.index t (0 : Fin 2) * 1 + 1 * (y 0).val = (y 0).val; omega
  | ⟨1, _⟩ => show win4_8.index t (1 : Fin 2) * 128 + 1 * (y 1).val = (y 1).val; omega
theorem blk_9 (t : Fin cfg4.N) : (iblk4 (F := Ideal) V c 9 t : Vec Ideal S128x64 .f32) = V c main_arg27 := by
  obtain ⟨e0, e1⟩ := idxw_9 t
  funext y
  show V c main_arg27 (((cfg4.win 9).blk t).view.emb y) = V c main_arg27 y
  refine congrArg _ (funext fun a => Fin.ext ?_)
  match a with
  | ⟨0, _⟩ => show win4_9.index t (0 : Fin 2) * 128 + 1 * (y 0).val = (y 0).val; omega
  | ⟨1, _⟩ => show win4_9.index t (1 : Fin 2) * 64 + 1 * (y 1).val = (y 1).val; omega
theorem blk_10 (t : Fin cfg4.N) : (iblk4 (F := Ideal) V c 10 t : Vec Ideal S1x64 .f32) = V c main_v108 := by
  obtain ⟨e0, e1⟩ := idxw_10 t
  funext y
  show V c main_v108 (((cfg4.win 10).blk t).view.emb y) = V c main_v108 y
  refine congrArg _ (funext fun a => Fin.ext ?_)
  match a with
  | ⟨0, _⟩ => show win4_10.index t (0 : Fin 2) * 1 + 1 * (y 0).val = (y 0).val; omega
  | ⟨1, _⟩ => show win4_10.index t (1 : Fin 2) * 64 + 1 * (y 1).val = (y 1).val; omega
theorem blk_11 (t : Fin cfg4.N) : (iblk4 (F := Ideal) V c 11 t : Vec Ideal S1x64 .f32) = V c main_v109 := by
  obtain ⟨e0, e1⟩ := idxw_11 t
  funext y
  show V c main_v109 (((cfg4.win 11).blk t).view.emb y) = V c main_v109 y
  refine congrArg _ (funext fun a => Fin.ext ?_)
  match a with
  | ⟨0, _⟩ => show win4_11.index t (0 : Fin 2) * 1 + 1 * (y 0).val = (y 0).val; omega
  | ⟨1, _⟩ => show win4_11.index t (1 : Fin 2) * 64 + 1 * (y 1).val = (y 1).val; omega
theorem blk_12 (t : Fin cfg4.N) : (iblk4 (F := Ideal) V c 12 t : Vec Ideal S1x64 .f32) = V c main_v110 := by
  obtain ⟨e0, e1⟩ := idxw_12 t
  funext y
  show V c main_v110 (((cfg4.win 12).blk t).view.emb y) = V c main_v110 y
  refine congrArg _ (funext fun a => Fin.ext ?_)
  match a with
  | ⟨0, _⟩ => show win4_12.index t (0 : Fin 2) * 1 + 1 * (y 0).val = (y 0).val; omega
  | ⟨1, _⟩ => show win4_12.index t (1 : Fin 2) * 64 + 1 * (y 1).val = (y 1).val; omega
theorem blk_13 (t : Fin cfg4.N) : (iblk4 (F := Ideal) V c 13 t : Vec Ideal S1x64 .f32) = V c main_v111 := by
  obtain ⟨e0, e1⟩ := idxw_13 t
  funext y
  show V c main_v111 (((cfg4.win 13).blk t).view.emb y) = V c main_v111 y
  refine congrArg _ (funext fun a => Fin.ext ?_)
  match a with
  | ⟨0, _⟩ => show win4_13.index t (0 : Fin 2) * 1 + 1 * (y 0).val = (y 0).val; omega
  | ⟨1, _⟩ => show win4_13.index t (1 : Fin 2) * 64 + 1 * (y 1).val = (y 1).val; omega
theorem blk_14 (t : Fin cfg4.N) : (iblk4 (F := Ideal) V c 14 t : Vec Ideal S1x64 .f32) = V c main_v112 := by
  obtain ⟨e0, e1⟩ := idxw_14 t
  funext y
  show V c main_v112 (((cfg4.win 14).blk t).view.emb y) = V c main_v112 y
  refine congrArg _ (funext fun a => Fin.ext ?_)
  match a with
  | ⟨0, _⟩ => show win4_14.index t (0 : Fin 2) * 1 + 1 * (y 0).val = (y 0).val; omega
  | ⟨1, _⟩ => show win4_14.index t (1 : Fin 2) * 64 + 1 * (y 1).val = (y 1).val; omega
theorem blk_15 (t : Fin cfg4.N) : (iblk4 (F := Ideal) V c 15 t : Vec Ideal S64x32 .f32) = V c main_arg33 := by
  obtain ⟨e0, e1⟩ := idxw_15 t
  funext y
  show V c main_arg33 (((cfg4.win 15).blk t).view.emb y) = V c main_arg33 y
  refine congrArg _ (funext fun a => Fin.ext ?_)
  match a with
  | ⟨0, _⟩ => show win4_15.index t (0 : Fin 2) * 64 + 1 * (y 0).val = (y 0).val; omega
  | ⟨1, _⟩ => show win4_15.index t (1 : Fin 2) * 32 + 1 * (y 1).val = (y 1).val; omega
theorem blk_16 (t : Fin cfg4.N) : (iblk4 (F := Ideal) V c 16 t : Vec Ideal S1x32 .f32) = V c main_v113 := by
  obtain ⟨e0, e1⟩ := idxw_16 t
  funext y
  show V c main_v113 (((cfg4.win 16).blk t).view.emb y) = V c main_v113 y
  refine congrArg _ (funext fun a => Fin.ext ?_)
  match a with
  | ⟨0, _⟩ => show win4_16.index t (0 : Fin 2) * 1 + 1 * (y 0).val = (y 0).val; omega
  | ⟨1, _⟩ => show win4_16.index t (1 : Fin 2) * 32 + 1 * (y 1).val = (y 1).val; omega
theorem blk_17 (t : Fin cfg4.N) : (iblk4 (F := Ideal) V c 17 t : Vec Ideal S32x1 .f32) = V c main_arg35 := by
  obtain ⟨e0, e1⟩ := idxw_17 t
  funext y
  show V c main_arg35 (((cfg4.win 17).blk t).view.emb y) = V c main_arg35 y
  refine congrArg _ (funext fun a => Fin.ext ?_)
  match a with
  | ⟨0, _⟩ => show win4_17.index t (0 : Fin 2) * 32 + 1 * (y 0).val = (y 0).val; omega
  | ⟨1, _⟩ => show win4_17.index t (1 : Fin 2) * 1 + 1 * (y 1).val = (y 1).val; omega
theorem blk_18 (t : Fin cfg4.N) : (iblk4 (F := Ideal) V c 18 t : Vec Ideal S1x1 .f32) = V c main_v114 := by
  obtain ⟨e0, e1⟩ := idxw_18 t
  funext y
  show V c main_v114 (((cfg4.win 18).blk t).view.emb y) = V c main_v114 y
  refine congrArg _ (funext fun a => Fin.ext ?_)
  match a with
  | ⟨0, _⟩ => show win4_18.index t (0 : Fin 2) * 1 + 1 * (y 0).val = (y 0).val; omega
  | ⟨1, _⟩ => show win4_18.index t (1 : Fin 2) * 1 + 1 * (y 1).val = (y 1).val; omega

/-! Row `p` of a half's block at point `t` is row 2000·t + p of the half. -/
theorem blk_0_apply (t : Fin cfg4.N) (p : Fin 2000) (k : Fin 64) (r : Fin 200000)
    (hr : r.val = win4_19.index t (0 : Fin 2) * 2000 + p.val) :
    (iblk4 (F := Ideal) V c 0 t : Vec Ideal S2000x64 .f32) (ix2 p k) = V c main_v91 (ix2 r k) := by
  obtain ⟨e0, e1, e2, e3, e4⟩ := idx_rows t
  show V c main_v91 (((cfg4.win 0).blk t).view.emb (ix2 p k)) = V c main_v91 (ix2 r k)
  refine congrArg _ (funext fun a => Fin.ext ?_)
  match a with
  | ⟨0, _⟩ => show win4_0.index t (0 : Fin 2) * 2000 + 1 * p.val = r.val; omega
  | ⟨1, _⟩ => show win4_0.index t (1 : Fin 2) * 64 + 1 * k.val = k.val; omega
theorem blk_1_apply (t : Fin cfg4.N) (p : Fin 2000) (k : Fin 64) (r : Fin 200000)
    (hr : r.val = win4_19.index t (0 : Fin 2) * 2000 + p.val) :
    (iblk4 (F := Ideal) V c 1 t : Vec Ideal S2000x64 .f32) (ix2 p k) = V c main_v100 (ix2 r k) := by
  obtain ⟨e0, e1, e2, e3, e4⟩ := idx_rows t
  show V c main_v100 (((cfg4.win 1).blk t).view.emb (ix2 p k)) = V c main_v100 (ix2 r k)
  refine congrArg _ (funext fun a => Fin.ext ?_)
  match a with
  | ⟨0, _⟩ => show win4_1.index t (0 : Fin 2) * 2000 + 1 * p.val = r.val; omega
  | ⟨1, _⟩ => show win4_1.index t (1 : Fin 2) * 64 + 1 * k.val = k.val; omega

/-! ## What a point writes back, the cover, the array -/

/-- The network on the arrays as the region finds them. -/
abbrev target : S200000x1.Idx → EReal :=
  mlp (N := 200000) (V c main_v91) (V c main_v100) (V c main_v101) (V c main_v102) (V c main_v103) (V c main_v106) (V c main_v107) (V c main_v104) (V c main_v105) (V c main_arg27) (V c main_v108) (V c main_v111) (V c main_v112) (V c main_v109) (V c main_v110) (V c main_arg33) (V c main_v113) (V c main_arg35) (V c main_v114)

/-- Point `t` writes back block `t` of the network on the whole arrays. -/
theorem flushed_eq (t : Fin cfg4.N) :
    (dat4 (F := Ideal) V c).flushed 19 t = ((cfg4.win 19).blk t).view.read (Elt Ideal) (target V c) := by
  show (cfg4.win 19).cut (grid4.coords t) ((dat4 V c).after 19 t) = _
  rw [after4_19]
  unfold out4_19
  rw [View.canon_unit_zero hz]
  simp only [View.ld_unit_zero (S := S2000x64) hz, View.ld_unit_zero (S := S64x128) hz, View.ld_unit_zero (S := S1x128) hz,
    View.ld_unit_zero (S := S128x64) hz, View.ld_unit_zero (S := S1x64) hz, View.ld_unit_zero (S := S64x32) hz,
    View.ld_unit_zero (S := S1x32) hz, View.ld_unit_zero (S := S32x1) hz, View.ld_unit_zero (S := S1x1) hz]
  rw [body_apply, blk_2 V c t, blk_3 V c t, blk_4 V c t, blk_5 V c t, blk_6 V c t, blk_7 V c t, blk_8 V c t, blk_9 V c t, blk_10 V c t, blk_11 V c t, blk_12 V c t, blk_13 V c t, blk_14 V c t, blk_15 V c t, blk_16 V c t, blk_17 V c t, blk_18 V c t]
  funext j
  show mlp (N := 2000) (iblk4 V c 0 t) (iblk4 V c 1 t) (V c main_v101) (V c main_v102) (V c main_v103) (V c main_v106) (V c main_v107) (V c main_v104) (V c main_v105) (V c main_arg27) (V c main_v108) (V c main_v111) (V c main_v112) (V c main_v109) (V c main_v110) (V c main_arg33) (V c main_v113) (V c main_arg35) (V c main_v114) j
      = target V c (((cfg4.win 19).blk t).view.emb j)
  have hrow : ((((cfg4.win 19).blk t).view.emb j) 0).val = win4_19.index t (0 : Fin 2) * 2000 + (j 0).val := by
    show win4_19.index t (0 : Fin 2) * 2000 + 1 * (j 0).val = _
    omega
  exact mlp_rows _ _ _ _ _ _ _ _ _ _ _ _ _ _ _ _ _ _ _ _ _ _ _
    (fun k => blk_0_apply V c t ⟨(j 0).val, idx2_lt0 j⟩ k ⟨_, idx2_lt0 _⟩ hrow)
    (fun k => blk_1_apply V c t ⟨(j 0).val, idx2_lt0 j⟩ k ⟨_, idx2_lt0 _⟩ hrow)

/-- An index of the result is in point `t`'s block iff each coordinate is in the block's range. -/
theorem mem_blk (t : Fin cfg4.N) (i : S200000x1.Idx) :
    i ∈ ((cfg4.win 19).blk t).view.set ↔ ∀ a : Fin 2, win4_19.index t a * S2000x1.size a ≤ (i a).val ∧ (i a).val < win4_19.index t a * S2000x1.size a + S2000x1.size a := by
  show i ∈ ((View.whole main_v115).slice (win4_19.rect t)).set ↔ _
  rw [View.set_slice_whole, Rect.mem_set_unit]
  exact Iff.rfl

/-- Row `r` of the result is in the block of point `r / 2000`: the 100 blocks tile the result. -/
theorem cover (i : S200000x1.Idx) :
    ∃ t : Fin cfg4.N, (cfg4.win 19).flush t = true ∧ i ∈ ((cfg4.win 19).blk t).view.set := by
  have hi0 : (i 0).val < 200000 := (i 0).isLt
  have hi1 : (i 1).val < 1 := (i 1).isLt
  obtain ⟨t, ht⟩ := idx_onto ⟨(i 0).val / 2000, by omega⟩
  have q0 : win4_19.index t (0 : Fin 2) = (i 0).val / 2000 := congrFun ht 0
  have q1 : win4_19.index t (1 : Fin 2) = 0 := congrFun ht 1
  refine ⟨t, flush4_19 t, ?_⟩
  rw [mem_blk]
  intro a
  match a with
  | ⟨0, _⟩ => show win4_19.index t (0 : Fin 2) * 2000 ≤ (i 0).val ∧ (i 0).val < win4_19.index t (0 : Fin 2) * 2000 + 2000; omega
  | ⟨1, _⟩ => show win4_19.index t (1 : Fin 2) * 1 ≤ (i 1).val ∧ (i 1).val < win4_19.index t (1 : Fin 2) * 1 + 1; omega

/-- The result array after the region is the network on the arrays as the region finds them. -/
theorem arr_eq : (dat4 (F := Ideal) V c).arrAt 19 cfg4.N = target V c :=
  (dat4 (F := Ideal) V c).arrAt_eq_of_cover 19 (target V c) (fun t _ => flushed_eq V c t) cover

/-- THE REGION'S VALUE: with the two gathered halves at the reference's stages and every weight
    array agreeing entrywise with the reference's weight arguments, the result array after the
    region is the reference's last decode stage. -/
theorem value (x0 : (⟨Cert.ReferenceIdeal.S100000x128, .f32⟩ : BufTy).Contents (Elt Ideal)) (x1 : (⟨Cert.ReferenceIdeal.S2x1250000, .i32⟩ : BufTy).Contents (Elt Ideal)) (x2 : (⟨Cert.ReferenceIdeal.S2x200000, .i32⟩ : BufTy).Contents (Elt Ideal)) (x3 : (⟨Cert.ReferenceIdeal.S128x64, .f32⟩ : BufTy).Contents (Elt Ideal)) (x4 x5 x6 x7 x8 : (⟨Cert.ReferenceIdeal.S64, .f32⟩ : BufTy).Contents (Elt Ideal)) (x9 : (⟨Cert.ReferenceIdeal.S64x64, .f32⟩ : BufTy).Contents (Elt Ideal)) (x10 x11 x12 x13 x14 : (⟨Cert.ReferenceIdeal.S64, .f32⟩ : BufTy).Contents (Elt Ideal)) (x15 : (⟨Cert.ReferenceIdeal.S64x64, .f32⟩ : BufTy).Contents (Elt Ideal)) (x16 x17 x18 x19 x20 : (⟨Cert.ReferenceIdeal.S64, .f32⟩ : BufTy).Contents (Elt Ideal)) (x21 : (⟨Cert.ReferenceIdeal.S128x128, .f32⟩ : BufTy).Contents (Elt Ideal)) (x22 x23 x24 x25 x26 : (⟨Cert.ReferenceIdeal.S128, .f32⟩ : BufTy).Contents (Elt Ideal)) (x27 : (⟨Cert.ReferenceIdeal.S128x64, .f32⟩ : BufTy).Contents (Elt Ideal)) (x28 x29 x30 x31 x32 : (⟨Cert.ReferenceIdeal.S64, .f32⟩ : BufTy).Contents (Elt Ideal)) (x33 : (⟨Cert.ReferenceIdeal.S64x32, .f32⟩ : BufTy).Contents (Elt Ideal)) (x34 : (⟨Cert.ReferenceIdeal.S32, .f32⟩ : BufTy).Contents (Elt Ideal)) (x35 : (⟨Cert.ReferenceIdeal.S32x1, .f32⟩ : BufTy).Contents (Elt Ideal)) (x36 : (⟨Cert.ReferenceIdeal.S1, .f32⟩ : BufTy).Contents (Elt Ideal))
    (h0 : V c main_v91 = Cert.ReferenceIdeal.Read.val_main_v131 (F := Ideal) x0 x1 x2 x3 x4 x5 x6 x7 x8 x9 x10 x11 x12 x13 x14 x15 x16 x17 x18 x19 x20)
    (h1 : V c main_v100 = Cert.ReferenceIdeal.Read.val_main_v140 (F := Ideal) x0 x1 x2 x3 x4 x5 x6 x7 x8 x9 x10 x11 x12 x13 x14 x15 x16 x17 x18 x19 x20)
    (h2 : ∀ (k : Fin 64) (j : Fin 128), (V c main_v101 : S64x128.Idx → EReal) (ix2 k j) = x21 (ix2 ⟨k.val, by omega⟩ j))
    (h3 : ∀ (k : Fin 64) (j : Fin 128), (V c main_v102 : S64x128.Idx → EReal) (ix2 k j) = x21 (ix2 ⟨64 + k.val, by omega⟩ j))
    (h4 : ∀ j : Fin 128, (V c main_v103 : S1x128.Idx → EReal) (ix2 0 j) = x22 (ix1 j)) (h5 : ∀ j : Fin 128, (V c main_v104 : S1x128.Idx → EReal) (ix2 0 j) = x23 (ix1 j))
    (h6 : ∀ j : Fin 128, (V c main_v105 : S1x128.Idx → EReal) (ix2 0 j) = x24 (ix1 j)) (h7 : ∀ j : Fin 128, (V c main_v106 : S1x128.Idx → EReal) (ix2 0 j) = x25 (ix1 j))
    (h8 : ∀ j : Fin 128, (V c main_v107 : S1x128.Idx → EReal) (ix2 0 j) = x26 (ix1 j))
    (h9 : V c main_arg27 = x27)
    (h10 : ∀ j : Fin 64, (V c main_v108 : S1x64.Idx → EReal) (ix2 0 j) = x28 (ix1 j)) (h11 : ∀ j : Fin 64, (V c main_v109 : S1x64.Idx → EReal) (ix2 0 j) = x29 (ix1 j))
    (h12 : ∀ j : Fin 64, (V c main_v110 : S1x64.Idx → EReal) (ix2 0 j) = x30 (ix1 j)) (h13 : ∀ j : Fin 64, (V c main_v111 : S1x64.Idx → EReal) (ix2 0 j) = x31 (ix1 j))
    (h14 : ∀ j : Fin 64, (V c main_v112 : S1x64.Idx → EReal) (ix2 0 j) = x32 (ix1 j))
    (h15 : V c main_arg33 = x33) (h16 : ∀ j : Fin 32, (V c main_v113 : S1x32.Idx → EReal) (ix2 0 j) = x34 (ix1 j))
    (h17 : V c main_arg35 = x35) (h18 : (V c main_v114 : S1x1.Idx → EReal) (ix2 0 0) = x36 (ix1 0)) :
    (dat4 (F := Ideal) V c).arrAt 19 cfg4.N = Cert.ReferenceIdeal.Read.val_main_v190 (F := Ideal) x0 x1 x2 x3 x4 x5 x6 x7 x8 x9 x10 x11 x12 x13 x14 x15 x16 x17 x18 x19 x20 x21 x22 x23 x24 x25 x26 x27 x28 x29 x30 x31 x32 x33 x34 x35 x36 := by
  rw [arr_eq]
  unfold target
  rw [h0, h1, h9, h15, h17]
  exact (ref_eq x0 x1 x2 x3 x4 x5 x6 x7 x8 x9 x10 x11 x12 x13 x14 x15 x16 x17 x18 x19 x20 x21 x22 x23 x24 x25 x26 x27 x28 x29 x30 x31 x32 x33 x34 x35 x36 _ _ _ _ _ _ _ _ _ _ _ _ _ _ h2 h3 h4 h5 h6 h7 h8 h10 h11 h12 h13 h14 h16 h18).symm

end Cert.KernelIdeal.Region4

end
-- ==== Proof.Host0.lean ====
/- The first stretch of host operations of the kernel's @main, read for an arbitrary valuation `W`.
   From the edge list `main_arg1` (two rows of 1250000 node indices) it forms the source indices `main_v3` and the
   destination indices `main_v6`, each row followed by the 100000 self-loops `0, 1, …, 99999`; the degree of every
   node as the sum of ones over the edges that end there, its inverse square root, and for every edge the product
   `main_v27` of the inverse square roots at its two ends (indices wrapped into range when negative), as a column.
   The reference computes the same three arrays by the same operations on the same edge list, so once its stages are
   unfolded the two terms coincide operation by operation; no operation is evaluated. -/
import proofs.«104744_j77352361001295_2_alg».proof.Proof.Gen.KernelIdeal.Launch
import proofs.«104744_j77352361001295_2_alg».proof.Proof.Gen.ReferenceIdeal.Read
import Idealize.ShloMosaic.Lib.ValueLayout

noncomputable section

namespace Cert.KernelIdeal.HostStretch

open Idealize.ShloMosaic Idealize.ShloMosaic.TcCoe Idealize.SL.Sem Idealize.ShloMosaic.StableHlo

/-- The source index of every edge, self-loops included, is the reference's stage `val_main_v3` of the edge list. -/
theorem host0_v3 (W : Valuation Cert.KernelIdeal.τ Cert.KernelIdeal.sig (Elt Ideal)) :
    StableHlo.after (Cert.KernelIdeal.Gen.hostOps0 (F := Ideal)) W (Proc.devRef .tc Cert.KernelIdeal.main_v3)
      = Cert.ReferenceIdeal.Read.val_main_v3 (F := Ideal) (W (Proc.devRef .tc Cert.KernelIdeal.main_arg1)) := by
  simp only [Cert.KernelIdeal.Gen.hostOps0]
  after_results_simp
  -- the stretch's operations applied to the edge list, against the reference's stages applied to it: the same
  -- operations once the stages are unfolded
  rfl

/-- The destination index of every edge, self-loops included, is the reference's stage `val_main_v6` of the edge list. -/
theorem host0_v6 (W : Valuation Cert.KernelIdeal.τ Cert.KernelIdeal.sig (Elt Ideal)) :
    StableHlo.after (Cert.KernelIdeal.Gen.hostOps0 (F := Ideal)) W (Proc.devRef .tc Cert.KernelIdeal.main_v6)
      = Cert.ReferenceIdeal.Read.val_main_v6 (F := Ideal) (W (Proc.devRef .tc Cert.KernelIdeal.main_arg1)) := by
  simp only [Cert.KernelIdeal.Gen.hostOps0]
  after_results_simp
  -- the stretch's operations applied to the edge list, against the reference's stages applied to it: the same
  -- operations once the stages are unfolded
  rfl

/-- The normalisation of every edge — the product of the inverse square roots of the degrees at its two ends — is the
    reference's stage `val_main_v27` of the edge list. -/
theorem host0_v27 (W : Valuation Cert.KernelIdeal.τ Cert.KernelIdeal.sig (Elt Ideal)) :
    StableHlo.after (Cert.KernelIdeal.Gen.hostOps0 (F := Ideal)) W (Proc.devRef .tc Cert.KernelIdeal.main_v27)
      = Cert.ReferenceIdeal.Read.val_main_v27 (F := Ideal) (W (Proc.devRef .tc Cert.KernelIdeal.main_arg1)) := by
  simp only [Cert.KernelIdeal.Gen.hostOps0]
  after_results_simp
  -- the stretch's operations applied to the edge list, against the reference's stages applied to it: the same
  -- operations once the stages are unfolded
  rfl

end Cert.KernelIdeal.HostStretch

end
-- ==== Proof.Host1.lean ====
/- The second stretch of host operations of the kernel's @main, read for an arbitrary valuation `W`.
   It aggregates the first layer's product over the graph's edges: each edge's source row of `main_v28` (the
   source index wrapped into range when negative) is gathered, scaled by the edge's normalisation `main_v27`, and
   added into the edge's destination row of a zero array. The reference performs the same gather, product and
   scatter-add on the same operands, so once its stages are unfolded the two terms coincide operation by operation;
   no operation is evaluated. The five parameter vectors are given a leading unit axis. -/
import proofs.«104744_j77352361001295_2_alg».proof.Proof.Gen.KernelIdeal.Launch
import proofs.«104744_j77352361001295_2_alg».proof.Proof.Gen.ReferenceIdeal.Read
import Idealize.ShloMosaic.Lib.ValueLayout

noncomputable section

namespace Cert.KernelIdeal.HostStretch

open Idealize.ShloMosaic Idealize.ShloMosaic.TcCoe Idealize.SL.Sem Idealize.ShloMosaic.StableHlo

/-- The aggregated first-layer product: the stretch's scatter-add is the reference's stage `val_main_v40`, given that
    the product, the two edge-index vectors and the edge normalisation are the reference's. -/
theorem host1_v40 (W : Valuation Cert.KernelIdeal.τ Cert.KernelIdeal.sig (Elt Ideal))
    (x0 : (⟨Cert.ReferenceIdeal.S100000x128, .f32⟩ : BufTy).Contents (Elt Ideal))
    (x1 : (⟨Cert.ReferenceIdeal.S2x1250000, .i32⟩ : BufTy).Contents (Elt Ideal))
    (x3 : (⟨Cert.ReferenceIdeal.S128x64, .f32⟩ : BufTy).Contents (Elt Ideal))
    (h28 : W (Proc.devRef .tc Cert.KernelIdeal.main_v28) = Cert.ReferenceIdeal.Read.val_main_v28 (F := Ideal) x0 x3)
    (h3 : W (Proc.devRef .tc Cert.KernelIdeal.main_v3) = Cert.ReferenceIdeal.Read.val_main_v3 (F := Ideal) x1)
    (h6 : W (Proc.devRef .tc Cert.KernelIdeal.main_v6) = Cert.ReferenceIdeal.Read.val_main_v6 (F := Ideal) x1)
    (h27 : W (Proc.devRef .tc Cert.KernelIdeal.main_v27) = Cert.ReferenceIdeal.Read.val_main_v27 (F := Ideal) x1) :
    StableHlo.after (Cert.KernelIdeal.Gen.hostOps1 (F := Ideal)) W (Proc.devRef .tc Cert.KernelIdeal.main_v40)
      = Cert.ReferenceIdeal.Read.val_main_v40 (F := Ideal) x0 x1 x3 := by
  simp only [Cert.KernelIdeal.Gen.hostOps1]
  after_results_simp
  rw [h28, h3, h6, h27]
  -- both sides are now the same gather, product and scatter-add of the same operands, one naming the kernel's
  -- printed records and one the reference's; the reference's stages unfold to it
  rfl

/-- The row `main_v41` is the vector `main_arg4` given a leading unit axis: at `(0, k)` it holds the vector's entry `k`. -/
theorem host1_v41 (W : Valuation Cert.KernelIdeal.τ Cert.KernelIdeal.sig (Elt Ideal)) (k : Fin 64) :
    (StableHlo.after (Cert.KernelIdeal.Gen.hostOps1 (F := Ideal)) W (Proc.devRef .tc Cert.KernelIdeal.main_v41) : Cert.KernelIdeal.S1x64.Idx → EReal) (ValueIdx.ix2 0 k)
      = W (Proc.devRef .tc Cert.KernelIdeal.main_arg4) (ValueIdx.ix1 k) := by
  simp only [Cert.KernelIdeal.Gen.hostOps1]
  after_results
  exact ValueIdx.shapeCast_a_1a_apply (a := 64) (W (Proc.devRef .tc Cert.KernelIdeal.main_arg4)) Cert.KernelIdeal.Gen.shapeCasts_S64_S1x64 0 k

/-- The row `main_v42` is the vector `main_arg5` given a leading unit axis: at `(0, k)` it holds the vector's entry `k`. -/
theorem host1_v42 (W : Valuation Cert.KernelIdeal.τ Cert.KernelIdeal.sig (Elt Ideal)) (k : Fin 64) :
    (StableHlo.after (Cert.KernelIdeal.Gen.hostOps1 (F := Ideal)) W (Proc.devRef .tc Cert.KernelIdeal.main_v42) : Cert.KernelIdeal.S1x64.Idx → EReal) (ValueIdx.ix2 0 k)
      = W (Proc.devRef .tc Cert.KernelIdeal.main_arg5) (ValueIdx.ix1 k) := by
  simp only [Cert.KernelIdeal.Gen.hostOps1]
  after_results
  exact ValueIdx.shapeCast_a_1a_apply (a := 64) (W (Proc.devRef .tc Cert.KernelIdeal.main_arg5)) Cert.KernelIdeal.Gen.shapeCasts_S64_S1x64 0 k

/-- The row `main_v43` is the vector `main_arg6` given a leading unit axis: at `(0, k)` it holds the vector's entry `k`. -/
theorem host1_v43 (W : Valuation Cert.KernelIdeal.τ Cert.KernelIdeal.sig (Elt Ideal)) (k : Fin 64) :
    (StableHlo.after (Cert.KernelIdeal.Gen.hostOps1 (F := Ideal)) W (Proc.devRef .tc Cert.KernelIdeal.main_v43) : Cert.KernelIdeal.S1x64.Idx → EReal) (ValueIdx.ix2 0 k)
      = W (Proc.devRef .tc Cert.KernelIdeal.main_arg6) (ValueIdx.ix1 k) := by
  simp only [Cert.KernelIdeal.Gen.hostOps1]
  after_results
  exact ValueIdx.shapeCast_a_1a_apply (a := 64) (W (Proc.devRef .tc Cert.KernelIdeal.main_arg6)) Cert.KernelIdeal.Gen.shapeCasts_S64_S1x64 0 k

/-- The row `main_v44` is the vector `main_arg7` given a leading unit axis: at `(0, k)` it holds the vector's entry `k`. -/
theorem host1_v44 (W : Valuation Cert.KernelIdeal.τ Cert.KernelIdeal.sig (Elt Ideal)) (k : Fin 64) :
    (StableHlo.after (Cert.KernelIdeal.Gen.hostOps1 (F := Ideal)) W (Proc.devRef .tc Cert.KernelIdeal.main_v44) : Cert.KernelIdeal.S1x64.Idx → EReal) (ValueIdx.ix2 0 k)
      = W (Proc.devRef .tc Cert.KernelIdeal.main_arg7) (ValueIdx.ix1 k) := by
  simp only [Cert.KernelIdeal.Gen.hostOps1]
  after_results
  exact ValueIdx.shapeCast_a_1a_apply (a := 64) (W (Proc.devRef .tc Cert.KernelIdeal.main_arg7)) Cert.KernelIdeal.Gen.shapeCasts_S64_S1x64 0 k

/-- The row `main_v45` is the vector `main_arg8` given a leading unit axis: at `(0, k)` it holds the vector's entry `k`. -/
theorem host1_v45 (W : Valuation Cert.KernelIdeal.τ Cert.KernelIdeal.sig (Elt Ideal)) (k : Fin 64) :
    (StableHlo.after (Cert.KernelIdeal.Gen.hostOps1 (F := Ideal)) W (Proc.devRef .tc Cert.KernelIdeal.main_v45) : Cert.KernelIdeal.S1x64.Idx → EReal) (ValueIdx.ix2 0 k)
      = W (Proc.devRef .tc Cert.KernelIdeal.main_arg8) (ValueIdx.ix1 k) := by
  simp only [Cert.KernelIdeal.Gen.hostOps1]
  after_results
  exact ValueIdx.shapeCast_a_1a_apply (a := 64) (W (Proc.devRef .tc Cert.KernelIdeal.main_arg8)) Cert.KernelIdeal.Gen.shapeCasts_S64_S1x64 0 k

end Cert.KernelIdeal.HostStretch

end
-- ==== Proof.Host2.lean ====
/- The third stretch of host operations of the kernel's @main, read for an arbitrary valuation `W`.
   It aggregates the second layer's product `main_v46` over the graph's edges exactly as the second stretch does the
   first layer's: gather each edge's source row (the source index wrapped into range when negative), scale it by the
   edge's normalisation `main_v27`, add it into the edge's destination row of a zero array. The reference performs the
   same operations on the same operands, so once its stages are unfolded the two terms coincide; no operation is
   evaluated. The five parameter vectors of the next layer are given a leading unit axis. -/
import proofs.«104744_j77352361001295_2_alg».proof.Proof.Gen.KernelIdeal.Launch
import proofs.«104744_j77352361001295_2_alg».proof.Proof.Gen.ReferenceIdeal.Read
import Idealize.ShloMosaic.Lib.ValueLayout

noncomputable section

namespace Cert.KernelIdeal.HostStretch

open Idealize.ShloMosaic Idealize.ShloMosaic.TcCoe Idealize.SL.Sem Idealize.ShloMosaic.StableHlo

/-- The aggregated second-layer product: the stretch's scatter-add is the reference's stage `val_main_v72`, given that
    the product, the two edge-index vectors and the edge normalisation are the reference's. -/
theorem host2_v58 (W : Valuation Cert.KernelIdeal.τ Cert.KernelIdeal.sig (Elt Ideal))
    (x0 : (⟨Cert.ReferenceIdeal.S100000x128, .f32⟩ : BufTy).Contents (Elt Ideal))
    (x1 : (⟨Cert.ReferenceIdeal.S2x1250000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64, .f32⟩ : BufTy).Contents (Elt Ideal))
    (x6 : (⟨Cert.ReferenceIdeal.S64, .f32⟩ : BufTy).Contents (Elt Ideal))
    (x7 : (⟨Cert.ReferenceIdeal.S64, .f32⟩ : BufTy).Contents (Elt Ideal))
    (x8 : (⟨Cert.ReferenceIdeal.S64, .f32⟩ : BufTy).Contents (Elt Ideal))
    (x9 : (⟨Cert.ReferenceIdeal.S64x64, .f32⟩ : BufTy).Contents (Elt Ideal))
    (h46 : W (Proc.devRef .tc Cert.KernelIdeal.main_v46) = Cert.ReferenceIdeal.Read.val_main_v60 (F := Ideal) x0 x1 x3 x4 x5 x6 x7 x8 x9)
    (h3 : W (Proc.devRef .tc Cert.KernelIdeal.main_v3) = Cert.ReferenceIdeal.Read.val_main_v3 (F := Ideal) x1)
    (h6 : W (Proc.devRef .tc Cert.KernelIdeal.main_v6) = Cert.ReferenceIdeal.Read.val_main_v6 (F := Ideal) x1)
    (h27 : W (Proc.devRef .tc Cert.KernelIdeal.main_v27) = Cert.ReferenceIdeal.Read.val_main_v27 (F := Ideal) x1) :
    StableHlo.after (Cert.KernelIdeal.Gen.hostOps2 (F := Ideal)) W (Proc.devRef .tc Cert.KernelIdeal.main_v58)
      = Cert.ReferenceIdeal.Read.val_main_v72 (F := Ideal) x0 x1 x3 x4 x5 x6 x7 x8 x9 := by
  simp only [Cert.KernelIdeal.Gen.hostOps2]
  after_results_simp
  rw [h46, h3, h6, h27]
  -- both sides are now the same gather, product and scatter-add of the same operands, one naming the kernel's
  -- printed records and one the reference's; the reference's stages unfold to it
  rfl

/-- The row `main_v59` is the vector `main_arg10` given a leading unit axis: at `(0, k)` it holds the vector's entry `k`. -/
theorem host2_v59 (W : Valuation Cert.KernelIdeal.τ Cert.KernelIdeal.sig (Elt Ideal)) (k : Fin 64) :
    (StableHlo.after (Cert.KernelIdeal.Gen.hostOps2 (F := Ideal)) W (Proc.devRef .tc Cert.KernelIdeal.main_v59) : Cert.KernelIdeal.S1x64.Idx → EReal) (ValueIdx.ix2 0 k)
      = W (Proc.devRef .tc Cert.KernelIdeal.main_arg10) (ValueIdx.ix1 k) := by
  simp only [Cert.KernelIdeal.Gen.hostOps2]
  after_results
  exact ValueIdx.shapeCast_a_1a_apply (a := 64) (W (Proc.devRef .tc Cert.KernelIdeal.main_arg10)) Cert.KernelIdeal.Gen.shapeCasts_S64_S1x64 0 k

/-- The row `main_v60` is the vector `main_arg11` given a leading unit axis: at `(0, k)` it holds the vector's entry `k`. -/
theorem host2_v60 (W : Valuation Cert.KernelIdeal.τ Cert.KernelIdeal.sig (Elt Ideal)) (k : Fin 64) :
    (StableHlo.after (Cert.KernelIdeal.Gen.hostOps2 (F := Ideal)) W (Proc.devRef .tc Cert.KernelIdeal.main_v60) : Cert.KernelIdeal.S1x64.Idx → EReal) (ValueIdx.ix2 0 k)
      = W (Proc.devRef .tc Cert.KernelIdeal.main_arg11) (ValueIdx.ix1 k) := by
  simp only [Cert.KernelIdeal.Gen.hostOps2]
  after_results
  exact ValueIdx.shapeCast_a_1a_apply (a := 64) (W (Proc.devRef .tc Cert.KernelIdeal.main_arg11)) Cert.KernelIdeal.Gen.shapeCasts_S64_S1x64 0 k

/-- The row `main_v61` is the vector `main_arg12` given a leading unit axis: at `(0, k)` it holds the vector's entry `k`. -/
theorem host2_v61 (W : Valuation Cert.KernelIdeal.τ Cert.KernelIdeal.sig (Elt Ideal)) (k : Fin 64) :
    (StableHlo.after (Cert.KernelIdeal.Gen.hostOps2 (F := Ideal)) W (Proc.devRef .tc Cert.KernelIdeal.main_v61) : Cert.KernelIdeal.S1x64.Idx → EReal) (ValueIdx.ix2 0 k)
      = W (Proc.devRef .tc Cert.KernelIdeal.main_arg12) (ValueIdx.ix1 k) := by
  simp only [Cert.KernelIdeal.Gen.hostOps2]
  after_results
  exact ValueIdx.shapeCast_a_1a_apply (a := 64) (W (Proc.devRef .tc Cert.KernelIdeal.main_arg12)) Cert.KernelIdeal.Gen.shapeCasts_S64_S1x64 0 k

/-- The row `main_v62` is the vector `main_arg13` given a leading unit axis: at `(0, k)` it holds the vector's entry `k`. -/
theorem host2_v62 (W : Valuation Cert.KernelIdeal.τ Cert.KernelIdeal.sig (Elt Ideal)) (k : Fin 64) :
    (StableHlo.after (Cert.KernelIdeal.Gen.hostOps2 (F := Ideal)) W (Proc.devRef .tc Cert.KernelIdeal.main_v62) : Cert.KernelIdeal.S1x64.Idx → EReal) (ValueIdx.ix2 0 k)
      = W (Proc.devRef .tc Cert.KernelIdeal.main_arg13) (ValueIdx.ix1 k) := by
  simp only [Cert.KernelIdeal.Gen.hostOps2]
  after_results
  exact ValueIdx.shapeCast_a_1a_apply (a := 64) (W (Proc.devRef .tc Cert.KernelIdeal.main_arg13)) Cert.KernelIdeal.Gen.shapeCasts_S64_S1x64 0 k

/-- The row `main_v63` is the vector `main_arg14` given a leading unit axis: at `(0, k)` it holds the vector's entry `k`. -/
theorem host2_v63 (W : Valuation Cert.KernelIdeal.τ Cert.KernelIdeal.sig (Elt Ideal)) (k : Fin 64) :
    (StableHlo.after (Cert.KernelIdeal.Gen.hostOps2 (F := Ideal)) W (Proc.devRef .tc Cert.KernelIdeal.main_v63) : Cert.KernelIdeal.S1x64.Idx → EReal) (ValueIdx.ix2 0 k)
      = W (Proc.devRef .tc Cert.KernelIdeal.main_arg14) (ValueIdx.ix1 k) := by
  simp only [Cert.KernelIdeal.Gen.hostOps2]
  after_results
  exact ValueIdx.shapeCast_a_1a_apply (a := 64) (W (Proc.devRef .tc Cert.KernelIdeal.main_arg14)) Cert.KernelIdeal.Gen.shapeCasts_S64_S1x64 0 k

end Cert.KernelIdeal.HostStretch

end
-- ==== Proof.Host3.lean ====
/- The fourth stretch of host operations of the kernel's @main, read for an arbitrary valuation `W`.
   It aggregates the third layer's product `main_v64` over the graph's edges as the two stretches before it do:
   gather each edge's source row (the source index wrapped into range when negative), scale it by the edge's
   normalisation `main_v27`, add it into the edge's destination row of a zero array. The reference performs the same
   operations on the same operands, so once its stages are unfolded the two terms coincide; no operation is evaluated.
   The five parameter vectors of the last normalisation are given a leading unit axis. -/
import proofs.«104744_j77352361001295_2_alg».proof.Proof.Gen.KernelIdeal.Launch
import proofs.«104744_j77352361001295_2_alg».proof.Proof.Gen.ReferenceIdeal.Read
import Idealize.ShloMosaic.Lib.ValueLayout

noncomputable section

namespace Cert.KernelIdeal.HostStretch

open Idealize.ShloMosaic Idealize.ShloMosaic.TcCoe Idealize.SL.Sem Idealize.ShloMosaic.StableHlo

/-- The aggregated third-layer product: the stretch's scatter-add is the reference's stage `val_main_v104`, given that
    the product, the two edge-index vectors and the edge normalisation are the reference's. -/
theorem host3_v76 (W : Valuation Cert.KernelIdeal.τ Cert.KernelIdeal.sig (Elt Ideal))
    (x0 : (⟨Cert.ReferenceIdeal.S100000x128, .f32⟩ : BufTy).Contents (Elt Ideal))
    (x1 : (⟨Cert.ReferenceIdeal.S2x1250000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64, .f32⟩ : BufTy).Contents (Elt Ideal))
    (x6 : (⟨Cert.ReferenceIdeal.S64, .f32⟩ : BufTy).Contents (Elt Ideal))
    (x7 : (⟨Cert.ReferenceIdeal.S64, .f32⟩ : BufTy).Contents (Elt Ideal))
    (x8 : (⟨Cert.ReferenceIdeal.S64, .f32⟩ : BufTy).Contents (Elt Ideal))
    (x9 : (⟨Cert.ReferenceIdeal.S64x64, .f32⟩ : BufTy).Contents (Elt Ideal))
    (x10 : (⟨Cert.ReferenceIdeal.S64, .f32⟩ : BufTy).Contents (Elt Ideal))
    (x11 : (⟨Cert.ReferenceIdeal.S64, .f32⟩ : BufTy).Contents (Elt Ideal))
    (x12 : (⟨Cert.ReferenceIdeal.S64, .f32⟩ : BufTy).Contents (Elt Ideal))
    (x13 : (⟨Cert.ReferenceIdeal.S64, .f32⟩ : BufTy).Contents (Elt Ideal))
    (x14 : (⟨Cert.ReferenceIdeal.S64, .f32⟩ : BufTy).Contents (Elt Ideal))
    (x15 : (⟨Cert.ReferenceIdeal.S64x64, .f32⟩ : BufTy).Contents (Elt Ideal))
    (h64 : W (Proc.devRef .tc Cert.KernelIdeal.main_v64) = Cert.ReferenceIdeal.Read.val_main_v92 (F := Ideal) x0 x1 x3 x4 x5 x6 x7 x8 x9 x10 x11 x12 x13 x14 x15)
    (h3 : W (Proc.devRef .tc Cert.KernelIdeal.main_v3) = Cert.ReferenceIdeal.Read.val_main_v3 (F := Ideal) x1)
    (h6 : W (Proc.devRef .tc Cert.KernelIdeal.main_v6) = Cert.ReferenceIdeal.Read.val_main_v6 (F := Ideal) x1)
    (h27 : W (Proc.devRef .tc Cert.KernelIdeal.main_v27) = Cert.ReferenceIdeal.Read.val_main_v27 (F := Ideal) x1) :
    StableHlo.after (Cert.KernelIdeal.Gen.hostOps3 (F := Ideal)) W (Proc.devRef .tc Cert.KernelIdeal.main_v76)
      = Cert.ReferenceIdeal.Read.val_main_v104 (F := Ideal) x0 x1 x3 x4 x5 x6 x7 x8 x9 x10 x11 x12 x13 x14 x15 := by
  simp only [Cert.KernelIdeal.Gen.hostOps3]
  after_results_simp
  rw [h64, h3, h6, h27]
  -- both sides are now the same gather, product and scatter-add of the same operands, one naming the kernel's
  -- printed records and one the reference's; the reference's stages unfold to it
  rfl

/-- The row `main_v77` is the vector `main_arg16` given a leading unit axis: at `(0, k)` it holds the vector's entry `k`. -/
theorem host3_v77 (W : Valuation Cert.KernelIdeal.τ Cert.KernelIdeal.sig (Elt Ideal)) (k : Fin 64) :
    (StableHlo.after (Cert.KernelIdeal.Gen.hostOps3 (F := Ideal)) W (Proc.devRef .tc Cert.KernelIdeal.main_v77) : Cert.KernelIdeal.S1x64.Idx → EReal) (ValueIdx.ix2 0 k)
      = W (Proc.devRef .tc Cert.KernelIdeal.main_arg16) (ValueIdx.ix1 k) := by
  simp only [Cert.KernelIdeal.Gen.hostOps3]
  after_results
  exact ValueIdx.shapeCast_a_1a_apply (a := 64) (W (Proc.devRef .tc Cert.KernelIdeal.main_arg16)) Cert.KernelIdeal.Gen.shapeCasts_S64_S1x64 0 k

/-- The row `main_v78` is the vector `main_arg17` given a leading unit axis: at `(0, k)` it holds the vector's entry `k`. -/
theorem host3_v78 (W : Valuation Cert.KernelIdeal.τ Cert.KernelIdeal.sig (Elt Ideal)) (k : Fin 64) :
    (StableHlo.after (Cert.KernelIdeal.Gen.hostOps3 (F := Ideal)) W (Proc.devRef .tc Cert.KernelIdeal.main_v78) : Cert.KernelIdeal.S1x64.Idx → EReal) (ValueIdx.ix2 0 k)
      = W (Proc.devRef .tc Cert.KernelIdeal.main_arg17) (ValueIdx.ix1 k) := by
  simp only [Cert.KernelIdeal.Gen.hostOps3]
  after_results
  exact ValueIdx.shapeCast_a_1a_apply (a := 64) (W (Proc.devRef .tc Cert.KernelIdeal.main_arg17)) Cert.KernelIdeal.Gen.shapeCasts_S64_S1x64 0 k

/-- The row `main_v79` is the vector `main_arg18` given a leading unit axis: at `(0, k)` it holds the vector's entry `k`. -/
theorem host3_v79 (W : Valuation Cert.KernelIdeal.τ Cert.KernelIdeal.sig (Elt Ideal)) (k : Fin 64) :
    (StableHlo.after (Cert.KernelIdeal.Gen.hostOps3 (F := Ideal)) W (Proc.devRef .tc Cert.KernelIdeal.main_v79) : Cert.KernelIdeal.S1x64.Idx → EReal) (ValueIdx.ix2 0 k)
      = W (Proc.devRef .tc Cert.KernelIdeal.main_arg18) (ValueIdx.ix1 k) := by
  simp only [Cert.KernelIdeal.Gen.hostOps3]
  after_results
  exact ValueIdx.shapeCast_a_1a_apply (a := 64) (W (Proc.devRef .tc Cert.KernelIdeal.main_arg18)) Cert.KernelIdeal.Gen.shapeCasts_S64_S1x64 0 k

/-- The row `main_v80` is the vector `main_arg19` given a leading unit axis: at `(0, k)` it holds the vector's entry `k`. -/
theorem host3_v80 (W : Valuation Cert.KernelIdeal.τ Cert.KernelIdeal.sig (Elt Ideal)) (k : Fin 64) :
    (StableHlo.after (Cert.KernelIdeal.Gen.hostOps3 (F := Ideal)) W (Proc.devRef .tc Cert.KernelIdeal.main_v80) : Cert.KernelIdeal.S1x64.Idx → EReal) (ValueIdx.ix2 0 k)
      = W (Proc.devRef .tc Cert.KernelIdeal.main_arg19) (ValueIdx.ix1 k) := by
  simp only [Cert.KernelIdeal.Gen.hostOps3]
  after_results
  exact ValueIdx.shapeCast_a_1a_apply (a := 64) (W (Proc.devRef .tc Cert.KernelIdeal.main_arg19)) Cert.KernelIdeal.Gen.shapeCasts_S64_S1x64 0 k

/-- The row `main_v81` is the vector `main_arg20` given a leading unit axis: at `(0, k)` it holds the vector's entry `k`. -/
theorem host3_v81 (W : Valuation Cert.KernelIdeal.τ Cert.KernelIdeal.sig (Elt Ideal)) (k : Fin 64) :
    (StableHlo.after (Cert.KernelIdeal.Gen.hostOps3 (F := Ideal)) W (Proc.devRef .tc Cert.KernelIdeal.main_v81) : Cert.KernelIdeal.S1x64.Idx → EReal) (ValueIdx.ix2 0 k)
      = W (Proc.devRef .tc Cert.KernelIdeal.main_arg20) (ValueIdx.ix1 k) := by
  simp only [Cert.KernelIdeal.Gen.hostOps3]
  after_results
  exact ValueIdx.shapeCast_a_1a_apply (a := 64) (W (Proc.devRef .tc Cert.KernelIdeal.main_arg20)) Cert.KernelIdeal.Gen.shapeCasts_S64_S1x64 0 k

end Cert.KernelIdeal.HostStretch

end
-- ==== Proof.Host4.lean ====
/- The fifth stretch of host operations of the kernel's @main, read for an arbitrary valuation `W`.
   From the list `main_arg2` of 200000 node pairs it gathers, for each pair, the row of the normalised third-layer
   output `main_v82` at the pair's first node (`main_v91`) and at its second (`main_v100`), the node indices wrapped
   into range when negative; the reference gathers the same rows of the same array at the same indices, so once its
   stages are unfolded the two terms coincide and no gather is evaluated. The decoder's first weight matrix
   `main_arg21` (128 rows) is cut into its upper and lower 64 rows, and the decoder's parameter vectors are given a
   leading unit axis. -/
import proofs.«104744_j77352361001295_2_alg».proof.Proof.Gen.KernelIdeal.Launch
import proofs.«104744_j77352361001295_2_alg».proof.Proof.Gen.ReferenceIdeal.Read
import Idealize.ShloMosaic.Lib.ValueLayout

noncomputable section

namespace Cert.KernelIdeal.HostStretch

open Idealize.ShloMosaic Idealize.ShloMosaic.TcCoe Idealize.SL.Sem Idealize.ShloMosaic.StableHlo

/-- The rows gathered at each pair's first node are the reference's stage `val_main_v131`. -/
theorem host4_v91 (W : Valuation Cert.KernelIdeal.τ Cert.KernelIdeal.sig (Elt Ideal))
    (x0 : (⟨Cert.ReferenceIdeal.S100000x128, .f32⟩ : BufTy).Contents (Elt Ideal))
    (x1 : (⟨Cert.ReferenceIdeal.S2x1250000, .i32⟩ : BufTy).Contents (Elt Ideal))
    (x2 : (⟨Cert.ReferenceIdeal.S2x200000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64, .f32⟩ : BufTy).Contents (Elt Ideal))
    (x6 : (⟨Cert.ReferenceIdeal.S64, .f32⟩ : BufTy).Contents (Elt Ideal))
    (x7 : (⟨Cert.ReferenceIdeal.S64, .f32⟩ : BufTy).Contents (Elt Ideal))
    (x8 : (⟨Cert.ReferenceIdeal.S64, .f32⟩ : BufTy).Contents (Elt Ideal))
    (x9 : (⟨Cert.ReferenceIdeal.S64x64, .f32⟩ : BufTy).Contents (Elt Ideal))
    (x10 : (⟨Cert.ReferenceIdeal.S64, .f32⟩ : BufTy).Contents (Elt Ideal))
    (x11 : (⟨Cert.ReferenceIdeal.S64, .f32⟩ : BufTy).Contents (Elt Ideal))
    (x12 : (⟨Cert.ReferenceIdeal.S64, .f32⟩ : BufTy).Contents (Elt Ideal))
    (x13 : (⟨Cert.ReferenceIdeal.S64, .f32⟩ : BufTy).Contents (Elt Ideal))
    (x14 : (⟨Cert.ReferenceIdeal.S64, .f32⟩ : BufTy).Contents (Elt Ideal))
    (x15 : (⟨Cert.ReferenceIdeal.S64x64, .f32⟩ : BufTy).Contents (Elt Ideal))
    (x16 : (⟨Cert.ReferenceIdeal.S64, .f32⟩ : BufTy).Contents (Elt Ideal))
    (x17 : (⟨Cert.ReferenceIdeal.S64, .f32⟩ : BufTy).Contents (Elt Ideal))
    (x18 : (⟨Cert.ReferenceIdeal.S64, .f32⟩ : BufTy).Contents (Elt Ideal))
    (x19 : (⟨Cert.ReferenceIdeal.S64, .f32⟩ : BufTy).Contents (Elt Ideal))
    (x20 : (⟨Cert.ReferenceIdeal.S64, .f32⟩ : BufTy).Contents (Elt Ideal))
    (h82 : W (Proc.devRef .tc Cert.KernelIdeal.main_v82) = Cert.ReferenceIdeal.Read.val_main_v122 (F := Ideal) x0 x1 x3 x4 x5 x6 x7 x8 x9 x10 x11 x12 x13 x14 x15 x16 x17 x18 x19 x20)
    (h2 : W (Proc.devRef .tc Cert.KernelIdeal.main_arg2) = x2) :
    StableHlo.after (Cert.KernelIdeal.Gen.hostOps4 (F := Ideal)) W (Proc.devRef .tc Cert.KernelIdeal.main_v91)
      = Cert.ReferenceIdeal.Read.val_main_v131 (F := Ideal) x0 x1 x2 x3 x4 x5 x6 x7 x8 x9 x10 x11 x12 x13 x14 x15 x16 x17 x18 x19 x20 := by
  simp only [Cert.KernelIdeal.Gen.hostOps4]
  after_results_simp
  rw [h82, h2]
  -- both sides gather the same rows of the same array at the same wrapped indices; the reference's stages unfold to it
  rfl

/-- The rows gathered at each pair's second node are the reference's stage `val_main_v140`. -/
theorem host4_v100 (W : Valuation Cert.KernelIdeal.τ Cert.KernelIdeal.sig (Elt Ideal))
    (x0 : (⟨Cert.ReferenceIdeal.S100000x128, .f32⟩ : BufTy).Contents (Elt Ideal))
    (x1 : (⟨Cert.ReferenceIdeal.S2x1250000, .i32⟩ : BufTy).Contents (Elt Ideal))
    (x2 : (⟨Cert.ReferenceIdeal.S2x200000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64, .f32⟩ : BufTy).Contents (Elt Ideal))
    (x6 : (⟨Cert.ReferenceIdeal.S64, .f32⟩ : BufTy).Contents (Elt Ideal))
    (x7 : (⟨Cert.ReferenceIdeal.S64, .f32⟩ : BufTy).Contents (Elt Ideal))
    (x8 : (⟨Cert.ReferenceIdeal.S64, .f32⟩ : BufTy).Contents (Elt Ideal))
    (x9 : (⟨Cert.ReferenceIdeal.S64x64, .f32⟩ : BufTy).Contents (Elt Ideal))
    (x10 : (⟨Cert.ReferenceIdeal.S64, .f32⟩ : BufTy).Contents (Elt Ideal))
    (x11 : (⟨Cert.ReferenceIdeal.S64, .f32⟩ : BufTy).Contents (Elt Ideal))
    (x12 : (⟨Cert.ReferenceIdeal.S64, .f32⟩ : BufTy).Contents (Elt Ideal))
    (x13 : (⟨Cert.ReferenceIdeal.S64, .f32⟩ : BufTy).Contents (Elt Ideal))
    (x14 : (⟨Cert.ReferenceIdeal.S64, .f32⟩ : BufTy).Contents (Elt Ideal))
    (x15 : (⟨Cert.ReferenceIdeal.S64x64, .f32⟩ : BufTy).Contents (Elt Ideal))
    (x16 : (⟨Cert.ReferenceIdeal.S64, .f32⟩ : BufTy).Contents (Elt Ideal))
    (x17 : (⟨Cert.ReferenceIdeal.S64, .f32⟩ : BufTy).Contents (Elt Ideal))
    (x18 : (⟨Cert.ReferenceIdeal.S64, .f32⟩ : BufTy).Contents (Elt Ideal))
    (x19 : (⟨Cert.ReferenceIdeal.S64, .f32⟩ : BufTy).Contents (Elt Ideal))
    (x20 : (⟨Cert.ReferenceIdeal.S64, .f32⟩ : BufTy).Contents (Elt Ideal))
    (h82 : W (Proc.devRef .tc Cert.KernelIdeal.main_v82) = Cert.ReferenceIdeal.Read.val_main_v122 (F := Ideal) x0 x1 x3 x4 x5 x6 x7 x8 x9 x10 x11 x12 x13 x14 x15 x16 x17 x18 x19 x20)
    (h2 : W (Proc.devRef .tc Cert.KernelIdeal.main_arg2) = x2) :
    StableHlo.after (Cert.KernelIdeal.Gen.hostOps4 (F := Ideal)) W (Proc.devRef .tc Cert.KernelIdeal.main_v100)
      = Cert.ReferenceIdeal.Read.val_main_v140 (F := Ideal) x0 x1 x2 x3 x4 x5 x6 x7 x8 x9 x10 x11 x12 x13 x14 x15 x16 x17 x18 x19 x20 := by
  simp only [Cert.KernelIdeal.Gen.hostOps4]
  after_results_simp
  rw [h82, h2]
  -- both sides gather the same rows of the same array at the same wrapped indices; the reference's stages unfold to it
  rfl

/-- The upper half of the weight matrix: row `k` of `main_v101` is row `k` of `main_arg21`. -/
theorem host4_v101 (W : Valuation Cert.KernelIdeal.τ Cert.KernelIdeal.sig (Elt Ideal)) (k : Fin 64) (j : Fin 128) :
    (StableHlo.after (Cert.KernelIdeal.Gen.hostOps4 (F := Ideal)) W (Proc.devRef .tc Cert.KernelIdeal.main_v101) : Cert.KernelIdeal.S64x128.Idx → EReal) (ValueIdx.ix2 k j)
      = (W (Proc.devRef .tc Cert.KernelIdeal.main_arg21) : Cert.KernelIdeal.S128x128.Idx → EReal) (ValueIdx.ix2 (⟨k.val, by omega⟩ : Fin 128) j) := by
  simp only [Cert.KernelIdeal.Gen.hostOps4]
  after_results
  exact extractStridedSlice_apply ![0, 0] (W (Proc.devRef .tc Cert.KernelIdeal.main_arg21)) Cert.KernelIdeal.Gen.slices_S128x128_S64x128_0_0
    (ValueIdx.ix2 k j) (ValueIdx.ix2 (⟨k.val, by omega⟩ : Fin 128) j) (fun a => match a with
      | ⟨0, _⟩ => by show k.val = 0 + k.val; omega
      | ⟨1, _⟩ => by show j.val = 0 + j.val; omega)

/-- The lower half of the weight matrix: row `k` of `main_v102` is row `64 + k` of `main_arg21`. -/
theorem host4_v102 (W : Valuation Cert.KernelIdeal.τ Cert.KernelIdeal.sig (Elt Ideal)) (k : Fin 64) (j : Fin 128) :
    (StableHlo.after (Cert.KernelIdeal.Gen.hostOps4 (F := Ideal)) W (Proc.devRef .tc Cert.KernelIdeal.main_v102) : Cert.KernelIdeal.S64x128.Idx → EReal) (ValueIdx.ix2 k j)
      = (W (Proc.devRef .tc Cert.KernelIdeal.main_arg21) : Cert.KernelIdeal.S128x128.Idx → EReal) (ValueIdx.ix2 (⟨64 + k.val, by omega⟩ : Fin 128) j) := by
  simp only [Cert.KernelIdeal.Gen.hostOps4]
  after_results
  exact extractStridedSlice_apply ![64, 0] (W (Proc.devRef .tc Cert.KernelIdeal.main_arg21)) Cert.KernelIdeal.Gen.slices_S128x128_S64x128_64_0
    (ValueIdx.ix2 k j) (ValueIdx.ix2 (⟨64 + k.val, by omega⟩ : Fin 128) j) (fun a => match a with
      | ⟨0, _⟩ => by show 64 + k.val = 64 + k.val; omega
      | ⟨1, _⟩ => by show j.val = 0 + j.val; omega)

/-- The row `main_v103` is the vector `main_arg22` given a leading unit axis: at `(0, j)` it holds the vector's entry `j`. -/
theorem host4_v103 (W : Valuation Cert.KernelIdeal.τ Cert.KernelIdeal.sig (Elt Ideal)) (j : Fin 128) :
    (StableHlo.after (Cert.KernelIdeal.Gen.hostOps4 (F := Ideal)) W (Proc.devRef .tc Cert.KernelIdeal.main_v103) : Cert.KernelIdeal.S1x128.Idx → EReal) (ValueIdx.ix2 0 j)
      = W (Proc.devRef .tc Cert.KernelIdeal.main_arg22) (ValueIdx.ix1 j) := by
  simp only [Cert.KernelIdeal.Gen.hostOps4]
  after_results
  exact ValueIdx.shapeCast_a_1a_apply (a := 128) (W (Proc.devRef .tc Cert.KernelIdeal.main_arg22)) Cert.KernelIdeal.Gen.shapeCasts_S128_S1x128 0 j

/-- The row `main_v104` is the vector `main_arg23` given a leading unit axis: at `(0, j)` it holds the vector's entry `j`. -/
theorem host4_v104 (W : Valuation Cert.KernelIdeal.τ Cert.KernelIdeal.sig (Elt Ideal)) (j : Fin 128) :
    (StableHlo.after (Cert.KernelIdeal.Gen.hostOps4 (F := Ideal)) W (Proc.devRef .tc Cert.KernelIdeal.main_v104) : Cert.KernelIdeal.S1x128.Idx → EReal) (ValueIdx.ix2 0 j)
      = W (Proc.devRef .tc Cert.KernelIdeal.main_arg23) (ValueIdx.ix1 j) := by
  simp only [Cert.KernelIdeal.Gen.hostOps4]
  after_results
  exact ValueIdx.shapeCast_a_1a_apply (a := 128) (W (Proc.devRef .tc Cert.KernelIdeal.main_arg23)) Cert.KernelIdeal.Gen.shapeCasts_S128_S1x128 0 j

/-- The row `main_v105` is the vector `main_arg24` given a leading unit axis: at `(0, j)` it holds the vector's entry `j`. -/
theorem host4_v105 (W : Valuation Cert.KernelIdeal.τ Cert.KernelIdeal.sig (Elt Ideal)) (j : Fin 128) :
    (StableHlo.after (Cert.KernelIdeal.Gen.hostOps4 (F := Ideal)) W (Proc.devRef .tc Cert.KernelIdeal.main_v105) : Cert.KernelIdeal.S1x128.Idx → EReal) (ValueIdx.ix2 0 j)
      = W (Proc.devRef .tc Cert.KernelIdeal.main_arg24) (ValueIdx.ix1 j) := by
  simp only [Cert.KernelIdeal.Gen.hostOps4]
  after_results
  exact ValueIdx.shapeCast_a_1a_apply (a := 128) (W (Proc.devRef .tc Cert.KernelIdeal.main_arg24)) Cert.KernelIdeal.Gen.shapeCasts_S128_S1x128 0 j

/-- The row `main_v106` is the vector `main_arg25` given a leading unit axis: at `(0, j)` it holds the vector's entry `j`. -/
theorem host4_v106 (W : Valuation Cert.KernelIdeal.τ Cert.KernelIdeal.sig (Elt Ideal)) (j : Fin 128) :
    (StableHlo.after (Cert.KernelIdeal.Gen.hostOps4 (F := Ideal)) W (Proc.devRef .tc Cert.KernelIdeal.main_v106) : Cert.KernelIdeal.S1x128.Idx → EReal) (ValueIdx.ix2 0 j)
      = W (Proc.devRef .tc Cert.KernelIdeal.main_arg25) (ValueIdx.ix1 j) := by
  simp only [Cert.KernelIdeal.Gen.hostOps4]
  after_results
  exact ValueIdx.shapeCast_a_1a_apply (a := 128) (W (Proc.devRef .tc Cert.KernelIdeal.main_arg25)) Cert.KernelIdeal.Gen.shapeCasts_S128_S1x128 0 j

/-- The row `main_v107` is the vector `main_arg26` given a leading unit axis: at `(0, j)` it holds the vector's entry `j`. -/
theorem host4_v107 (W : Valuation Cert.KernelIdeal.τ Cert.KernelIdeal.sig (Elt Ideal)) (j : Fin 128) :
    (StableHlo.after (Cert.KernelIdeal.Gen.hostOps4 (F := Ideal)) W (Proc.devRef .tc Cert.KernelIdeal.main_v107) : Cert.KernelIdeal.S1x128.Idx → EReal) (ValueIdx.ix2 0 j)
      = W (Proc.devRef .tc Cert.KernelIdeal.main_arg26) (ValueIdx.ix1 j) := by
  simp only [Cert.KernelIdeal.Gen.hostOps4]
  after_results
  exact ValueIdx.shapeCast_a_1a_apply (a := 128) (W (Proc.devRef .tc Cert.KernelIdeal.main_arg26)) Cert.KernelIdeal.Gen.shapeCasts_S128_S1x128 0 j

/-- The row `main_v108` is the vector `main_arg28` given a leading unit axis: at `(0, j)` it holds the vector's entry `j`. -/
theorem host4_v108 (W : Valuation Cert.KernelIdeal.τ Cert.KernelIdeal.sig (Elt Ideal)) (j : Fin 64) :
    (StableHlo.after (Cert.KernelIdeal.Gen.hostOps4 (F := Ideal)) W (Proc.devRef .tc Cert.KernelIdeal.main_v108) : Cert.KernelIdeal.S1x64.Idx → EReal) (ValueIdx.ix2 0 j)
      = W (Proc.devRef .tc Cert.KernelIdeal.main_arg28) (ValueIdx.ix1 j) := by
  simp only [Cert.KernelIdeal.Gen.hostOps4]
  after_results
  exact ValueIdx.shapeCast_a_1a_apply (a := 64) (W (Proc.devRef .tc Cert.KernelIdeal.main_arg28)) Cert.KernelIdeal.Gen.shapeCasts_S64_S1x64 0 j

/-- The row `main_v109` is the vector `main_arg29` given a leading unit axis: at `(0, j)` it holds the vector's entry `j`. -/
theorem host4_v109 (W : Valuation Cert.KernelIdeal.τ Cert.KernelIdeal.sig (Elt Ideal)) (j : Fin 64) :
    (StableHlo.after (Cert.KernelIdeal.Gen.hostOps4 (F := Ideal)) W (Proc.devRef .tc Cert.KernelIdeal.main_v109) : Cert.KernelIdeal.S1x64.Idx → EReal) (ValueIdx.ix2 0 j)
      = W (Proc.devRef .tc Cert.KernelIdeal.main_arg29) (ValueIdx.ix1 j) := by
  simp only [Cert.KernelIdeal.Gen.hostOps4]
  after_results
  exact ValueIdx.shapeCast_a_1a_apply (a := 64) (W (Proc.devRef .tc Cert.KernelIdeal.main_arg29)) Cert.KernelIdeal.Gen.shapeCasts_S64_S1x64 0 j

/-- The row `main_v110` is the vector `main_arg30` given a leading unit axis: at `(0, j)` it holds the vector's entry `j`. -/
theorem host4_v110 (W : Valuation Cert.KernelIdeal.τ Cert.KernelIdeal.sig (Elt Ideal)) (j : Fin 64) :
    (StableHlo.after (Cert.KernelIdeal.Gen.hostOps4 (F := Ideal)) W (Proc.devRef .tc Cert.KernelIdeal.main_v110) : Cert.KernelIdeal.S1x64.Idx → EReal) (ValueIdx.ix2 0 j)
      = W (Proc.devRef .tc Cert.KernelIdeal.main_arg30) (ValueIdx.ix1 j) := by
  simp only [Cert.KernelIdeal.Gen.hostOps4]
  after_results
  exact ValueIdx.shapeCast_a_1a_apply (a := 64) (W (Proc.devRef .tc Cert.KernelIdeal.main_arg30)) Cert.KernelIdeal.Gen.shapeCasts_S64_S1x64 0 j

/-- The row `main_v111` is the vector `main_arg31` given a leading unit axis: at `(0, j)` it holds the vector's entry `j`. -/
theorem host4_v111 (W : Valuation Cert.KernelIdeal.τ Cert.KernelIdeal.sig (Elt Ideal)) (j : Fin 64) :
    (StableHlo.after (Cert.KernelIdeal.Gen.hostOps4 (F := Ideal)) W (Proc.devRef .tc Cert.KernelIdeal.main_v111) : Cert.KernelIdeal.S1x64.Idx → EReal) (ValueIdx.ix2 0 j)
      = W (Proc.devRef .tc Cert.KernelIdeal.main_arg31) (ValueIdx.ix1 j) := by
  simp only [Cert.KernelIdeal.Gen.hostOps4]
  after_results
  exact ValueIdx.shapeCast_a_1a_apply (a := 64) (W (Proc.devRef .tc Cert.KernelIdeal.main_arg31)) Cert.KernelIdeal.Gen.shapeCasts_S64_S1x64 0 j

/-- The row `main_v112` is the vector `main_arg32` given a leading unit axis: at `(0, j)` it holds the vector's entry `j`. -/
theorem host4_v112 (W : Valuation Cert.KernelIdeal.τ Cert.KernelIdeal.sig (Elt Ideal)) (j : Fin 64) :
    (StableHlo.after (Cert.KernelIdeal.Gen.hostOps4 (F := Ideal)) W (Proc.devRef .tc Cert.KernelIdeal.main_v112) : Cert.KernelIdeal.S1x64.Idx → EReal) (ValueIdx.ix2 0 j)
      = W (Proc.devRef .tc Cert.KernelIdeal.main_arg32) (ValueIdx.ix1 j) := by
  simp only [Cert.KernelIdeal.Gen.hostOps4]
  after_results
  exact ValueIdx.shapeCast_a_1a_apply (a := 64) (W (Proc.devRef .tc Cert.KernelIdeal.main_arg32)) Cert.KernelIdeal.Gen.shapeCasts_S64_S1x64 0 j

/-- The row `main_v113` is the vector `main_arg34` given a leading unit axis: at `(0, j)` it holds the vector's entry `j`. -/
theorem host4_v113 (W : Valuation Cert.KernelIdeal.τ Cert.KernelIdeal.sig (Elt Ideal)) (j : Fin 32) :
    (StableHlo.after (Cert.KernelIdeal.Gen.hostOps4 (F := Ideal)) W (Proc.devRef .tc Cert.KernelIdeal.main_v113) : Cert.KernelIdeal.S1x32.Idx → EReal) (ValueIdx.ix2 0 j)
      = W (Proc.devRef .tc Cert.KernelIdeal.main_arg34) (ValueIdx.ix1 j) := by
  simp only [Cert.KernelIdeal.Gen.hostOps4]
  after_results
  exact ValueIdx.shapeCast_a_1a_apply (a := 32) (W (Proc.devRef .tc Cert.KernelIdeal.main_arg34)) Cert.KernelIdeal.Gen.shapeCasts_S32_S1x32 0 j

/-- The one-entry row `main_v114` is the one-entry vector `main_arg36` given a leading unit axis. -/
theorem host4_v114 (W : Valuation Cert.KernelIdeal.τ Cert.KernelIdeal.sig (Elt Ideal)) :
    (StableHlo.after (Cert.KernelIdeal.Gen.hostOps4 (F := Ideal)) W (Proc.devRef .tc Cert.KernelIdeal.main_v114) : Cert.KernelIdeal.S1x1.Idx → EReal) (ValueIdx.ix2 0 0)
      = W (Proc.devRef .tc Cert.KernelIdeal.main_arg36) (ValueIdx.ix1 0) := by
  simp only [Cert.KernelIdeal.Gen.hostOps4]
  after_results
  exact ValueIdx.shapeCast_a_1a_apply (a := 1) (W (Proc.devRef .tc Cert.KernelIdeal.main_arg36)) Cert.KernelIdeal.Gen.shapeCasts_S1_S1x1 0 0

end Cert.KernelIdeal.HostStretch

end
-- ==== Proof.Host5.lean ====
/- The last stretch of host operations of the kernel's @main, read for an arbitrary valuation `W`: the decoder's
   column of 200000 scores with its unit axis dropped. The reference ends with the same cast of its own column. -/
import proofs.«104744_j77352361001295_2_alg».proof.Proof.Gen.KernelIdeal.Launch
import proofs.«104744_j77352361001295_2_alg».proof.Proof.Gen.ReferenceIdeal.Read
import Idealize.ShloMosaic.Lib.ValueLayout

noncomputable section

namespace Cert.KernelIdeal.HostStretch

open Idealize.ShloMosaic Idealize.ShloMosaic.TcCoe Idealize.SL.Sem Idealize.ShloMosaic.StableHlo

/-- The kernel's result is the reference's: the same cast of a column that is the reference's column. -/
theorem host5_v116 (W : Valuation Cert.KernelIdeal.τ Cert.KernelIdeal.sig (Elt Ideal))
    (x0 : (⟨Cert.ReferenceIdeal.S100000x128, .f32⟩ : BufTy).Contents (Elt Ideal))
    (x1 : (⟨Cert.ReferenceIdeal.S2x1250000, .i32⟩ : BufTy).Contents (Elt Ideal))
    (x2 : (⟨Cert.ReferenceIdeal.S2x200000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64, .f32⟩ : BufTy).Contents (Elt Ideal))
    (x6 : (⟨Cert.ReferenceIdeal.S64, .f32⟩ : BufTy).Contents (Elt Ideal))
    (x7 : (⟨Cert.ReferenceIdeal.S64, .f32⟩ : BufTy).Contents (Elt Ideal))
    (x8 : (⟨Cert.ReferenceIdeal.S64, .f32⟩ : BufTy).Contents (Elt Ideal))
    (x9 : (⟨Cert.ReferenceIdeal.S64x64, .f32⟩ : BufTy).Contents (Elt Ideal))
    (x10 : (⟨Cert.ReferenceIdeal.S64, .f32⟩ : BufTy).Contents (Elt Ideal))
    (x11 : (⟨Cert.ReferenceIdeal.S64, .f32⟩ : BufTy).Contents (Elt Ideal))
    (x12 : (⟨Cert.ReferenceIdeal.S64, .f32⟩ : BufTy).Contents (Elt Ideal))
    (x13 : (⟨Cert.ReferenceIdeal.S64, .f32⟩ : BufTy).Contents (Elt Ideal))
    (x14 : (⟨Cert.ReferenceIdeal.S64, .f32⟩ : BufTy).Contents (Elt Ideal))
    (x15 : (⟨Cert.ReferenceIdeal.S64x64, .f32⟩ : BufTy).Contents (Elt Ideal))
    (x16 : (⟨Cert.ReferenceIdeal.S64, .f32⟩ : BufTy).Contents (Elt Ideal))
    (x17 : (⟨Cert.ReferenceIdeal.S64, .f32⟩ : BufTy).Contents (Elt Ideal))
    (x18 : (⟨Cert.ReferenceIdeal.S64, .f32⟩ : BufTy).Contents (Elt Ideal))
    (x19 : (⟨Cert.ReferenceIdeal.S64, .f32⟩ : BufTy).Contents (Elt Ideal))
    (x20 : (⟨Cert.ReferenceIdeal.S64, .f32⟩ : BufTy).Contents (Elt Ideal))
    (x21 : (⟨Cert.ReferenceIdeal.S128x128, .f32⟩ : BufTy).Contents (Elt Ideal))
    (x22 : (⟨Cert.ReferenceIdeal.S128, .f32⟩ : BufTy).Contents (Elt Ideal))
    (x23 : (⟨Cert.ReferenceIdeal.S128, .f32⟩ : BufTy).Contents (Elt Ideal))
    (x24 : (⟨Cert.ReferenceIdeal.S128, .f32⟩ : BufTy).Contents (Elt Ideal))
    (x25 : (⟨Cert.ReferenceIdeal.S128, .f32⟩ : BufTy).Contents (Elt Ideal))
    (x26 : (⟨Cert.ReferenceIdeal.S128, .f32⟩ : BufTy).Contents (Elt Ideal))
    (x27 : (⟨Cert.ReferenceIdeal.S128x64, .f32⟩ : BufTy).Contents (Elt Ideal))
    (x28 : (⟨Cert.ReferenceIdeal.S64, .f32⟩ : BufTy).Contents (Elt Ideal))
    (x29 : (⟨Cert.ReferenceIdeal.S64, .f32⟩ : BufTy).Contents (Elt Ideal))
    (x30 : (⟨Cert.ReferenceIdeal.S64, .f32⟩ : BufTy).Contents (Elt Ideal))
    (x31 : (⟨Cert.ReferenceIdeal.S64, .f32⟩ : BufTy).Contents (Elt Ideal))
    (x32 : (⟨Cert.ReferenceIdeal.S64, .f32⟩ : BufTy).Contents (Elt Ideal))
    (x33 : (⟨Cert.ReferenceIdeal.S64x32, .f32⟩ : BufTy).Contents (Elt Ideal))
    (x34 : (⟨Cert.ReferenceIdeal.S32, .f32⟩ : BufTy).Contents (Elt Ideal))
    (x35 : (⟨Cert.ReferenceIdeal.S32x1, .f32⟩ : BufTy).Contents (Elt Ideal))
    (x36 : (⟨Cert.ReferenceIdeal.S1, .f32⟩ : BufTy).Contents (Elt Ideal))
    (h : W (Proc.devRef .tc Cert.KernelIdeal.main_v115) = Cert.ReferenceIdeal.Read.val_main_v190 (F := Ideal) x0 x1 x2 x3 x4 x5 x6 x7 x8 x9 x10 x11 x12 x13 x14 x15 x16 x17 x18 x19 x20 x21 x22 x23 x24 x25 x26 x27 x28 x29 x30 x31 x32 x33 x34 x35 x36) :
    StableHlo.after (Cert.KernelIdeal.Gen.hostOps5 (F := Ideal)) W (Proc.devRef .tc Cert.KernelIdeal.main_v116)
      = Cert.ReferenceIdeal.Read.val_main_v191 (F := Ideal) x0 x1 x2 x3 x4 x5 x6 x7 x8 x9 x10 x11 x12 x13 x14 x15 x16 x17 x18 x19 x20 x21 x22 x23 x24 x25 x26 x27 x28 x29 x30 x31 x32 x33 x34 x35 x36 := by
  simp only [Cert.KernelIdeal.Gen.hostOps5]
  after_results
  rw [h]
  rfl

end Cert.KernelIdeal.HostStretch

end
-- ==== Proof.Chain.lean ====
/-
  The kernel's result, read through the eleven segments.  Going down @main, each buffer that matters is identified
  with the reference's stage of the same meaning, as a function of the launch contents of the argument arrays:
  the projection x·W0 the first region leaves; its aggregation over the edges (the stretch after it: gather of the
  source rows, scaling by the edge weights, scatter-add into the target rows — the very operations of the reference);
  the second and third regions' outputs relu(bn(agg + b))·W; their aggregations; the fourth region's bn(agg + b);
  the two gathered halves of the label edges; the decode network's output column; and its re-laying as a vector.
  Each region step uses that region's value lemma at the region's entry contents, each stretch step the stretch read
  back, and the persistence equations supply what the untouched buffers hold at each boundary.
-/
import proofs.«104744_j77352361001295_2_alg».proof.Proof.KRun
import proofs.«104744_j77352361001295_2_alg».proof.Proof.KeepAll
import proofs.«104744_j77352361001295_2_alg».proof.Proof.Region0
import proofs.«104744_j77352361001295_2_alg».proof.Proof.Region1
import proofs.«104744_j77352361001295_2_alg».proof.Proof.Region2
import proofs.«104744_j77352361001295_2_alg».proof.Proof.Region3
import proofs.«104744_j77352361001295_2_alg».proof.Proof.Region4
import proofs.«104744_j77352361001295_2_alg».proof.Proof.Host0
import proofs.«104744_j77352361001295_2_alg».proof.Proof.Host1
import proofs.«104744_j77352361001295_2_alg».proof.Proof.Host2
import proofs.«104744_j77352361001295_2_alg».proof.Proof.Host3
import proofs.«104744_j77352361001295_2_alg».proof.Proof.Host4
import proofs.«104744_j77352361001295_2_alg».proof.Proof.Host5

set_option maxRecDepth 16384

noncomputable section

namespace Cert.KernelIdeal.Whole

open Cert.KernelIdeal Cert.KernelIdeal.Gen
open Idealize.ShloMosaic Idealize.ShloMosaic.TcCoe

open Cert.ReferenceIdeal.Read Cert.KernelIdeal.HostStretch Idealize.ShloMosaic.ValueIdx Idealize.SL.Sem

variable (m : (ℓ : Loc nD τ sig) → Buf (Elt Ideal) ℓ) (ρ : Dev nD → PrngReg) (c : Dev nD)

/-! ## Before the first region: the index lists and the edge weights -/

theorem b1_v3 : W1 m ρ c (Proc.devRef .tc main_v3) = val_main_v3 (F := Ideal) (m ((c : Thread nD τ).loc main_arg1)) := host0_v3 (W0 m ρ c)
theorem b1_v6 : W1 m ρ c (Proc.devRef .tc main_v6) = val_main_v6 (F := Ideal) (m ((c : Thread nD τ).loc main_arg1)) := host0_v6 (W0 m ρ c)
theorem b1_v27 : W1 m ρ c (Proc.devRef .tc main_v27) = val_main_v27 (F := Ideal) (m ((c : Thread nD τ).loc main_arg1)) := host0_v27 (W0 m ρ c)

/-! ## Layer 1 -/

theorem f28 : W2 m ρ c (Proc.devRef .tc main_v28) = val_main_v28 (F := Ideal) (m ((c : Thread nD τ).loc main_arg0)) (m ((c : Thread nD τ).loc main_arg3)) :=
  (W2_arr m ρ c 2).trans (Region0.value (V1 m ρ) c _ _ (W1_arg0 m ρ c) (W1_arg3 m ρ c))

theorem f40 : W3 m ρ c (Proc.devRef .tc main_v40) = val_main_v40 (F := Ideal) (m ((c : Thread nD τ).loc main_arg0)) (m ((c : Thread nD τ).loc main_arg1)) (m ((c : Thread nD τ).loc main_arg3)) :=
  host1_v40 (W2 m ρ c) _ _ _ (f28 m ρ c) ((W2_v3 m ρ c).trans (b1_v3 m ρ c)) ((W2_v6 m ρ c).trans (b1_v6 m ρ c)) ((W2_v27 m ρ c).trans (b1_v27 m ρ c))
theorem f41 (k : Fin 64) : (W3 m ρ c (Proc.devRef .tc main_v41) : S1x64.Idx → EReal) (ix2 0 k) = (m ((c : Thread nD τ).loc main_arg4)) (ix1 k) :=
  (host1_v41 (W2 m ρ c) k).trans (by rw [W2_arg4])
theorem f42 (k : Fin 64) : (W3 m ρ c (Proc.devRef .tc main_v42) : S1x64.Idx → EReal) (ix2 0 k) = (m ((c : Thread nD τ).loc main_arg5)) (ix1 k) :=
  (host1_v42 (W2 m ρ c) k).trans (by rw [W2_arg5])
theorem f43 (k : Fin 64) : (W3 m ρ c (Proc.devRef .tc main_v43) : S1x64.Idx → EReal) (ix2 0 k) = (m ((c : Thread nD τ).loc main_arg6)) (ix1 k) :=
  (host1_v43 (W2 m ρ c) k).trans (by rw [W2_arg6])
theorem f44 (k : Fin 64) : (W3 m ρ c (Proc.devRef .tc main_v44) : S1x64.Idx → EReal) (ix2 0 k) = (m ((c : Thread nD τ).loc main_arg7)) (ix1 k) :=
  (host1_v44 (W2 m ρ c) k).trans (by rw [W2_arg7])
theorem f45 (k : Fin 64) : (W3 m ρ c (Proc.devRef .tc main_v45) : S1x64.Idx → EReal) (ix2 0 k) = (m ((c : Thread nD τ).loc main_arg8)) (ix1 k) :=
  (host1_v45 (W2 m ρ c) k).trans (by rw [W2_arg8])

theorem f46 : W4 m ρ c (Proc.devRef .tc main_v46) = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 7).trans (Region1.value (V3 m ρ) c _ _ _ _ _ _ _ _ _ (f40 m ρ c) (f41 m ρ c) (f42 m ρ c) (f43 m ρ c) (f44 m ρ c) (f45 m ρ c) (W3_arg9 m ρ c))

/-! ## Layer 2 -/

theorem f58 : W5 m ρ c (Proc.devRef .tc main_v58) = val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  host2_v58 (W4 m ρ c) _ _ _ _ _ _ _ _ _ (f46 m ρ c) ((W4_v3 m ρ c).trans (b1_v3 m ρ c)) ((W4_v6 m ρ c).trans (b1_v6 m ρ c)) ((W4_v27 m ρ c).trans (b1_v27 m ρ c))
theorem f59 (k : Fin 64) : (W5 m ρ c (Proc.devRef .tc main_v59) : S1x64.Idx → EReal) (ix2 0 k) = (m ((c : Thread nD τ).loc main_arg10)) (ix1 k) :=
  (host2_v59 (W4 m ρ c) k).trans (by rw [W4_arg10])
theorem f60 (k : Fin 64) : (W5 m ρ c (Proc.devRef .tc main_v60) : S1x64.Idx → EReal) (ix2 0 k) = (m ((c : Thread nD τ).loc main_arg11)) (ix1 k) :=
  (host2_v60 (W4 m ρ c) k).trans (by rw [W4_arg11])
theorem f61 (k : Fin 64) : (W5 m ρ c (Proc.devRef .tc main_v61) : S1x64.Idx → EReal) (ix2 0 k) = (m ((c : Thread nD τ).loc main_arg12)) (ix1 k) :=
  (host2_v61 (W4 m ρ c) k).trans (by rw [W4_arg12])
theorem f62 (k : Fin 64) : (W5 m ρ c (Proc.devRef .tc main_v62) : S1x64.Idx → EReal) (ix2 0 k) = (m ((c : Thread nD τ).loc main_arg13)) (ix1 k) :=
  (host2_v62 (W4 m ρ c) k).trans (by rw [W4_arg13])
theorem f63 (k : Fin 64) : (W5 m ρ c (Proc.devRef .tc main_v63) : S1x64.Idx → EReal) (ix2 0 k) = (m ((c : Thread nD τ).loc main_arg14)) (ix1 k) :=
  (host2_v63 (W4 m ρ c) k).trans (by rw [W4_arg14])

theorem f64 : W6 m ρ c (Proc.devRef .tc main_v64) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W6_arr m ρ c 7).trans (Region2.value (V5 m ρ) c _ _ _ _ _ _ _ _ _ _ _ _ _ _ _ (f58 m ρ c) (f59 m ρ c) (f60 m ρ c) (f61 m ρ c) (f62 m ρ c) (f63 m ρ c) (W5_arg15 m ρ c))

/-! ## Layer 3 -/

theorem f76 : W7 m ρ c (Proc.devRef .tc main_v76) = val_main_v104 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  host3_v76 (W6 m ρ c) _ _ _ _ _ _ _ _ _ _ _ _ _ _ _ (f64 m ρ c) ((W6_v3 m ρ c).trans (b1_v3 m ρ c)) ((W6_v6 m ρ c).trans (b1_v6 m ρ c)) ((W6_v27 m ρ c).trans (b1_v27 m ρ c))
theorem f77 (k : Fin 64) : (W7 m ρ c (Proc.devRef .tc main_v77) : S1x64.Idx → EReal) (ix2 0 k) = (m ((c : Thread nD τ).loc main_arg16)) (ix1 k) :=
  (host3_v77 (W6 m ρ c) k).trans (by rw [W6_arg16])
theorem f78 (k : Fin 64) : (W7 m ρ c (Proc.devRef .tc main_v78) : S1x64.Idx → EReal) (ix2 0 k) = (m ((c : Thread nD τ).loc main_arg17)) (ix1 k) :=
  (host3_v78 (W6 m ρ c) k).trans (by rw [W6_arg17])
theorem f79 (k : Fin 64) : (W7 m ρ c (Proc.devRef .tc main_v79) : S1x64.Idx → EReal) (ix2 0 k) = (m ((c : Thread nD τ).loc main_arg18)) (ix1 k) :=
  (host3_v79 (W6 m ρ c) k).trans (by rw [W6_arg18])
theorem f80 (k : Fin 64) : (W7 m ρ c (Proc.devRef .tc main_v80) : S1x64.Idx → EReal) (ix2 0 k) = (m ((c : Thread nD τ).loc main_arg19)) (ix1 k) :=
  (host3_v80 (W6 m ρ c) k).trans (by rw [W6_arg19])
theorem f81 (k : Fin 64) : (W7 m ρ c (Proc.devRef .tc main_v81) : S1x64.Idx → EReal) (ix2 0 k) = (m ((c : Thread nD τ).loc main_arg20)) (ix1 k) :=
  (host3_v81 (W6 m ρ c) k).trans (by rw [W6_arg20])

theorem f82 : W8 m ρ c (Proc.devRef .tc main_v82) = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (W8_arr m ρ c 6).trans (Region3.value (V7 m ρ) c _ _ _ _ _ _ _ _ _ _ _ _ _ _ _ _ _ _ _ _ (f76 m ρ c) (f77 m ρ c) (f78 m ρ c) (f79 m ρ c) (f80 m ρ c) (f81 m ρ c))

/-! ## The decode network -/

theorem f91 : W9 m ρ c (Proc.devRef .tc main_v91) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  host4_v91 (W8 m ρ c) _ _ _ _ _ _ _ _ _ _ _ _ _ _ _ _ _ _ _ _ _ (f82 m ρ c) (W8_arg2 m ρ c)
theorem f100 : W9 m ρ c (Proc.devRef .tc main_v100) = val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  host4_v100 (W8 m ρ c) _ _ _ _ _ _ _ _ _ _ _ _ _ _ _ _ _ _ _ _ _ (f82 m ρ c) (W8_arg2 m ρ c)
theorem f101 (k : Fin 64) (j : Fin 128) : (W9 m ρ c (Proc.devRef .tc main_v101) : S64x128.Idx → EReal) (ix2 k j) = (m ((c : Thread nD τ).loc main_arg21)) (ix2 ⟨k.val, by omega⟩ j) :=
  (host4_v101 (W8 m ρ c) k j).trans (by rw [W8_arg21])
theorem f102 (k : Fin 64) (j : Fin 128) : (W9 m ρ c (Proc.devRef .tc main_v102) : S64x128.Idx → EReal) (ix2 k j) = (m ((c : Thread nD τ).loc main_arg21)) (ix2 ⟨64 + k.val, by omega⟩ j) :=
  (host4_v102 (W8 m ρ c) k j).trans (by rw [W8_arg21])
theorem f103 (k : Fin 128) : (W9 m ρ c (Proc.devRef .tc main_v103) : S1x128.Idx → EReal) (ix2 0 k) = (m ((c : Thread nD τ).loc main_arg22)) (ix1 k) :=
  (host4_v103 (W8 m ρ c) k).trans (by rw [W8_arg22])
theorem f104 (k : Fin 128) : (W9 m ρ c (Proc.devRef .tc main_v104) : S1x128.Idx → EReal) (ix2 0 k) = (m ((c : Thread nD τ).loc main_arg23)) (ix1 k) :=
  (host4_v104 (W8 m ρ c) k).trans (by rw [W8_arg23])
theorem f105 (k : Fin 128) : (W9 m ρ c (Proc.devRef .tc main_v105) : S1x128.Idx → EReal) (ix2 0 k) = (m ((c : Thread nD τ).loc main_arg24)) (ix1 k) :=
  (host4_v105 (W8 m ρ c) k).trans (by rw [W8_arg24])
theorem f106 (k : Fin 128) : (W9 m ρ c (Proc.devRef .tc main_v106) : S1x128.Idx → EReal) (ix2 0 k) = (m ((c : Thread nD τ).loc main_arg25)) (ix1 k) :=
  (host4_v106 (W8 m ρ c) k).trans (by rw [W8_arg25])
theorem f107 (k : Fin 128) : (W9 m ρ c (Proc.devRef .tc main_v107) : S1x128.Idx → EReal) (ix2 0 k) = (m ((c : Thread nD τ).loc main_arg26)) (ix1 k) :=
  (host4_v107 (W8 m ρ c) k).trans (by rw [W8_arg26])
theorem f108 (k : Fin 64) : (W9 m ρ c (Proc.devRef .tc main_v108) : S1x64.Idx → EReal) (ix2 0 k) = (m ((c : Thread nD τ).loc main_arg28)) (ix1 k) :=
  (host4_v108 (W8 m ρ c) k).trans (by rw [W8_arg28])
theorem f109 (k : Fin 64) : (W9 m ρ c (Proc.devRef .tc main_v109) : S1x64.Idx → EReal) (ix2 0 k) = (m ((c : Thread nD τ).loc main_arg29)) (ix1 k) :=
  (host4_v109 (W8 m ρ c) k).trans (by rw [W8_arg29])
theorem f110 (k : Fin 64) : (W9 m ρ c (Proc.devRef .tc main_v110) : S1x64.Idx → EReal) (ix2 0 k) = (m ((c : Thread nD τ).loc main_arg30)) (ix1 k) :=
  (host4_v110 (W8 m ρ c) k).trans (by rw [W8_arg30])
theorem f111 (k : Fin 64) : (W9 m ρ c (Proc.devRef .tc main_v111) : S1x64.Idx → EReal) (ix2 0 k) = (m ((c : Thread nD τ).loc main_arg31)) (ix1 k) :=
  (host4_v111 (W8 m ρ c) k).trans (by rw [W8_arg31])
theorem f112 (k : Fin 64) : (W9 m ρ c (Proc.devRef .tc main_v112) : S1x64.Idx → EReal) (ix2 0 k) = (m ((c : Thread nD τ).loc main_arg32)) (ix1 k) :=
  (host4_v112 (W8 m ρ c) k).trans (by rw [W8_arg32])
theorem f113 (k : Fin 32) : (W9 m ρ c (Proc.devRef .tc main_v113) : S1x32.Idx → EReal) (ix2 0 k) = (m ((c : Thread nD τ).loc main_arg34)) (ix1 k) :=
  (host4_v113 (W8 m ρ c) k).trans (by rw [W8_arg34])
theorem f114 : (W9 m ρ c (Proc.devRef .tc main_v114) : S1x1.Idx → EReal) (ix2 0 0) = (m ((c : Thread nD τ).loc main_arg36)) (ix1 0) :=
  (host4_v114 (W8 m ρ c)).trans (by rw [W8_arg36])

theorem f115 : W10 m ρ c (Proc.devRef .tc main_v115) = val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) :=
  (W10_arr m ρ c 19).trans (Region4.value (V9 m ρ) c _ _ _ _ _ _ _ _ _ _ _ _ _ _ _ _ _ _ _ _ _ _ _ _ _ _ _ _ _ _ _ _ _ _ _ _ _ (f91 m ρ c) (f100 m ρ c) (f101 m ρ c) (f102 m ρ c)
    (f103 m ρ c) (f104 m ρ c) (f105 m ρ c) (f106 m ρ c) (f107 m ρ c) (W9_arg27 m ρ c)
    (f108 m ρ c) (f109 m ρ c) (f110 m ρ c) (f111 m ρ c) (f112 m ρ c) (W9_arg33 m ρ c) (f113 m ρ c) (W9_arg35 m ρ c) (f114 m ρ c))

theorem f116 : W11 m ρ c (Proc.devRef .tc main_v116) = val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) :=
  host5_v116 (W10 m ρ c) _ _ _ _ _ _ _ _ _ _ _ _ _ _ _ _ _ _ _ _ _ _ _ _ _ _ _ _ _ _ _ _ _ _ _ _ _ (f115 m ρ c)

/-! ## The run -/

/-- Every weakly fair execution of the kernel's @main terminates without a fault, with the result vector at the
    reference's last stage of the launch contents of the arguments, and the arguments as launched. -/
theorem kernel_value : θ_run defs (onTc (τ := τ) (main (F := Ideal))) ⟨m, fun _ => 0, ρ⟩ (fun r => ∀ c : Dev nD,
      r.2.mem ((c.tc : Thread nD τ).loc main_v116) = val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c =>
    ⟨(h c _ (mem_uc main_v116 (by decide))).trans (f116 m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c),
     (h c _ (mem_uc main_arg17 (by decide))).trans (W11_main_arg17 m ρ c),
     (h c _ (mem_uc main_arg18 (by decide))).trans (W11_main_arg18 m ρ c),
     (h c _ (mem_uc main_arg19 (by decide))).trans (W11_main_arg19 m ρ c),
     (h c _ (mem_uc main_arg20 (by decide))).trans (W11_main_arg20 m ρ c),
     (h c _ (mem_uc main_arg21 (by decide))).trans (W11_main_arg21 m ρ c),
     (h c _ (mem_uc main_arg22 (by decide))).trans (W11_main_arg22 m ρ c),
     (h c _ (mem_uc main_arg23 (by decide))).trans (W11_main_arg23 m ρ c),
     (h c _ (mem_uc main_arg24 (by decide))).trans (W11_main_arg24 m ρ c),
     (h c _ (mem_uc main_arg25 (by decide))).trans (W11_main_arg25 m ρ c),
     (h c _ (mem_uc main_arg26 (by decide))).trans (W11_main_arg26 m ρ c),
     (h c _ (mem_uc main_arg27 (by decide))).trans (W11_main_arg27 m ρ c),
     (h c _ (mem_uc main_arg28 (by decide))).trans (W11_main_arg28 m ρ c),
     (h c _ (mem_uc main_arg29 (by decide))).trans (W11_main_arg29 m ρ c),
     (h c _ (mem_uc main_arg30 (by decide))).trans (W11_main_arg30 m ρ c),
     (h c _ (mem_uc main_arg31 (by decide))).trans (W11_main_arg31 m ρ c),
     (h c _ (mem_uc main_arg32 (by decide))).trans (W11_main_arg32 m ρ c),
     (h c _ (mem_uc main_arg33 (by decide))).trans (W11_main_arg33 m ρ c),
     (h c _ (mem_uc main_arg34 (by decide))).trans (W11_main_arg34 m ρ c),
     (h c _ (mem_uc main_arg35 (by decide))).trans (W11_main_arg35 m ρ c),
     (h c _ (mem_uc main_arg36 (by decide))).trans (W11_main_arg36 m ρ c)⟩)
    (run_all m ρ)

end Cert.KernelIdeal.Whole

end
-- ==== Proof.lean ====
/-
  A three-layer graph convolution network followed by a four-layer decode network, on 100000 nodes with 128
  features, 1250000 edges (plus one self-loop per node) and 200000 label edges.

  Both programs compute, for every label edge (s, t), the number
      out(s,t) = relu(relu(bn(relu(bn([h_s | h_t]·pW1 + pb1))·pW2 + pb2))·pW3 + pb3)·pW4 + pb4,
  where h = bn(A(relu(bn(A(relu(bn(A(x·W0) + b0))·W1) + b1))·W2) + b2), A is the aggregation over the edges — gather the
  source rows, scale each by the edge weight rsqrt(deg src)·rsqrt(deg dst), add into the target rows — and
  bn(z) = (z − m)·rsqrt(v + ε)·g + β column by column.  The kernel does the dense steps in five grid regions (the
  products x·W0, relu(bn(agg + b))·W, the last normalisation, and the whole decode network on blocks of rows), fusing each
  layer's bias and normalisation into the next product and feeding the two gathered halves h_s, h_t to the first decode
  product separately against the two halves of pW1; the reference does everything with whole-array operations and
  joins the halves before the product.  On the extended reals a change of float format is the identity, a product
  accumulated into zero is the plain sum of products, and a sum over the 128 joined columns is the sum over the first
  64 plus the sum over the last 64 (addition of extended reals is commutative and associative), so every region's
  output array is the reference's stage of the same meaning, and the host operations between the regions are the
  reference's own.  No finiteness is needed: the precondition is never opened.

  The frames of the two kernel programs are the generated ones; the reference's frame is its generated run with the
  result dropped; the idealization rewrote nothing, so `preserves` is `True`.
-/
import proofs.«104744_j77352361001295_2_alg».proof.Defs
import proofs.«104744_j77352361001295_2_alg».proof.Proof.Gen.Kernel
import proofs.«104744_j77352361001295_2_alg».proof.Proof.Gen.Kernel.Skeleton
import proofs.«104744_j77352361001295_2_alg».proof.Proof.Gen.Kernel.Launch
import proofs.«104744_j77352361001295_2_alg».proof.Proof.Gen.Kernel.Points
import proofs.«104744_j77352361001295_2_alg».proof.Proof.Gen.Kernel.Frame
import proofs.«104744_j77352361001295_2_alg».proof.Proof.Gen.KernelIdeal
import proofs.«104744_j77352361001295_2_alg».proof.Proof.Gen.KernelIdeal.Skeleton
import proofs.«104744_j77352361001295_2_alg».proof.Proof.Gen.KernelIdeal.Launch
import proofs.«104744_j77352361001295_2_alg».proof.Proof.Gen.KernelIdeal.Points
import proofs.«104744_j77352361001295_2_alg».proof.Proof.Gen.KernelIdeal.Frame
import proofs.«104744_j77352361001295_2_alg».proof.Proof.Gen.ReferenceIdeal
import proofs.«104744_j77352361001295_2_alg».proof.Proof.Gen.Pre_finite_inputs
import proofs.«104744_j77352361001295_2_alg».proof.Proof.Gen.ReferenceIdeal.Run
import proofs.«104744_j77352361001295_2_alg».proof.Proof.Gen.ReferenceIdeal.Read
import proofs.«104744_j77352361001295_2_alg».proof.Proof.Chain
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result vector at the reference's last stage of the arguments' launch contents: the
    kernel's by the chain through its eleven segments, the reference's by its run read back; the arguments agree. -/
theorem algebraic : Cert.algebraic_KernelIdeal_ReferenceIdeal := by
  intro m ρ m' ρ' _ hagree
  refine ⟨_, Cert.KernelIdeal.Whole.kernel_value m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33, e34, e35, e36⟩ := hagree c
  rw [(h c).1, Cert.ReferenceIdeal.Read.val_main_v191_eq, e0, e1, e2, e3, e4, e5, e6, e7, e8, e9, e10, e11, e12, e13, e14, e15, e16, e17, e18, e19, e20, e21, e22, e23, e24, e25, e26, e27, e28, e29, e30, e31, e32, e33, e34, e35, e36]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
